-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v316) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S5x64x64 : Shape := ⟨3, ![5, 64, 64]⟩
abbrev S5x64 : Shape := ⟨2, ![5, 64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S64x16 .f32) (main_arg10 : FVec F S16 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S5x64 .f32) (main_arg7 : FVec F S5x64x64 .f32) (main_arg8 : FVec F S5x64 .f32) (main_arg9 : FVec F S64x16 .f32) (main_arg10 : FVec F S16 .f32) (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  let main_v19 : FVec F S5x64 .f32 := Host.absf main_arg6
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  let main_v24 : FVec F S5x64x64 .f32 := Host.absf main_arg7
  let main_cst_8 : FVec F S_ .f32 := constant S_ .f32 0x7F800000#32
  let main_v25 : FVec F S5x64x64 .f32 := broadcastInDim S5x64x64 ![] bcast_S_S5x64x64 main_cst_8
  let main_v26 : IVec S5x64x64 1 := cmpf .olt main_v24 main_v25
  let main_c_9 : IVec S_ 1 := constantI S_ 1 1#1
  let main_v27 : IVec S_ 1 := (fun x v => Host.reduce IntOp.andi x v reducesTo_S5x64x64_S_d0_1_2 h_S_) main_v26 main_c_9
  let main_v28 : IVec S_ 1 := andi main_v23 main_v27
  let main_v29 : FVec F S5x64 .f32 := Host.absf main_arg8
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1000000 32) (main_arg2 : IVec S100000 32) (main_arg3 : FVec F S5x64x64 .f32) (main_arg4 : FVec F S5x64 .f32) (main_arg5 : FVec F S5x64 .f32) (main_arg6 : FVec F S5x64 .f32) (main_arg7 : FVec F S5x64x64 .f32) (main_arg8 : FVec F S5x64 .f32) (main_arg9 : FVec F S64x16 .f32) (main_arg10 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg3
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S5x64 .f32 := Host.absf main_arg5
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S5x64x64 : Shape := ⟨3, ![5, 64, 64]⟩
abbrev S5x64 : Shape := ⟨2, ![5, 64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S128x64 : Shape := ⟨2, ![128, 64]⟩
abbrev S100000x1 : Shape := ⟨2, ![100000, 1]⟩
abbrev S1x16 : Shape := ⟨2, ![1, 16]⟩
abbrev S128x16 : Shape := ⟨2, ![128, 16]⟩

abbrev nBuf : Space → Nat
  | .hbm => 251
  | .vmem => 94
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S5x64x64, .f32⟩
  | 4 => ⟨S5x64, .f32⟩
  | 5 => ⟨S5x64, .f32⟩
  | 6 => ⟨S5x64, .f32⟩
  | 7 => ⟨S5x64x64, .f32⟩
  | 8 => ⟨S5x64, .f32⟩
  | 9 => ⟨S64x16, .f32⟩
  | 10 => ⟨S16, .f32⟩
  | 11 => ⟨S1x1000000, .i32⟩
  | 12 => ⟨S1000000, .i32⟩
  | 13 => ⟨S1x1000000, .i32⟩
  | 14 => ⟨S1000000, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S_, .f32⟩
  | 25 => ⟨S100000x64, .f32⟩
  | 26 => ⟨S1000000x1, .i32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S1x64, .f32⟩
  | 33 => ⟨S100000x64, .f32⟩
  | 34 => ⟨S_, .f32⟩
  | 35 => ⟨S64, .f32⟩
  | 36 => ⟨S1x64, .f32⟩
  | 37 => ⟨S_, .f32⟩
  | 38 => ⟨S1x64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S64, .f32⟩
  | 51 => ⟨S1x64, .f32⟩
  | 52 => ⟨S1x64, .f32⟩
  | 53 => ⟨S64, .f32⟩
  | 54 => ⟨S1x64, .f32⟩
  | 55 => ⟨S1x64x64, .f32⟩
  | 56 => ⟨S64x64, .f32⟩
  | 57 => ⟨S1x64, .f32⟩
  | 58 => ⟨S64, .f32⟩
  | 59 => ⟨S1x64, .f32⟩
  | 60 => ⟨S100000x64, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x64, .f32⟩
  | 70 => ⟨S_, .f32⟩
  | 71 => ⟨S100000x64, .f32⟩
  | 72 => ⟨S1000000x1, .i32⟩
  | 73 => ⟨S100000x64, .f32⟩
  | 74 => ⟨S1x64x64, .f32⟩
  | 75 => ⟨S64x64, .f32⟩
  | 76 => ⟨S1x64, .f32⟩
  | 77 => ⟨S64, .f32⟩
  | 78 => ⟨S1x64, .f32⟩
  | 79 => ⟨S100000x64, .f32⟩
  | 80 => ⟨S_, .f32⟩
  | 81 => ⟨S64, .f32⟩
  | 82 => ⟨S1x64, .f32⟩
  | 83 => ⟨S_, .f32⟩
  | 84 => ⟨S1x64, .f32⟩
  | 85 => ⟨S1x64, .f32⟩
  | 86 => ⟨S100000x64, .f32⟩
  | 87 => ⟨S100000x64, .f32⟩
  | 88 => ⟨S100000x64, .f32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S64, .f32⟩
  | 97 => ⟨S1x64, .f32⟩
  | 98 => ⟨S1x64, .f32⟩
  | 99 => ⟨S64, .f32⟩
  | 100 => ⟨S1x64, .f32⟩
  | 101 => ⟨S1x64x64, .f32⟩
  | 102 => ⟨S64x64, .f32⟩
  | 103 => ⟨S1x64, .f32⟩
  | 104 => ⟨S64, .f32⟩
  | 105 => ⟨S1x64, .f32⟩
  | 106 => ⟨S100000x64, .f32⟩
  | 107 => ⟨S_, .i32⟩
  | 108 => ⟨S1000000, .i32⟩
  | 109 => ⟨S1000000, .i1⟩
  | 110 => ⟨S_, .i32⟩
  | 111 => ⟨S1000000, .i32⟩
  | 112 => ⟨S1000000, .i32⟩
  | 113 => ⟨S1000000, .i32⟩
  | 114 => ⟨S1000000x1, .i32⟩
  | 115 => ⟨S1000000x64, .f32⟩
  | 116 => ⟨S_, .f32⟩
  | 117 => ⟨S100000x64, .f32⟩
  | 118 => ⟨S1000000x1, .i32⟩
  | 119 => ⟨S100000x64, .f32⟩
  | 120 => ⟨S1x64x64, .f32⟩
  | 121 => ⟨S64x64, .f32⟩
  | 122 => ⟨S1x64, .f32⟩
  | 123 => ⟨S64, .f32⟩
  | 124 => ⟨S1x64, .f32⟩
  | 125 => ⟨S100000x64, .f32⟩
  | 126 => ⟨S_, .f32⟩
  | 127 => ⟨S64, .f32⟩
  | _ => ⟨S100000x64, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S100000x64, .f32⟩
  | 5 => ⟨S100000x64, .f32⟩
  | 6 => ⟨S100000x64, .f32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S1x64, .f32⟩
  | 14 => ⟨S64, .f32⟩
  | 15 => ⟨S1x64, .f32⟩
  | 16 => ⟨S1x64, .f32⟩
  | 17 => ⟨S64, .f32⟩
  | 18 => ⟨S1x64, .f32⟩
  | 19 => ⟨S1x64x64, .f32⟩
  | 20 => ⟨S64x64, .f32⟩
  | 21 => ⟨S1x64, .f32⟩
  | 22 => ⟨S64, .f32⟩
  | 23 => ⟨S1x64, .f32⟩
  | 24 => ⟨S100000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S_, .f32⟩
  | 35 => ⟨S100000x64, .f32⟩
  | 36 => ⟨S1000000x1, .i32⟩
  | 37 => ⟨S100000x64, .f32⟩
  | 38 => ⟨S1x64x64, .f32⟩
  | 39 => ⟨S64x64, .f32⟩
  | 40 => ⟨S1x64, .f32⟩
  | 41 => ⟨S64, .f32⟩
  | 42 => ⟨S1x64, .f32⟩
  | 43 => ⟨S100000x64, .f32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S100000x64, .f32⟩
  | 51 => ⟨S100000x64, .f32⟩
  | 52 => ⟨S100000x64, .f32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S1x64, .f32⟩
  | 60 => ⟨S64, .f32⟩
  | 61 => ⟨S1x64, .f32⟩
  | 62 => ⟨S1x64, .f32⟩
  | 63 => ⟨S64, .f32⟩
  | 64 => ⟨S1x64, .f32⟩
  | 65 => ⟨S1x64x64, .f32⟩
  | 66 => ⟨S64x64, .f32⟩
  | 67 => ⟨S1x64, .f32⟩
  | 68 => ⟨S64, .f32⟩
  | 69 => ⟨S1x64, .f32⟩
  | 70 => ⟨S100000x64, .f32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x64, .f32⟩
  | 80 => ⟨S_, .f32⟩
  | 81 => ⟨S100000x64, .f32⟩
  | 82 => ⟨S1000000x1, .i32⟩
  | 83 => ⟨S100000x64, .f32⟩
  | 84 => ⟨S1x64x64, .f32⟩
  | 85 => ⟨S64x64, .f32⟩
  | 86 => ⟨S1x64, .f32⟩
  | 87 => ⟨S64, .f32⟩
  | 88 => ⟨S1x64, .f32⟩
  | 89 => ⟨S100000x64, .f32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S64, .f32⟩
  | 101 => ⟨S1x64, .f32⟩
  | 102 => ⟨S_, .f32⟩
  | 103 => ⟨S1x64, .f32⟩
  | 104 => ⟨S1x64, .f32⟩
  | 105 => ⟨S1x64, .f32⟩
  | 106 => ⟨S64, .f32⟩
  | 107 => ⟨S1x64, .f32⟩
  | 108 => ⟨S1x64, .f32⟩
  | 109 => ⟨S64, .f32⟩
  | 110 => ⟨S1x64, .f32⟩
  | 111 => ⟨S1x64x64, .f32⟩
  | 112 => ⟨S64x64, .f32⟩
  | 113 => ⟨S1x64, .f32⟩
  | 114 => ⟨S64, .f32⟩
  | 115 => ⟨S1x64, .f32⟩
  | 116 => ⟨S100000x64, .f32⟩
  | 117 => ⟨S_, .f32⟩
  | 118 => ⟨S128x64, .f32⟩
  | 119 => ⟨S100000x1, .i32⟩
  | 120 => ⟨S128x64, .f32⟩
  | 121 => ⟨S1x16, .f32⟩
  | 122 => ⟨S128x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S10000x64, .f32⟩
  | .local _ .vmem, ⟨75, _⟩ => ⟨S10000x64, .f32⟩
  | .local _ .vmem, ⟨76, _⟩ => ⟨S64x64, .f32⟩
  | .local _ .vmem, ⟨77, _⟩ => ⟨S1x64, .f32⟩
  | .local _ .vmem, ⟨78, _⟩ => ⟨S10000x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S64x64, .f32⟩
  | .local _ .vmem, ⟨87, _⟩ => ⟨S1x64, .f32⟩
  | .local _ .vmem, ⟨88, _⟩ => ⟨S10000x64, .f32⟩
  | .local _ .vmem, ⟨89, _⟩ => ⟨S10000x64, .f32⟩
  | .local _ .vmem, ⟨90, _⟩ => ⟨S128x64, .f32⟩
  | .local _ .vmem, ⟨91, _⟩ => ⟨S64x16, .f32⟩
  | .local _ .vmem, ⟨92, _⟩ => ⟨S1x16, .f32⟩
  | .local _ .vmem, ⟨93, _⟩ => ⟨S128x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_12 : Ref sig .tc := ⟨.hbm, 107, rfl⟩
abbrev main_v82 : Ref sig .tc := ⟨.hbm, 108, rfl⟩
abbrev main_v83 : Ref sig .tc := ⟨.hbm, 109, rfl⟩
abbrev main_c_13 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_15 : Ref sig .tc := ⟨.hbm, 126, rfl⟩
abbrev main_v98 : Ref sig .tc := ⟨.hbm, 127, rfl⟩
abbrev main_v99 : Ref sig .tc := ⟨.hbm, 128, rfl⟩
abbrev main_cst_16 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_17 : Ref sig .tc := ⟨.hbm, 135, rfl⟩
abbrev main_v105 : Ref sig .tc := ⟨.hbm, 136, rfl⟩
abbrev main_v106 : Ref sig .tc := ⟨.hbm, 137, rfl⟩
abbrev main_cst_18 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_c_19 : Ref sig .tc := ⟨.hbm, 153, rfl⟩
abbrev main_v121 : Ref sig .tc := ⟨.hbm, 154, rfl⟩
abbrev main_v122 : Ref sig .tc := ⟨.hbm, 155, rfl⟩
abbrev main_c_20 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_21 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_22 : Ref sig .tc := ⟨.hbm, 172, rfl⟩
abbrev main_v137 : Ref sig .tc := ⟨.hbm, 173, rfl⟩
abbrev main_v138 : Ref sig .tc := ⟨.hbm, 174, rfl⟩
abbrev main_cst_23 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_24 : Ref sig .tc := ⟨.hbm, 181, rfl⟩
abbrev main_v144 : Ref sig .tc := ⟨.hbm, 182, rfl⟩
abbrev main_v145 : Ref sig .tc := ⟨.hbm, 183, rfl⟩
abbrev main_cst_25 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_c_26 : Ref sig .tc := ⟨.hbm, 199, rfl⟩
abbrev main_v160 : Ref sig .tc := ⟨.hbm, 200, rfl⟩
abbrev main_v161 : Ref sig .tc := ⟨.hbm, 201, rfl⟩
abbrev main_c_27 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_28 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_29 : Ref sig .tc := ⟨.hbm, 218, rfl⟩
abbrev main_v176 : Ref sig .tc := ⟨.hbm, 219, rfl⟩
abbrev main_v177 : Ref sig .tc := ⟨.hbm, 220, rfl⟩
abbrev main_cst_30 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_31 : Ref sig .tc := ⟨.hbm, 227, rfl⟩
abbrev main_v183 : Ref sig .tc := ⟨.hbm, 228, rfl⟩
abbrev main_v184 : Ref sig .tc := ⟨.hbm, 229, rfl⟩
abbrev main_cst_32 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_33 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg6_0 : Ref sig .tc := ⟨.vmem, 69, rfl⟩
abbrev cc7_stg7_0 : Ref sig .tc := ⟨.vmem, 70, rfl⟩
abbrev cc7_stg7_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg4_1 : Ref sig .tc := ⟨.vmem, 79, rfl⟩
abbrev cc9_stg0_0 : Ref sig .tc := ⟨.vmem, 80, rfl⟩
abbrev cc9_stg0_1 : Ref sig .tc := ⟨.vmem, 81, rfl⟩
abbrev cc9_stg1_0 : Ref sig .tc := ⟨.vmem, 82, rfl⟩
abbrev cc9_stg2_0 : Ref sig .tc := ⟨.vmem, 83, rfl⟩
abbrev cc9_stg3_0 : Ref sig .tc := ⟨.vmem, 84, rfl⟩
abbrev cc9_stg4_0 : Ref sig .tc := ⟨.vmem, 85, rfl⟩
abbrev cc9_stg5_0 : Ref sig .tc := ⟨.vmem, 86, rfl⟩
abbrev cc9_stg6_0 : Ref sig .tc := ⟨.vmem, 87, rfl⟩
abbrev cc9_stg7_0 : Ref sig .tc := ⟨.vmem, 88, rfl⟩
abbrev cc9_stg7_1 : Ref sig .tc := ⟨.vmem, 89, rfl⟩
abbrev cc10_stg0_0 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg3_0 : Ref sig .tc := ⟨.vmem, 93, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem6_0 : DmaSem sig := 69
abbrev cc7_sem7_0 : DmaSem sig := 70
abbrev cc7_sem7_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem4_1 : DmaSem sig := 79
abbrev cc9_sem0_0 : DmaSem sig := 80
abbrev cc9_sem0_1 : DmaSem sig := 81
abbrev cc9_sem1_0 : DmaSem sig := 82
abbrev cc9_sem2_0 : DmaSem sig := 83
abbrev cc9_sem3_0 : DmaSem sig := 84
abbrev cc9_sem4_0 : DmaSem sig := 85
abbrev cc9_sem5_0 : DmaSem sig := 86
abbrev cc9_sem6_0 : DmaSem sig := 87
abbrev cc9_sem7_0 : DmaSem sig := 88
abbrev cc9_sem7_1 : DmaSem sig := 89
abbrev cc10_sem0_0 : DmaSem sig := 90
abbrev cc10_sem1_0 : DmaSem sig := 91
abbrev cc10_sem2_0 : DmaSem sig := 92
abbrev cc10_sem3_0 : DmaSem sig := 93

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S10000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S10000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S10000x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S128x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S64x16 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x16 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x16 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  shapeCasts_S16_S1x16 : S16.ShapeCasts S1x16
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  inb_S128x16_S128x16_0_0 : ∀ a, (![0, 0] : Fin 2 → Nat) a + S128x16.size a ≤ S128x16.size a
  h_S128x16 : 0 < S128x16.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  dot_S128x64_S64x16_S128x16_1_0_0_1_n_n_wf : DotDims.WF S128x64 S64x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S100000x64.size a
  hwx3_7 : ∀ i : grid3.Coords, EltTy.bits .f32 = 32 ∨ (Rect.block (s := S100000x64) S10000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S10000x64.size a ≤ S100000x64.size a
  hwx5_7 : ∀ i : grid5.Coords, EltTy.bits .f32 = 32 ∨ (Rect.block (s := S100000x64) S10000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S100000x64.size a
  hwx6_4 : ∀ i : grid6.Coords, EltTy.bits .f32 = 32 ∨ (Rect.block (s := S100000x64) S10000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x64.size a ≤ S64x64.size a
  hwx7_5 : ∀ i : grid7.Coords, EltTy.bits .f32 = 32 ∨ (Rect.block (s := S64x64) S64x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S10000x64.size a ≤ S100000x64.size a
  hwx7_7 : ∀ i : grid7.Coords, EltTy.bits .f32 = 32 ∨ (Rect.block (s := S100000x64) S10000x64.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x64.size a ≤ S100000x64.size a
  hwx8_4 : ∀ i : grid8.Coords, EltTy.bits .f32 = 32 ∨ (Rect.block (s := S100000x64) S10000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S10000x64.size a ≤ S100000x64.size a
  hwx9_7 : ∀ i : grid9.Coords, EltTy.bits .f32 = 32 ∨ (Rect.block (s := S100000x64) S10000x64.size (cc9_transform_7 i) (hinb9_7 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S128x64.size a ≤ S128x64.size a
  hwx10_0 : ∀ i : grid10.Coords, EltTy.bits .f32 = 32 ∨ (Rect.block (s := S128x64) S128x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x16.size a ≤ S64x16.size a
  hwx10_1 : ∀ i : grid10.Coords, EltTy.bits .f32 = 32 ∨ (Rect.block (s := S64x16) S64x16.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x16.size a ≤ S1x16.size a
  hwx10_2 : ∀ i : grid10.Coords, EltTy.bits .f32 = 32 ∨ (Rect.block (s := S1x16) S1x16.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x16.size a ≤ S128x16.size a
  hwx10_3 : ∀ i : grid10.Coords, EltTy.bits .f32 = 32 ∨ (Rect.block (s := S128x16) S128x16.size (cc10_transform_3 i) (hinb10_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v81) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v97) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v108) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v114) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v116) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v119) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v120) S10000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v120) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v130) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v132) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v135) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v136) S10000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v136) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v140) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v147) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v150) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v153) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v155) S64x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v158) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v159) S10000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v159) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v169) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v171) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v174) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v175) S10000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v175) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v179) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v186) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v189) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v192) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v194) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v197) S1x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v198) S10000x64.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v201) S128x64.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg9) S64x16.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v202) S1x16.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v203) S128x16.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S5x64x64 : Shape := ⟨3, ![5, 64, 64]⟩
abbrev S5x64 : Shape := ⟨2, ![5, 64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x64 : Shape := ⟨2, ![128, 64]⟩
abbrev S100000x1 : Shape := ⟨2, ![100000, 1]⟩
abbrev S128x16 : Shape := ⟨2, ![128, 16]⟩
abbrev S1x16 : Shape := ⟨2, ![1, 16]⟩

abbrev nBuf : Space → Nat
  | .hbm => 376
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S5x64x64, .f32⟩
  | 4 => ⟨S5x64, .f32⟩
  | 5 => ⟨S5x64, .f32⟩
  | 6 => ⟨S5x64, .f32⟩
  | 7 => ⟨S5x64x64, .f32⟩
  | 8 => ⟨S5x64, .f32⟩
  | 9 => ⟨S64x16, .f32⟩
  | 10 => ⟨S16, .f32⟩
  | 11 => ⟨S1x1000000, .i32⟩
  | 12 => ⟨S1000000, .i32⟩
  | 13 => ⟨S1x1000000, .i32⟩
  | 14 => ⟨S1000000, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S_, .f32⟩
  | 25 => ⟨S100000x64, .f32⟩
  | 26 => ⟨S1000000x1, .i32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S1x64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S64, .f32⟩
  | 42 => ⟨S_, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S64, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S64, .f32⟩
  | 71 => ⟨S1x64, .f32⟩
  | 72 => ⟨S100000x64, .f32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S100000x64, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S_, .f32⟩
  | 94 => ⟨S100000x64, .f32⟩
  | 95 => ⟨S1000000x1, .i32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S1x64x64, .f32⟩
  | 102 => ⟨S64x64, .f32⟩
  | 103 => ⟨S100000x64, .f32⟩
  | 104 => ⟨S1x64, .f32⟩
  | 105 => ⟨S64, .f32⟩
  | 106 => ⟨S1x64, .f32⟩
  | 107 => ⟨S100000x64, .f32⟩
  | 108 => ⟨S100000x64, .f32⟩
  | 109 => ⟨S_, .f32⟩
  | 110 => ⟨S64, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S100000x64, .f32⟩
  | 118 => ⟨S_, .f32⟩
  | 119 => ⟨S64, .f32⟩
  | 120 => ⟨S_, .f32⟩
  | 121 => ⟨S64, .f32⟩
  | 122 => ⟨S64, .f32⟩
  | 123 => ⟨S1x64, .f32⟩
  | 124 => ⟨S64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S64, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S1x64, .f32⟩
  | 11 => ⟨S64, .f32⟩
  | 12 => ⟨S1x64, .f32⟩
  | 13 => ⟨S100000x64, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S1x64, .f32⟩
  | 20 => ⟨S64, .f32⟩
  | 21 => ⟨S1x64, .f32⟩
  | 22 => ⟨S100000x64, .f32⟩
  | 23 => ⟨S100000x64, .f32⟩
  | 24 => ⟨S100000x64, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S_, .f32⟩
  | 35 => ⟨S100000x64, .f32⟩
  | 36 => ⟨S1000000x1, .i32⟩
  | 37 => ⟨S100000x64, .f32⟩
  | 38 => ⟨S_, .f32⟩
  | 39 => ⟨S100000x64, .f32⟩
  | 40 => ⟨S100000x64, .f32⟩
  | 41 => ⟨S100000x64, .f32⟩
  | 42 => ⟨S1x64x64, .f32⟩
  | 43 => ⟨S64x64, .f32⟩
  | 44 => ⟨S100000x64, .f32⟩
  | 45 => ⟨S1x64, .f32⟩
  | 46 => ⟨S64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S100000x64, .f32⟩
  | 85 => ⟨S1x64x64, .f32⟩
  | 86 => ⟨S64x64, .f32⟩
  | 87 => ⟨S100000x64, .f32⟩
  | 88 => ⟨S1x64, .f32⟩
  | 89 => ⟨S64, .f32⟩
  | 90 => ⟨S1x64, .f32⟩
  | 91 => ⟨S100000x64, .f32⟩
  | 92 => ⟨S100000x64, .f32⟩
  | 93 => ⟨S100000x64, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x64, .f32⟩
  | 103 => ⟨S_, .f32⟩
  | 104 => ⟨S100000x64, .f32⟩
  | 105 => ⟨S1000000x1, .i32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S1x64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S_, .f32⟩
  | 122 => ⟨S64, .f32⟩
  | 123 => ⟨S64, .f32⟩
  | 124 => ⟨S1x64, .f32⟩
  | 125 => ⟨S100000x64, .f32⟩
  | 126 => ⟨S100000x64, .f32⟩
  | 127 => ⟨S100000x64, .f32⟩
  | _ => ⟨S100000x64, .f32⟩

abbrev hbmTy0_2 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S64, .f32⟩
  | 7 => ⟨S1x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S64, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S1x64, .f32⟩
  | 21 => ⟨S64, .f32⟩
  | 22 => ⟨S1x64, .f32⟩
  | 23 => ⟨S100000x64, .f32⟩
  | 24 => ⟨S100000x64, .f32⟩
  | 25 => ⟨S100000x64, .f32⟩
  | 26 => ⟨S1x64x64, .f32⟩
  | 27 => ⟨S64x64, .f32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S100000x64, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S_, .f32⟩
  | 45 => ⟨S100000x64, .f32⟩
  | 46 => ⟨S1000000x1, .i32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64x64, .f32⟩
  | 53 => ⟨S64x64, .f32⟩
  | 54 => ⟨S100000x64, .f32⟩
  | 55 => ⟨S1x64, .f32⟩
  | 56 => ⟨S64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S_, .f32⟩
  | 63 => ⟨S64, .f32⟩
  | 64 => ⟨S64, .f32⟩
  | 65 => ⟨S1x64, .f32⟩
  | 66 => ⟨S100000x64, .f32⟩
  | 67 => ⟨S100000x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S64, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S100000x64, .f32⟩
  | 95 => ⟨S1x64x64, .f32⟩
  | 96 => ⟨S64x64, .f32⟩
  | 97 => ⟨S100000x64, .f32⟩
  | 98 => ⟨S1x64, .f32⟩
  | 99 => ⟨S64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S128x64, .f32⟩
  | 106 => ⟨S100000x1, .i32⟩
  | 107 => ⟨S128x64, .f32⟩
  | 108 => ⟨S128x16, .f32⟩
  | 109 => ⟨S1x16, .f32⟩
  | 110 => ⟨S128x16, .f32⟩
  | 111 => ⟨S128x16, .f32⟩
  | 112 => ⟨S128x16, .f32⟩
  | 113 => ⟨S128x16, .f32⟩
  | 114 => ⟨S_, .f32⟩
  | 115 => ⟨S128x16, .f32⟩
  | 116 => ⟨S128x16, .f32⟩
  | 117 => ⟨S_, .f32⟩
  | 118 => ⟨S128x16, .f32⟩
  | 119 => ⟨S128x16, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_7 : Ref sig .tc := ⟨.hbm, 84, rfl⟩
abbrev main_v64 : Ref sig .tc := ⟨.hbm, 85, rfl⟩
abbrev main_v65 : Ref sig .tc := ⟨.hbm, 86, rfl⟩
abbrev main_c_8 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_11 : Ref sig .tc := ⟨.hbm, 109, rfl⟩
abbrev main_v85 : Ref sig .tc := ⟨.hbm, 110, rfl⟩
abbrev main_cst_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_v92 : Ref sig .tc := ⟨.hbm, 119, rfl⟩
abbrev main_cst_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_15 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_c_16 : Ref sig .tc := ⟨.hbm, 153, rfl⟩
abbrev main_v124 : Ref sig .tc := ⟨.hbm, 154, rfl⟩
abbrev main_v125 : Ref sig .tc := ⟨.hbm, 155, rfl⟩
abbrev main_c_17 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_18 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_19 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_20 : Ref sig .tc := ⟨.hbm, 178, rfl⟩
abbrev main_v145 : Ref sig .tc := ⟨.hbm, 179, rfl⟩
abbrev main_cst_21 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_22 : Ref sig .tc := ⟨.hbm, 187, rfl⟩
abbrev main_v152 : Ref sig .tc := ⟨.hbm, 188, rfl⟩
abbrev main_cst_23 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_24 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_c_25 : Ref sig .tc := ⟨.hbm, 222, rfl⟩
abbrev main_v184 : Ref sig .tc := ⟨.hbm, 223, rfl⟩
abbrev main_v185 : Ref sig .tc := ⟨.hbm, 224, rfl⟩
abbrev main_c_26 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_cst_27 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_cst_28 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_cst_29 : Ref sig .tc := ⟨.hbm, 247, rfl⟩
abbrev main_v205 : Ref sig .tc := ⟨.hbm, 248, rfl⟩
abbrev main_cst_30 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_cst_31 : Ref sig .tc := ⟨.hbm, 256, rfl⟩
abbrev main_v212 : Ref sig .tc := ⟨.hbm, 257, rfl⟩
abbrev main_cst_32 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_cst_33 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_c_34 : Ref sig .tc := ⟨.hbm, 291, rfl⟩
abbrev main_v244 : Ref sig .tc := ⟨.hbm, 292, rfl⟩
abbrev main_v245 : Ref sig .tc := ⟨.hbm, 293, rfl⟩
abbrev main_c_35 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_cst_36 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_cst_37 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_cst_38 : Ref sig .tc := ⟨.hbm, 316, rfl⟩
abbrev main_v265 : Ref sig .tc := ⟨.hbm, 317, rfl⟩
abbrev main_cst_39 : Ref sig .tc := ⟨.hbm, 318, rfl⟩
abbrev main_v266 : Ref sig .tc := ⟨.hbm, 319, rfl⟩
abbrev main_v267 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_cst_40 : Ref sig .tc := ⟨.hbm, 325, rfl⟩
abbrev main_v272 : Ref sig .tc := ⟨.hbm, 326, rfl⟩
abbrev main_cst_41 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_cst_42 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_cst_43 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_v307 : Ref sig .tc := ⟨.hbm, 364, rfl⟩
abbrev main_v308 : Ref sig .tc := ⟨.hbm, 365, rfl⟩
abbrev main_v309 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_cst_44 : Ref sig .tc := ⟨.hbm, 370, rfl⟩
abbrev main_v313 : Ref sig .tc := ⟨.hbm, 371, rfl⟩
abbrev main_v314 : Ref sig .tc := ⟨.hbm, 372, rfl⟩
abbrev main_cst_45 : Ref sig .tc := ⟨.hbm, 373, rfl⟩
abbrev main_v315 : Ref sig .tc := ⟨.hbm, 374, rfl⟩
abbrev main_v316 : Ref sig .tc := ⟨.hbm, 375, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  bcast_S_S128x16 : S_.BroadcastsInDim S128x16 (![] : Fin 0 → Fin S128x16.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x16_S128x16_1_0_0_1_n_n_wf : DotDims.WF S128x64 S64x16 S128x16 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf

class Facts : Prop extends Facts₀ where

variable [Facts]
-- ==== Proof.KRun.lean ====
/-
  The kernel's program runs to the end from any launch memory; every execution terminates without a fault, leaves the
  eleven argument arrays as launched, and leaves the result array holding what the last of the eleven device calls
  wrote back: the contents of the result buffer in the fold of the program's host stretches and device calls.
-/
import proofs.«111606_j9388798509633_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result array at the last boundary's contents of its
    buffer and with the arguments unchanged. -/
theorem run_result : θ_run defs (onTc (τ := τ) (main (F := F))) ⟨m, fun _ => 0, ρ⟩ (fun r => ∀ c : Dev nD,
      r.2.mem ((c.tc : Thread nD τ).loc main_v203) = W22 m ρ c (Proc.devRef .tc main_v203)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v203 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c)⟩)

end Cert.KernelIdeal.Hand

end
-- ==== Proof.KKeep.lean ====
/-
  Which buffers the host stretches and the device calls leave alone.

  A host stretch writes only its own result buffers, and a device call writes only its output array; the argument
  arrays and the two index vectors cut from the edge list are written by neither once they exist. So at every later
  boundary of the program they still hold what they held when first written: the launch contents for an argument, the
  first stretch's results for the index vectors.
-/
import proofs.«111606_j9388798509633_1_alg».proof.Proof.Gen.KernelIdeal.Frame
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The buffers host stretch 0 writes. -/
abbrev hostW0 : List (Ref sig .tc) := [main_v0, main_v1, main_v2, main_v3, main_c, main_v4, main_v5, main_c_0, main_v6, main_v7, main_v8, main_v9, main_v10, main_cst, main_v11, main_v12, main_v13, main_v14, main_v15, main_v16, main_v17, main_v18]

theorem hostOps0_writes : (hostOps0 : List (HloOp τ sig (Elt Ideal))).Forall fun op => op.writes ⊆ (hostW0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 0 does not write keeps its contents through it. -/
theorem keepH0 (c : Dev nD) (r : Ref sig .tc) (h : r ∉ hostW0) :
    W1 m ρ c (Proc.devRef .tc r) = W0 m ρ c (Proc.devRef .tc r) :=
  StableHlo.after_of_writes_sub hostOps0 _ hostOps0_writes h

/-- The buffers host stretch 1 writes. -/
abbrev hostW1 : List (Ref sig .tc) := [main_cst_1, main_v20, main_v21, main_cst_2, main_v22, main_v23, main_v24, main_v25, main_v26, main_cst_3, main_v27, main_v28, main_cst_4, main_v29, main_v30, main_v31, main_v32, main_v33, main_v34, main_v35, main_v36, main_v37, main_v38, main_v39, main_v40, main_v41]

theorem hostOps1_writes : (hostOps1 : List (HloOp τ sig (Elt Ideal))).Forall fun op => op.writes ⊆ (hostW1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 1 does not write keeps its contents through it. -/
theorem keepH1 (c : Dev nD) (r : Ref sig .tc) (h : r ∉ hostW1) :
    W3 m ρ c (Proc.devRef .tc r) = W2 m ρ c (Proc.devRef .tc r) :=
  StableHlo.after_of_writes_sub hostOps1 _ hostOps1_writes h

/-- The buffers host stretch 2 writes. -/
abbrev hostW2 : List (Ref sig .tc) := [main_c_5, main_v43, main_v44, main_c_6, main_v45, main_v46, main_v47, main_v48, main_v49, main_cst_7, main_v50, main_v51, main_v52, main_v53, main_v54, main_v55, main_v56, main_v57]

theorem hostOps2_writes : (hostOps2 : List (HloOp τ sig (Elt Ideal))).Forall fun op => op.writes ⊆ (hostW2.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 2 does not write keeps its contents through it. -/
theorem keepH2 (c : Dev nD) (r : Ref sig .tc) (h : r ∉ hostW2) :
    W5 m ρ c (Proc.devRef .tc r) = W4 m ρ c (Proc.devRef .tc r) :=
  StableHlo.after_of_writes_sub hostOps2 _ hostOps2_writes h

/-- The buffers host stretch 3 writes. -/
abbrev hostW3 : List (Ref sig .tc) := [main_cst_8, main_v59, main_v60, main_cst_9, main_v61, main_v62, main_v63, main_v64, main_v65, main_cst_10, main_v66, main_v67, main_cst_11, main_v68, main_v69, main_v70, main_v71, main_v72, main_v73, main_v74, main_v75, main_v76, main_v77, main_v78, main_v79, main_v80]

theorem hostOps3_writes : (hostOps3 : List (HloOp τ sig (Elt Ideal))).Forall fun op => op.writes ⊆ (hostW3.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 3 does not write keeps its contents through it. -/
theorem keepH3 (c : Dev nD) (r : Ref sig .tc) (h : r ∉ hostW3) :
    W7 m ρ c (Proc.devRef .tc r) = W6 m ρ c (Proc.devRef .tc r) :=
  StableHlo.after_of_writes_sub hostOps3 _ hostOps3_writes h

/-- The buffers host stretch 4 writes. -/
abbrev hostW4 : List (Ref sig .tc) := [main_c_12, main_v82, main_v83, main_c_13, main_v84, main_v85, main_v86, main_v87, main_v88, main_cst_14, main_v89, main_v90, main_v91, main_v92, main_v93, main_v94, main_v95, main_v96]

theorem hostOps4_writes : (hostOps4 : List (HloOp τ sig (Elt Ideal))).Forall fun op => op.writes ⊆ (hostW4.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 4 does not write keeps its contents through it. -/
theorem keepH4 (c : Dev nD) (r : Ref sig .tc) (h : r ∉ hostW4) :
    W9 m ρ c (Proc.devRef .tc r) = W8 m ρ c (Proc.devRef .tc r) :=
  StableHlo.after_of_writes_sub hostOps4 _ hostOps4_writes h

/-- The buffers host stretch 5 writes. -/
abbrev hostW5 : List (Ref sig .tc) := [main_cst_15, main_v98, main_v99, main_cst_16, main_v100, main_v101, main_v102, main_v103, main_v104, main_cst_17, main_v105, main_v106, main_cst_18, main_v107, main_v108, main_v109, main_v110, main_v111, main_v112, main_v113, main_v114, main_v115, main_v116, main_v117, main_v118, main_v119]

theorem hostOps5_writes : (hostOps5 : List (HloOp τ sig (Elt Ideal))).Forall fun op => op.writes ⊆ (hostW5.map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 5 does not write keeps its contents through it. -/
theorem keepH5 (c : Dev nD) (r : Ref sig .tc) (h : r ∉ hostW5) :
    W11 m ρ c (Proc.devRef .tc r) = W10 m ρ c (Proc.devRef .tc r) :=
  StableHlo.after_of_writes_sub hostOps5 _ hostOps5_writes h

/-- The buffers host stretch 6 writes. -/
abbrev hostW6 : List (Ref sig .tc) := [main_c_19, main_v121, main_v122, main_c_20, main_v123, main_v124, main_v125, main_v126, main_v127, main_cst_21, main_v128, main_v129, main_v130, main_v131, main_v132, main_v133, main_v134, main_v135]

theorem hostOps6_writes : (hostOps6 : List (HloOp τ sig (Elt Ideal))).Forall fun op => op.writes ⊆ (hostW6.map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 6 does not write keeps its contents through it. -/
theorem keepH6 (c : Dev nD) (r : Ref sig .tc) (h : r ∉ hostW6) :
    W13 m ρ c (Proc.devRef .tc r) = W12 m ρ c (Proc.devRef .tc r) :=
  StableHlo.after_of_writes_sub hostOps6 _ hostOps6_writes h

/-- The buffers host stretch 7 writes. -/
abbrev hostW7 : List (Ref sig .tc) := [main_cst_22, main_v137, main_v138, main_cst_23, main_v139, main_v140, main_v141, main_v142, main_v143, main_cst_24, main_v144, main_v145, main_cst_25, main_v146, main_v147, main_v148, main_v149, main_v150, main_v151, main_v152, main_v153, main_v154, main_v155, main_v156, main_v157, main_v158]

theorem hostOps7_writes : (hostOps7 : List (HloOp τ sig (Elt Ideal))).Forall fun op => op.writes ⊆ (hostW7.map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 7 does not write keeps its contents through it. -/
theorem keepH7 (c : Dev nD) (r : Ref sig .tc) (h : r ∉ hostW7) :
    W15 m ρ c (Proc.devRef .tc r) = W14 m ρ c (Proc.devRef .tc r) :=
  StableHlo.after_of_writes_sub hostOps7 _ hostOps7_writes h

/-- The buffers host stretch 8 writes. -/
abbrev hostW8 : List (Ref sig .tc) := [main_c_26, main_v160, main_v161, main_c_27, main_v162, main_v163, main_v164, main_v165, main_v166, main_cst_28, main_v167, main_v168, main_v169, main_v170, main_v171, main_v172, main_v173, main_v174]

theorem hostOps8_writes : (hostOps8 : List (HloOp τ sig (Elt Ideal))).Forall fun op => op.writes ⊆ (hostW8.map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 8 does not write keeps its contents through it. -/
theorem keepH8 (c : Dev nD) (r : Ref sig .tc) (h : r ∉ hostW8) :
    W17 m ρ c (Proc.devRef .tc r) = W16 m ρ c (Proc.devRef .tc r) :=
  StableHlo.after_of_writes_sub hostOps8 _ hostOps8_writes h

/-- The buffers host stretch 9 writes. -/
abbrev hostW9 : List (Ref sig .tc) := [main_cst_29, main_v176, main_v177, main_cst_30, main_v178, main_v179, main_v180, main_v181, main_v182, main_cst_31, main_v183, main_v184, main_cst_32, main_v185, main_v186, main_v187, main_v188, main_v189, main_v190, main_v191, main_v192, main_v193, main_v194, main_v195, main_v196, main_v197]

theorem hostOps9_writes : (hostOps9 : List (HloOp τ sig (Elt Ideal))).Forall fun op => op.writes ⊆ (hostW9.map (Proc.devRef (τ := τ) .tc)).toFinset := by
  simp only [hostOps9, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 9 does not write keeps its contents through it. -/
theorem keepH9 (c : Dev nD) (r : Ref sig .tc) (h : r ∉ hostW9) :
    W19 m ρ c (Proc.devRef .tc r) = W18 m ρ c (Proc.devRef .tc r) :=
  StableHlo.after_of_writes_sub hostOps9 _ hostOps9_writes h

/-- The buffers host stretch 10 writes. -/
abbrev hostW10 : List (Ref sig .tc) := [main_cst_33, main_v199, main_v200, main_v201, main_v202]

theorem hostOps10_writes : (hostOps10 : List (HloOp τ sig (Elt Ideal))).Forall fun op => op.writes ⊆ (hostW10.map (Proc.devRef (τ := τ) .tc)).toFinset := by
  simp only [hostOps10, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer host stretch 10 does not write keeps its contents through it. -/
theorem keepH10 (c : Dev nD) (r : Ref sig .tc) (h : r ∉ hostW10) :
    W21 m ρ c (Proc.devRef .tc r) = W20 m ρ c (Proc.devRef .tc r) :=
  StableHlo.after_of_writes_sub hostOps10 _ hostOps10_writes h
theorem keep_main_v1_2 (c : Dev nD) : W2 m ρ c (Proc.devRef .tc main_v1) = W1 m ρ c (Proc.devRef .tc main_v1) :=
  W2_of_ne m ρ c main_v1 (by decide)
theorem keep_main_v1_3 (c : Dev nD) : W3 m ρ c (Proc.devRef .tc main_v1) = W1 m ρ c (Proc.devRef .tc main_v1) :=
  (keepH1 m ρ c main_v1 (by decide)).trans (keep_main_v1_2 m ρ c)
theorem keep_main_v1_4 (c : Dev nD) : W4 m ρ c (Proc.devRef .tc main_v1) = W1 m ρ c (Proc.devRef .tc main_v1) :=
  (W4_of_ne m ρ c main_v1 (by decide)).trans (keep_main_v1_3 m ρ c)
theorem keep_main_v1_5 (c : Dev nD) : W5 m ρ c (Proc.devRef .tc main_v1) = W1 m ρ c (Proc.devRef .tc main_v1) :=
  (keepH2 m ρ c main_v1 (by decide)).trans (keep_main_v1_4 m ρ c)
theorem keep_main_v1_6 (c : Dev nD) : W6 m ρ c (Proc.devRef .tc main_v1) = W1 m ρ c (Proc.devRef .tc main_v1) :=
  (W6_of_ne m ρ c main_v1 (by decide)).trans (keep_main_v1_5 m ρ c)
theorem keep_main_v1_7 (c : Dev nD) : W7 m ρ c (Proc.devRef .tc main_v1) = W1 m ρ c (Proc.devRef .tc main_v1) :=
  (keepH3 m ρ c main_v1 (by decide)).trans (keep_main_v1_6 m ρ c)
theorem keep_main_v1_8 (c : Dev nD) : W8 m ρ c (Proc.devRef .tc main_v1) = W1 m ρ c (Proc.devRef .tc main_v1) :=
  (W8_of_ne m ρ c main_v1 (by decide)).trans (keep_main_v1_7 m ρ c)
theorem keep_main_v1_9 (c : Dev nD) : W9 m ρ c (Proc.devRef .tc main_v1) = W1 m ρ c (Proc.devRef .tc main_v1) :=
  (keepH4 m ρ c main_v1 (by decide)).trans (keep_main_v1_8 m ρ c)
theorem keep_main_v1_10 (c : Dev nD) : W10 m ρ c (Proc.devRef .tc main_v1) = W1 m ρ c (Proc.devRef .tc main_v1) :=
  (W10_of_ne m ρ c main_v1 (by decide)).trans (keep_main_v1_9 m ρ c)
theorem keep_main_v1_11 (c : Dev nD) : W11 m ρ c (Proc.devRef .tc main_v1) = W1 m ρ c (Proc.devRef .tc main_v1) :=
  (keepH5 m ρ c main_v1 (by decide)).trans (keep_main_v1_10 m ρ c)
theorem keep_main_v1_12 (c : Dev nD) : W12 m ρ c (Proc.devRef .tc main_v1) = W1 m ρ c (Proc.devRef .tc main_v1) :=
  (W12_of_ne m ρ c main_v1 (by decide)).trans (keep_main_v1_11 m ρ c)
theorem keep_main_v1_13 (c : Dev nD) : W13 m ρ c (Proc.devRef .tc main_v1) = W1 m ρ c (Proc.devRef .tc main_v1) :=
  (keepH6 m ρ c main_v1 (by decide)).trans (keep_main_v1_12 m ρ c)
theorem keep_main_v1_14 (c : Dev nD) : W14 m ρ c (Proc.devRef .tc main_v1) = W1 m ρ c (Proc.devRef .tc main_v1) :=
  (W14_of_ne m ρ c main_v1 (by decide)).trans (keep_main_v1_13 m ρ c)
theorem keep_main_v1_15 (c : Dev nD) : W15 m ρ c (Proc.devRef .tc main_v1) = W1 m ρ c (Proc.devRef .tc main_v1) :=
  (keepH7 m ρ c main_v1 (by decide)).trans (keep_main_v1_14 m ρ c)
theorem keep_main_v1_16 (c : Dev nD) : W16 m ρ c (Proc.devRef .tc main_v1) = W1 m ρ c (Proc.devRef .tc main_v1) :=
  (W16_of_ne m ρ c main_v1 (by decide)).trans (keep_main_v1_15 m ρ c)
theorem keep_main_v3_2 (c : Dev nD) : W2 m ρ c (Proc.devRef .tc main_v3) = W1 m ρ c (Proc.devRef .tc main_v3) :=
  W2_of_ne m ρ c main_v3 (by decide)
theorem keep_main_v3_3 (c : Dev nD) : W3 m ρ c (Proc.devRef .tc main_v3) = W1 m ρ c (Proc.devRef .tc main_v3) :=
  (keepH1 m ρ c main_v3 (by decide)).trans (keep_main_v3_2 m ρ c)
theorem keep_main_v3_4 (c : Dev nD) : W4 m ρ c (Proc.devRef .tc main_v3) = W1 m ρ c (Proc.devRef .tc main_v3) :=
  (W4_of_ne m ρ c main_v3 (by decide)).trans (keep_main_v3_3 m ρ c)
theorem keep_main_v3_5 (c : Dev nD) : W5 m ρ c (Proc.devRef .tc main_v3) = W1 m ρ c (Proc.devRef .tc main_v3) :=
  (keepH2 m ρ c main_v3 (by decide)).trans (keep_main_v3_4 m ρ c)
theorem keep_main_v3_6 (c : Dev nD) : W6 m ρ c (Proc.devRef .tc main_v3) = W1 m ρ c (Proc.devRef .tc main_v3) :=
  (W6_of_ne m ρ c main_v3 (by decide)).trans (keep_main_v3_5 m ρ c)
theorem keep_main_v3_7 (c : Dev nD) : W7 m ρ c (Proc.devRef .tc main_v3) = W1 m ρ c (Proc.devRef .tc main_v3) :=
  (keepH3 m ρ c main_v3 (by decide)).trans (keep_main_v3_6 m ρ c)
theorem keep_main_v3_8 (c : Dev nD) : W8 m ρ c (Proc.devRef .tc main_v3) = W1 m ρ c (Proc.devRef .tc main_v3) :=
  (W8_of_ne m ρ c main_v3 (by decide)).trans (keep_main_v3_7 m ρ c)
theorem keep_main_v3_9 (c : Dev nD) : W9 m ρ c (Proc.devRef .tc main_v3) = W1 m ρ c (Proc.devRef .tc main_v3) :=
  (keepH4 m ρ c main_v3 (by decide)).trans (keep_main_v3_8 m ρ c)
theorem keep_main_v3_10 (c : Dev nD) : W10 m ρ c (Proc.devRef .tc main_v3) = W1 m ρ c (Proc.devRef .tc main_v3) :=
  (W10_of_ne m ρ c main_v3 (by decide)).trans (keep_main_v3_9 m ρ c)
theorem keep_main_v3_11 (c : Dev nD) : W11 m ρ c (Proc.devRef .tc main_v3) = W1 m ρ c (Proc.devRef .tc main_v3) :=
  (keepH5 m ρ c main_v3 (by decide)).trans (keep_main_v3_10 m ρ c)
theorem keep_main_v3_12 (c : Dev nD) : W12 m ρ c (Proc.devRef .tc main_v3) = W1 m ρ c (Proc.devRef .tc main_v3) :=
  (W12_of_ne m ρ c main_v3 (by decide)).trans (keep_main_v3_11 m ρ c)
theorem keep_main_v3_13 (c : Dev nD) : W13 m ρ c (Proc.devRef .tc main_v3) = W1 m ρ c (Proc.devRef .tc main_v3) :=
  (keepH6 m ρ c main_v3 (by decide)).trans (keep_main_v3_12 m ρ c)
theorem keep_main_v3_14 (c : Dev nD) : W14 m ρ c (Proc.devRef .tc main_v3) = W1 m ρ c (Proc.devRef .tc main_v3) :=
  (W14_of_ne m ρ c main_v3 (by decide)).trans (keep_main_v3_13 m ρ c)
theorem keep_main_v3_15 (c : Dev nD) : W15 m ρ c (Proc.devRef .tc main_v3) = W1 m ρ c (Proc.devRef .tc main_v3) :=
  (keepH7 m ρ c main_v3 (by decide)).trans (keep_main_v3_14 m ρ c)
theorem keep_main_v3_16 (c : Dev nD) : W16 m ρ c (Proc.devRef .tc main_v3) = W1 m ρ c (Proc.devRef .tc main_v3) :=
  (W16_of_ne m ρ c main_v3 (by decide)).trans (keep_main_v3_15 m ρ c)
theorem keep_main_arg3_1 (c : Dev nD) : W1 m ρ c (Proc.devRef .tc main_arg3) = W0 m ρ c (Proc.devRef .tc main_arg3) :=
  keepH0 m ρ c main_arg3 (by decide)
theorem keep_main_arg3_2 (c : Dev nD) : W2 m ρ c (Proc.devRef .tc main_arg3) = W0 m ρ c (Proc.devRef .tc main_arg3) :=
  (W2_of_ne m ρ c main_arg3 (by decide)).trans (keep_main_arg3_1 m ρ c)
theorem keep_main_arg3_3 (c : Dev nD) : W3 m ρ c (Proc.devRef .tc main_arg3) = W0 m ρ c (Proc.devRef .tc main_arg3) :=
  (keepH1 m ρ c main_arg3 (by decide)).trans (keep_main_arg3_2 m ρ c)
theorem keep_main_arg3_4 (c : Dev nD) : W4 m ρ c (Proc.devRef .tc main_arg3) = W0 m ρ c (Proc.devRef .tc main_arg3) :=
  (W4_of_ne m ρ c main_arg3 (by decide)).trans (keep_main_arg3_3 m ρ c)
theorem keep_main_arg3_5 (c : Dev nD) : W5 m ρ c (Proc.devRef .tc main_arg3) = W0 m ρ c (Proc.devRef .tc main_arg3) :=
  (keepH2 m ρ c main_arg3 (by decide)).trans (keep_main_arg3_4 m ρ c)
theorem keep_main_arg3_6 (c : Dev nD) : W6 m ρ c (Proc.devRef .tc main_arg3) = W0 m ρ c (Proc.devRef .tc main_arg3) :=
  (W6_of_ne m ρ c main_arg3 (by decide)).trans (keep_main_arg3_5 m ρ c)
theorem keep_main_arg3_7 (c : Dev nD) : W7 m ρ c (Proc.devRef .tc main_arg3) = W0 m ρ c (Proc.devRef .tc main_arg3) :=
  (keepH3 m ρ c main_arg3 (by decide)).trans (keep_main_arg3_6 m ρ c)
theorem keep_main_arg3_8 (c : Dev nD) : W8 m ρ c (Proc.devRef .tc main_arg3) = W0 m ρ c (Proc.devRef .tc main_arg3) :=
  (W8_of_ne m ρ c main_arg3 (by decide)).trans (keep_main_arg3_7 m ρ c)
theorem keep_main_arg3_9 (c : Dev nD) : W9 m ρ c (Proc.devRef .tc main_arg3) = W0 m ρ c (Proc.devRef .tc main_arg3) :=
  (keepH4 m ρ c main_arg3 (by decide)).trans (keep_main_arg3_8 m ρ c)
theorem keep_main_arg3_10 (c : Dev nD) : W10 m ρ c (Proc.devRef .tc main_arg3) = W0 m ρ c (Proc.devRef .tc main_arg3) :=
  (W10_of_ne m ρ c main_arg3 (by decide)).trans (keep_main_arg3_9 m ρ c)
theorem keep_main_arg3_11 (c : Dev nD) : W11 m ρ c (Proc.devRef .tc main_arg3) = W0 m ρ c (Proc.devRef .tc main_arg3) :=
  (keepH5 m ρ c main_arg3 (by decide)).trans (keep_main_arg3_10 m ρ c)
theorem keep_main_arg3_12 (c : Dev nD) : W12 m ρ c (Proc.devRef .tc main_arg3) = W0 m ρ c (Proc.devRef .tc main_arg3) :=
  (W12_of_ne m ρ c main_arg3 (by decide)).trans (keep_main_arg3_11 m ρ c)
theorem keep_main_arg3_13 (c : Dev nD) : W13 m ρ c (Proc.devRef .tc main_arg3) = W0 m ρ c (Proc.devRef .tc main_arg3) :=
  (keepH6 m ρ c main_arg3 (by decide)).trans (keep_main_arg3_12 m ρ c)
theorem keep_main_arg3_14 (c : Dev nD) : W14 m ρ c (Proc.devRef .tc main_arg3) = W0 m ρ c (Proc.devRef .tc main_arg3) :=
  (W14_of_ne m ρ c main_arg3 (by decide)).trans (keep_main_arg3_13 m ρ c)
theorem keep_main_arg3_15 (c : Dev nD) : W15 m ρ c (Proc.devRef .tc main_arg3) = W0 m ρ c (Proc.devRef .tc main_arg3) :=
  (keepH7 m ρ c main_arg3 (by decide)).trans (keep_main_arg3_14 m ρ c)
theorem keep_main_arg3_16 (c : Dev nD) : W16 m ρ c (Proc.devRef .tc main_arg3) = W0 m ρ c (Proc.devRef .tc main_arg3) :=
  (W16_of_ne m ρ c main_arg3 (by decide)).trans (keep_main_arg3_15 m ρ c)
theorem keep_main_arg4_1 (c : Dev nD) : W1 m ρ c (Proc.devRef .tc main_arg4) = W0 m ρ c (Proc.devRef .tc main_arg4) :=
  keepH0 m ρ c main_arg4 (by decide)
theorem keep_main_arg4_2 (c : Dev nD) : W2 m ρ c (Proc.devRef .tc main_arg4) = W0 m ρ c (Proc.devRef .tc main_arg4) :=
  (W2_of_ne m ρ c main_arg4 (by decide)).trans (keep_main_arg4_1 m ρ c)
theorem keep_main_arg4_3 (c : Dev nD) : W3 m ρ c (Proc.devRef .tc main_arg4) = W0 m ρ c (Proc.devRef .tc main_arg4) :=
  (keepH1 m ρ c main_arg4 (by decide)).trans (keep_main_arg4_2 m ρ c)
theorem keep_main_arg4_4 (c : Dev nD) : W4 m ρ c (Proc.devRef .tc main_arg4) = W0 m ρ c (Proc.devRef .tc main_arg4) :=
  (W4_of_ne m ρ c main_arg4 (by decide)).trans (keep_main_arg4_3 m ρ c)
theorem keep_main_arg4_5 (c : Dev nD) : W5 m ρ c (Proc.devRef .tc main_arg4) = W0 m ρ c (Proc.devRef .tc main_arg4) :=
  (keepH2 m ρ c main_arg4 (by decide)).trans (keep_main_arg4_4 m ρ c)
theorem keep_main_arg4_6 (c : Dev nD) : W6 m ρ c (Proc.devRef .tc main_arg4) = W0 m ρ c (Proc.devRef .tc main_arg4) :=
  (W6_of_ne m ρ c main_arg4 (by decide)).trans (keep_main_arg4_5 m ρ c)
theorem keep_main_arg4_7 (c : Dev nD) : W7 m ρ c (Proc.devRef .tc main_arg4) = W0 m ρ c (Proc.devRef .tc main_arg4) :=
  (keepH3 m ρ c main_arg4 (by decide)).trans (keep_main_arg4_6 m ρ c)
theorem keep_main_arg4_8 (c : Dev nD) : W8 m ρ c (Proc.devRef .tc main_arg4) = W0 m ρ c (Proc.devRef .tc main_arg4) :=
  (W8_of_ne m ρ c main_arg4 (by decide)).trans (keep_main_arg4_7 m ρ c)
theorem keep_main_arg4_9 (c : Dev nD) : W9 m ρ c (Proc.devRef .tc main_arg4) = W0 m ρ c (Proc.devRef .tc main_arg4) :=
  (keepH4 m ρ c main_arg4 (by decide)).trans (keep_main_arg4_8 m ρ c)
theorem keep_main_arg4_10 (c : Dev nD) : W10 m ρ c (Proc.devRef .tc main_arg4) = W0 m ρ c (Proc.devRef .tc main_arg4) :=
  (W10_of_ne m ρ c main_arg4 (by decide)).trans (keep_main_arg4_9 m ρ c)
theorem keep_main_arg4_11 (c : Dev nD) : W11 m ρ c (Proc.devRef .tc main_arg4) = W0 m ρ c (Proc.devRef .tc main_arg4) :=
  (keepH5 m ρ c main_arg4 (by decide)).trans (keep_main_arg4_10 m ρ c)
theorem keep_main_arg4_12 (c : Dev nD) : W12 m ρ c (Proc.devRef .tc main_arg4) = W0 m ρ c (Proc.devRef .tc main_arg4) :=
  (W12_of_ne m ρ c main_arg4 (by decide)).trans (keep_main_arg4_11 m ρ c)
theorem keep_main_arg4_13 (c : Dev nD) : W13 m ρ c (Proc.devRef .tc main_arg4) = W0 m ρ c (Proc.devRef .tc main_arg4) :=
  (keepH6 m ρ c main_arg4 (by decide)).trans (keep_main_arg4_12 m ρ c)
theorem keep_main_arg4_14 (c : Dev nD) : W14 m ρ c (Proc.devRef .tc main_arg4) = W0 m ρ c (Proc.devRef .tc main_arg4) :=
  (W14_of_ne m ρ c main_arg4 (by decide)).trans (keep_main_arg4_13 m ρ c)
theorem keep_main_arg4_15 (c : Dev nD) : W15 m ρ c (Proc.devRef .tc main_arg4) = W0 m ρ c (Proc.devRef .tc main_arg4) :=
  (keepH7 m ρ c main_arg4 (by decide)).trans (keep_main_arg4_14 m ρ c)
theorem keep_main_arg4_16 (c : Dev nD) : W16 m ρ c (Proc.devRef .tc main_arg4) = W0 m ρ c (Proc.devRef .tc main_arg4) :=
  (W16_of_ne m ρ c main_arg4 (by decide)).trans (keep_main_arg4_15 m ρ c)
theorem keep_main_arg5_1 (c : Dev nD) : W1 m ρ c (Proc.devRef .tc main_arg5) = W0 m ρ c (Proc.devRef .tc main_arg5) :=
  keepH0 m ρ c main_arg5 (by decide)
theorem keep_main_arg5_2 (c : Dev nD) : W2 m ρ c (Proc.devRef .tc main_arg5) = W0 m ρ c (Proc.devRef .tc main_arg5) :=
  (W2_of_ne m ρ c main_arg5 (by decide)).trans (keep_main_arg5_1 m ρ c)
theorem keep_main_arg5_3 (c : Dev nD) : W3 m ρ c (Proc.devRef .tc main_arg5) = W0 m ρ c (Proc.devRef .tc main_arg5) :=
  (keepH1 m ρ c main_arg5 (by decide)).trans (keep_main_arg5_2 m ρ c)
theorem keep_main_arg5_4 (c : Dev nD) : W4 m ρ c (Proc.devRef .tc main_arg5) = W0 m ρ c (Proc.devRef .tc main_arg5) :=
  (W4_of_ne m ρ c main_arg5 (by decide)).trans (keep_main_arg5_3 m ρ c)
theorem keep_main_arg5_5 (c : Dev nD) : W5 m ρ c (Proc.devRef .tc main_arg5) = W0 m ρ c (Proc.devRef .tc main_arg5) :=
  (keepH2 m ρ c main_arg5 (by decide)).trans (keep_main_arg5_4 m ρ c)
theorem keep_main_arg5_6 (c : Dev nD) : W6 m ρ c (Proc.devRef .tc main_arg5) = W0 m ρ c (Proc.devRef .tc main_arg5) :=
  (W6_of_ne m ρ c main_arg5 (by decide)).trans (keep_main_arg5_5 m ρ c)
theorem keep_main_arg5_7 (c : Dev nD) : W7 m ρ c (Proc.devRef .tc main_arg5) = W0 m ρ c (Proc.devRef .tc main_arg5) :=
  (keepH3 m ρ c main_arg5 (by decide)).trans (keep_main_arg5_6 m ρ c)
theorem keep_main_arg5_8 (c : Dev nD) : W8 m ρ c (Proc.devRef .tc main_arg5) = W0 m ρ c (Proc.devRef .tc main_arg5) :=
  (W8_of_ne m ρ c main_arg5 (by decide)).trans (keep_main_arg5_7 m ρ c)
theorem keep_main_arg5_9 (c : Dev nD) : W9 m ρ c (Proc.devRef .tc main_arg5) = W0 m ρ c (Proc.devRef .tc main_arg5) :=
  (keepH4 m ρ c main_arg5 (by decide)).trans (keep_main_arg5_8 m ρ c)
theorem keep_main_arg5_10 (c : Dev nD) : W10 m ρ c (Proc.devRef .tc main_arg5) = W0 m ρ c (Proc.devRef .tc main_arg5) :=
  (W10_of_ne m ρ c main_arg5 (by decide)).trans (keep_main_arg5_9 m ρ c)
theorem keep_main_arg5_11 (c : Dev nD) : W11 m ρ c (Proc.devRef .tc main_arg5) = W0 m ρ c (Proc.devRef .tc main_arg5) :=
  (keepH5 m ρ c main_arg5 (by decide)).trans (keep_main_arg5_10 m ρ c)
theorem keep_main_arg5_12 (c : Dev nD) : W12 m ρ c (Proc.devRef .tc main_arg5) = W0 m ρ c (Proc.devRef .tc main_arg5) :=
  (W12_of_ne m ρ c main_arg5 (by decide)).trans (keep_main_arg5_11 m ρ c)
theorem keep_main_arg5_13 (c : Dev nD) : W13 m ρ c (Proc.devRef .tc main_arg5) = W0 m ρ c (Proc.devRef .tc main_arg5) :=
  (keepH6 m ρ c main_arg5 (by decide)).trans (keep_main_arg5_12 m ρ c)
theorem keep_main_arg5_14 (c : Dev nD) : W14 m ρ c (Proc.devRef .tc main_arg5) = W0 m ρ c (Proc.devRef .tc main_arg5) :=
  (W14_of_ne m ρ c main_arg5 (by decide)).trans (keep_main_arg5_13 m ρ c)
theorem keep_main_arg5_15 (c : Dev nD) : W15 m ρ c (Proc.devRef .tc main_arg5) = W0 m ρ c (Proc.devRef .tc main_arg5) :=
  (keepH7 m ρ c main_arg5 (by decide)).trans (keep_main_arg5_14 m ρ c)
theorem keep_main_arg5_16 (c : Dev nD) : W16 m ρ c (Proc.devRef .tc main_arg5) = W0 m ρ c (Proc.devRef .tc main_arg5) :=
  (W16_of_ne m ρ c main_arg5 (by decide)).trans (keep_main_arg5_15 m ρ c)
theorem keep_main_arg5_17 (c : Dev nD) : W17 m ρ c (Proc.devRef .tc main_arg5) = W0 m ρ c (Proc.devRef .tc main_arg5) :=
  (keepH8 m ρ c main_arg5 (by decide)).trans (keep_main_arg5_16 m ρ c)
theorem keep_main_arg5_18 (c : Dev nD) : W18 m ρ c (Proc.devRef .tc main_arg5) = W0 m ρ c (Proc.devRef .tc main_arg5) :=
  (W18_of_ne m ρ c main_arg5 (by decide)).trans (keep_main_arg5_17 m ρ c)
theorem keep_main_arg6_1 (c : Dev nD) : W1 m ρ c (Proc.devRef .tc main_arg6) = W0 m ρ c (Proc.devRef .tc main_arg6) :=
  keepH0 m ρ c main_arg6 (by decide)
theorem keep_main_arg6_2 (c : Dev nD) : W2 m ρ c (Proc.devRef .tc main_arg6) = W0 m ρ c (Proc.devRef .tc main_arg6) :=
  (W2_of_ne m ρ c main_arg6 (by decide)).trans (keep_main_arg6_1 m ρ c)
theorem keep_main_arg6_3 (c : Dev nD) : W3 m ρ c (Proc.devRef .tc main_arg6) = W0 m ρ c (Proc.devRef .tc main_arg6) :=
  (keepH1 m ρ c main_arg6 (by decide)).trans (keep_main_arg6_2 m ρ c)
theorem keep_main_arg6_4 (c : Dev nD) : W4 m ρ c (Proc.devRef .tc main_arg6) = W0 m ρ c (Proc.devRef .tc main_arg6) :=
  (W4_of_ne m ρ c main_arg6 (by decide)).trans (keep_main_arg6_3 m ρ c)
theorem keep_main_arg6_5 (c : Dev nD) : W5 m ρ c (Proc.devRef .tc main_arg6) = W0 m ρ c (Proc.devRef .tc main_arg6) :=
  (keepH2 m ρ c main_arg6 (by decide)).trans (keep_main_arg6_4 m ρ c)
theorem keep_main_arg6_6 (c : Dev nD) : W6 m ρ c (Proc.devRef .tc main_arg6) = W0 m ρ c (Proc.devRef .tc main_arg6) :=
  (W6_of_ne m ρ c main_arg6 (by decide)).trans (keep_main_arg6_5 m ρ c)
theorem keep_main_arg6_7 (c : Dev nD) : W7 m ρ c (Proc.devRef .tc main_arg6) = W0 m ρ c (Proc.devRef .tc main_arg6) :=
  (keepH3 m ρ c main_arg6 (by decide)).trans (keep_main_arg6_6 m ρ c)
theorem keep_main_arg6_8 (c : Dev nD) : W8 m ρ c (Proc.devRef .tc main_arg6) = W0 m ρ c (Proc.devRef .tc main_arg6) :=
  (W8_of_ne m ρ c main_arg6 (by decide)).trans (keep_main_arg6_7 m ρ c)
theorem keep_main_arg6_9 (c : Dev nD) : W9 m ρ c (Proc.devRef .tc main_arg6) = W0 m ρ c (Proc.devRef .tc main_arg6) :=
  (keepH4 m ρ c main_arg6 (by decide)).trans (keep_main_arg6_8 m ρ c)
theorem keep_main_arg6_10 (c : Dev nD) : W10 m ρ c (Proc.devRef .tc main_arg6) = W0 m ρ c (Proc.devRef .tc main_arg6) :=
  (W10_of_ne m ρ c main_arg6 (by decide)).trans (keep_main_arg6_9 m ρ c)
theorem keep_main_arg6_11 (c : Dev nD) : W11 m ρ c (Proc.devRef .tc main_arg6) = W0 m ρ c (Proc.devRef .tc main_arg6) :=
  (keepH5 m ρ c main_arg6 (by decide)).trans (keep_main_arg6_10 m ρ c)
theorem keep_main_arg6_12 (c : Dev nD) : W12 m ρ c (Proc.devRef .tc main_arg6) = W0 m ρ c (Proc.devRef .tc main_arg6) :=
  (W12_of_ne m ρ c main_arg6 (by decide)).trans (keep_main_arg6_11 m ρ c)
theorem keep_main_arg6_13 (c : Dev nD) : W13 m ρ c (Proc.devRef .tc main_arg6) = W0 m ρ c (Proc.devRef .tc main_arg6) :=
  (keepH6 m ρ c main_arg6 (by decide)).trans (keep_main_arg6_12 m ρ c)
theorem keep_main_arg6_14 (c : Dev nD) : W14 m ρ c (Proc.devRef .tc main_arg6) = W0 m ρ c (Proc.devRef .tc main_arg6) :=
  (W14_of_ne m ρ c main_arg6 (by decide)).trans (keep_main_arg6_13 m ρ c)
theorem keep_main_arg6_15 (c : Dev nD) : W15 m ρ c (Proc.devRef .tc main_arg6) = W0 m ρ c (Proc.devRef .tc main_arg6) :=
  (keepH7 m ρ c main_arg6 (by decide)).trans (keep_main_arg6_14 m ρ c)
theorem keep_main_arg6_16 (c : Dev nD) : W16 m ρ c (Proc.devRef .tc main_arg6) = W0 m ρ c (Proc.devRef .tc main_arg6) :=
  (W16_of_ne m ρ c main_arg6 (by decide)).trans (keep_main_arg6_15 m ρ c)
theorem keep_main_arg6_17 (c : Dev nD) : W17 m ρ c (Proc.devRef .tc main_arg6) = W0 m ρ c (Proc.devRef .tc main_arg6) :=
  (keepH8 m ρ c main_arg6 (by decide)).trans (keep_main_arg6_16 m ρ c)
theorem keep_main_arg6_18 (c : Dev nD) : W18 m ρ c (Proc.devRef .tc main_arg6) = W0 m ρ c (Proc.devRef .tc main_arg6) :=
  (W18_of_ne m ρ c main_arg6 (by decide)).trans (keep_main_arg6_17 m ρ c)
theorem keep_main_arg7_1 (c : Dev nD) : W1 m ρ c (Proc.devRef .tc main_arg7) = W0 m ρ c (Proc.devRef .tc main_arg7) :=
  keepH0 m ρ c main_arg7 (by decide)
theorem keep_main_arg7_2 (c : Dev nD) : W2 m ρ c (Proc.devRef .tc main_arg7) = W0 m ρ c (Proc.devRef .tc main_arg7) :=
  (W2_of_ne m ρ c main_arg7 (by decide)).trans (keep_main_arg7_1 m ρ c)
theorem keep_main_arg7_3 (c : Dev nD) : W3 m ρ c (Proc.devRef .tc main_arg7) = W0 m ρ c (Proc.devRef .tc main_arg7) :=
  (keepH1 m ρ c main_arg7 (by decide)).trans (keep_main_arg7_2 m ρ c)
theorem keep_main_arg7_4 (c : Dev nD) : W4 m ρ c (Proc.devRef .tc main_arg7) = W0 m ρ c (Proc.devRef .tc main_arg7) :=
  (W4_of_ne m ρ c main_arg7 (by decide)).trans (keep_main_arg7_3 m ρ c)
theorem keep_main_arg7_5 (c : Dev nD) : W5 m ρ c (Proc.devRef .tc main_arg7) = W0 m ρ c (Proc.devRef .tc main_arg7) :=
  (keepH2 m ρ c main_arg7 (by decide)).trans (keep_main_arg7_4 m ρ c)
theorem keep_main_arg7_6 (c : Dev nD) : W6 m ρ c (Proc.devRef .tc main_arg7) = W0 m ρ c (Proc.devRef .tc main_arg7) :=
  (W6_of_ne m ρ c main_arg7 (by decide)).trans (keep_main_arg7_5 m ρ c)
theorem keep_main_arg7_7 (c : Dev nD) : W7 m ρ c (Proc.devRef .tc main_arg7) = W0 m ρ c (Proc.devRef .tc main_arg7) :=
  (keepH3 m ρ c main_arg7 (by decide)).trans (keep_main_arg7_6 m ρ c)
theorem keep_main_arg7_8 (c : Dev nD) : W8 m ρ c (Proc.devRef .tc main_arg7) = W0 m ρ c (Proc.devRef .tc main_arg7) :=
  (W8_of_ne m ρ c main_arg7 (by decide)).trans (keep_main_arg7_7 m ρ c)
theorem keep_main_arg7_9 (c : Dev nD) : W9 m ρ c (Proc.devRef .tc main_arg7) = W0 m ρ c (Proc.devRef .tc main_arg7) :=
  (keepH4 m ρ c main_arg7 (by decide)).trans (keep_main_arg7_8 m ρ c)
theorem keep_main_arg7_10 (c : Dev nD) : W10 m ρ c (Proc.devRef .tc main_arg7) = W0 m ρ c (Proc.devRef .tc main_arg7) :=
  (W10_of_ne m ρ c main_arg7 (by decide)).trans (keep_main_arg7_9 m ρ c)
theorem keep_main_arg7_11 (c : Dev nD) : W11 m ρ c (Proc.devRef .tc main_arg7) = W0 m ρ c (Proc.devRef .tc main_arg7) :=
  (keepH5 m ρ c main_arg7 (by decide)).trans (keep_main_arg7_10 m ρ c)
theorem keep_main_arg7_12 (c : Dev nD) : W12 m ρ c (Proc.devRef .tc main_arg7) = W0 m ρ c (Proc.devRef .tc main_arg7) :=
  (W12_of_ne m ρ c main_arg7 (by decide)).trans (keep_main_arg7_11 m ρ c)
theorem keep_main_arg7_13 (c : Dev nD) : W13 m ρ c (Proc.devRef .tc main_arg7) = W0 m ρ c (Proc.devRef .tc main_arg7) :=
  (keepH6 m ρ c main_arg7 (by decide)).trans (keep_main_arg7_12 m ρ c)
theorem keep_main_arg7_14 (c : Dev nD) : W14 m ρ c (Proc.devRef .tc main_arg7) = W0 m ρ c (Proc.devRef .tc main_arg7) :=
  (W14_of_ne m ρ c main_arg7 (by decide)).trans (keep_main_arg7_13 m ρ c)
theorem keep_main_arg7_15 (c : Dev nD) : W15 m ρ c (Proc.devRef .tc main_arg7) = W0 m ρ c (Proc.devRef .tc main_arg7) :=
  (keepH7 m ρ c main_arg7 (by decide)).trans (keep_main_arg7_14 m ρ c)
theorem keep_main_arg7_16 (c : Dev nD) : W16 m ρ c (Proc.devRef .tc main_arg7) = W0 m ρ c (Proc.devRef .tc main_arg7) :=
  (W16_of_ne m ρ c main_arg7 (by decide)).trans (keep_main_arg7_15 m ρ c)
theorem keep_main_arg7_17 (c : Dev nD) : W17 m ρ c (Proc.devRef .tc main_arg7) = W0 m ρ c (Proc.devRef .tc main_arg7) :=
  (keepH8 m ρ c main_arg7 (by decide)).trans (keep_main_arg7_16 m ρ c)
theorem keep_main_arg7_18 (c : Dev nD) : W18 m ρ c (Proc.devRef .tc main_arg7) = W0 m ρ c (Proc.devRef .tc main_arg7) :=
  (W18_of_ne m ρ c main_arg7 (by decide)).trans (keep_main_arg7_17 m ρ c)
theorem keep_main_arg8_1 (c : Dev nD) : W1 m ρ c (Proc.devRef .tc main_arg8) = W0 m ρ c (Proc.devRef .tc main_arg8) :=
  keepH0 m ρ c main_arg8 (by decide)
theorem keep_main_arg8_2 (c : Dev nD) : W2 m ρ c (Proc.devRef .tc main_arg8) = W0 m ρ c (Proc.devRef .tc main_arg8) :=
  (W2_of_ne m ρ c main_arg8 (by decide)).trans (keep_main_arg8_1 m ρ c)
theorem keep_main_arg8_3 (c : Dev nD) : W3 m ρ c (Proc.devRef .tc main_arg8) = W0 m ρ c (Proc.devRef .tc main_arg8) :=
  (keepH1 m ρ c main_arg8 (by decide)).trans (keep_main_arg8_2 m ρ c)
theorem keep_main_arg8_4 (c : Dev nD) : W4 m ρ c (Proc.devRef .tc main_arg8) = W0 m ρ c (Proc.devRef .tc main_arg8) :=
  (W4_of_ne m ρ c main_arg8 (by decide)).trans (keep_main_arg8_3 m ρ c)
theorem keep_main_arg8_5 (c : Dev nD) : W5 m ρ c (Proc.devRef .tc main_arg8) = W0 m ρ c (Proc.devRef .tc main_arg8) :=
  (keepH2 m ρ c main_arg8 (by decide)).trans (keep_main_arg8_4 m ρ c)
theorem keep_main_arg8_6 (c : Dev nD) : W6 m ρ c (Proc.devRef .tc main_arg8) = W0 m ρ c (Proc.devRef .tc main_arg8) :=
  (W6_of_ne m ρ c main_arg8 (by decide)).trans (keep_main_arg8_5 m ρ c)
theorem keep_main_arg8_7 (c : Dev nD) : W7 m ρ c (Proc.devRef .tc main_arg8) = W0 m ρ c (Proc.devRef .tc main_arg8) :=
  (keepH3 m ρ c main_arg8 (by decide)).trans (keep_main_arg8_6 m ρ c)
theorem keep_main_arg8_8 (c : Dev nD) : W8 m ρ c (Proc.devRef .tc main_arg8) = W0 m ρ c (Proc.devRef .tc main_arg8) :=
  (W8_of_ne m ρ c main_arg8 (by decide)).trans (keep_main_arg8_7 m ρ c)
theorem keep_main_arg8_9 (c : Dev nD) : W9 m ρ c (Proc.devRef .tc main_arg8) = W0 m ρ c (Proc.devRef .tc main_arg8) :=
  (keepH4 m ρ c main_arg8 (by decide)).trans (keep_main_arg8_8 m ρ c)
theorem keep_main_arg8_10 (c : Dev nD) : W10 m ρ c (Proc.devRef .tc main_arg8) = W0 m ρ c (Proc.devRef .tc main_arg8) :=
  (W10_of_ne m ρ c main_arg8 (by decide)).trans (keep_main_arg8_9 m ρ c)
theorem keep_main_arg8_11 (c : Dev nD) : W11 m ρ c (Proc.devRef .tc main_arg8) = W0 m ρ c (Proc.devRef .tc main_arg8) :=
  (keepH5 m ρ c main_arg8 (by decide)).trans (keep_main_arg8_10 m ρ c)
theorem keep_main_arg8_12 (c : Dev nD) : W12 m ρ c (Proc.devRef .tc main_arg8) = W0 m ρ c (Proc.devRef .tc main_arg8) :=
  (W12_of_ne m ρ c main_arg8 (by decide)).trans (keep_main_arg8_11 m ρ c)
theorem keep_main_arg8_13 (c : Dev nD) : W13 m ρ c (Proc.devRef .tc main_arg8) = W0 m ρ c (Proc.devRef .tc main_arg8) :=
  (keepH6 m ρ c main_arg8 (by decide)).trans (keep_main_arg8_12 m ρ c)
theorem keep_main_arg8_14 (c : Dev nD) : W14 m ρ c (Proc.devRef .tc main_arg8) = W0 m ρ c (Proc.devRef .tc main_arg8) :=
  (W14_of_ne m ρ c main_arg8 (by decide)).trans (keep_main_arg8_13 m ρ c)
theorem keep_main_arg8_15 (c : Dev nD) : W15 m ρ c (Proc.devRef .tc main_arg8) = W0 m ρ c (Proc.devRef .tc main_arg8) :=
  (keepH7 m ρ c main_arg8 (by decide)).trans (keep_main_arg8_14 m ρ c)
theorem keep_main_arg8_16 (c : Dev nD) : W16 m ρ c (Proc.devRef .tc main_arg8) = W0 m ρ c (Proc.devRef .tc main_arg8) :=
  (W16_of_ne m ρ c main_arg8 (by decide)).trans (keep_main_arg8_15 m ρ c)
theorem keep_main_arg8_17 (c : Dev nD) : W17 m ρ c (Proc.devRef .tc main_arg8) = W0 m ρ c (Proc.devRef .tc main_arg8) :=
  (keepH8 m ρ c main_arg8 (by decide)).trans (keep_main_arg8_16 m ρ c)
theorem keep_main_arg8_18 (c : Dev nD) : W18 m ρ c (Proc.devRef .tc main_arg8) = W0 m ρ c (Proc.devRef .tc main_arg8) :=
  (W18_of_ne m ρ c main_arg8 (by decide)).trans (keep_main_arg8_17 m ρ c)
theorem keep_main_arg2_1 (c : Dev nD) : W1 m ρ c (Proc.devRef .tc main_arg2) = W0 m ρ c (Proc.devRef .tc main_arg2) :=
  keepH0 m ρ c main_arg2 (by decide)
theorem keep_main_arg2_2 (c : Dev nD) : W2 m ρ c (Proc.devRef .tc main_arg2) = W0 m ρ c (Proc.devRef .tc main_arg2) :=
  (W2_of_ne m ρ c main_arg2 (by decide)).trans (keep_main_arg2_1 m ρ c)
theorem keep_main_arg2_3 (c : Dev nD) : W3 m ρ c (Proc.devRef .tc main_arg2) = W0 m ρ c (Proc.devRef .tc main_arg2) :=
  (keepH1 m ρ c main_arg2 (by decide)).trans (keep_main_arg2_2 m ρ c)
theorem keep_main_arg2_4 (c : Dev nD) : W4 m ρ c (Proc.devRef .tc main_arg2) = W0 m ρ c (Proc.devRef .tc main_arg2) :=
  (W4_of_ne m ρ c main_arg2 (by decide)).trans (keep_main_arg2_3 m ρ c)
theorem keep_main_arg2_5 (c : Dev nD) : W5 m ρ c (Proc.devRef .tc main_arg2) = W0 m ρ c (Proc.devRef .tc main_arg2) :=
  (keepH2 m ρ c main_arg2 (by decide)).trans (keep_main_arg2_4 m ρ c)
theorem keep_main_arg2_6 (c : Dev nD) : W6 m ρ c (Proc.devRef .tc main_arg2) = W0 m ρ c (Proc.devRef .tc main_arg2) :=
  (W6_of_ne m ρ c main_arg2 (by decide)).trans (keep_main_arg2_5 m ρ c)
theorem keep_main_arg2_7 (c : Dev nD) : W7 m ρ c (Proc.devRef .tc main_arg2) = W0 m ρ c (Proc.devRef .tc main_arg2) :=
  (keepH3 m ρ c main_arg2 (by decide)).trans (keep_main_arg2_6 m ρ c)
theorem keep_main_arg2_8 (c : Dev nD) : W8 m ρ c (Proc.devRef .tc main_arg2) = W0 m ρ c (Proc.devRef .tc main_arg2) :=
  (W8_of_ne m ρ c main_arg2 (by decide)).trans (keep_main_arg2_7 m ρ c)
theorem keep_main_arg2_9 (c : Dev nD) : W9 m ρ c (Proc.devRef .tc main_arg2) = W0 m ρ c (Proc.devRef .tc main_arg2) :=
  (keepH4 m ρ c main_arg2 (by decide)).trans (keep_main_arg2_8 m ρ c)
theorem keep_main_arg2_10 (c : Dev nD) : W10 m ρ c (Proc.devRef .tc main_arg2) = W0 m ρ c (Proc.devRef .tc main_arg2) :=
  (W10_of_ne m ρ c main_arg2 (by decide)).trans (keep_main_arg2_9 m ρ c)
theorem keep_main_arg2_11 (c : Dev nD) : W11 m ρ c (Proc.devRef .tc main_arg2) = W0 m ρ c (Proc.devRef .tc main_arg2) :=
  (keepH5 m ρ c main_arg2 (by decide)).trans (keep_main_arg2_10 m ρ c)
theorem keep_main_arg2_12 (c : Dev nD) : W12 m ρ c (Proc.devRef .tc main_arg2) = W0 m ρ c (Proc.devRef .tc main_arg2) :=
  (W12_of_ne m ρ c main_arg2 (by decide)).trans (keep_main_arg2_11 m ρ c)
theorem keep_main_arg2_13 (c : Dev nD) : W13 m ρ c (Proc.devRef .tc main_arg2) = W0 m ρ c (Proc.devRef .tc main_arg2) :=
  (keepH6 m ρ c main_arg2 (by decide)).trans (keep_main_arg2_12 m ρ c)
theorem keep_main_arg2_14 (c : Dev nD) : W14 m ρ c (Proc.devRef .tc main_arg2) = W0 m ρ c (Proc.devRef .tc main_arg2) :=
  (W14_of_ne m ρ c main_arg2 (by decide)).trans (keep_main_arg2_13 m ρ c)
theorem keep_main_arg2_15 (c : Dev nD) : W15 m ρ c (Proc.devRef .tc main_arg2) = W0 m ρ c (Proc.devRef .tc main_arg2) :=
  (keepH7 m ρ c main_arg2 (by decide)).trans (keep_main_arg2_14 m ρ c)
theorem keep_main_arg2_16 (c : Dev nD) : W16 m ρ c (Proc.devRef .tc main_arg2) = W0 m ρ c (Proc.devRef .tc main_arg2) :=
  (W16_of_ne m ρ c main_arg2 (by decide)).trans (keep_main_arg2_15 m ρ c)
theorem keep_main_arg2_17 (c : Dev nD) : W17 m ρ c (Proc.devRef .tc main_arg2) = W0 m ρ c (Proc.devRef .tc main_arg2) :=
  (keepH8 m ρ c main_arg2 (by decide)).trans (keep_main_arg2_16 m ρ c)
theorem keep_main_arg2_18 (c : Dev nD) : W18 m ρ c (Proc.devRef .tc main_arg2) = W0 m ρ c (Proc.devRef .tc main_arg2) :=
  (W18_of_ne m ρ c main_arg2 (by decide)).trans (keep_main_arg2_17 m ρ c)
theorem keep_main_arg2_19 (c : Dev nD) : W19 m ρ c (Proc.devRef .tc main_arg2) = W0 m ρ c (Proc.devRef .tc main_arg2) :=
  (keepH9 m ρ c main_arg2 (by decide)).trans (keep_main_arg2_18 m ρ c)
theorem keep_main_arg2_20 (c : Dev nD) : W20 m ρ c (Proc.devRef .tc main_arg2) = W0 m ρ c (Proc.devRef .tc main_arg2) :=
  (W20_of_ne m ρ c main_arg2 (by decide)).trans (keep_main_arg2_19 m ρ c)
theorem keep_main_arg10_1 (c : Dev nD) : W1 m ρ c (Proc.devRef .tc main_arg10) = W0 m ρ c (Proc.devRef .tc main_arg10) :=
  keepH0 m ρ c main_arg10 (by decide)
theorem keep_main_arg10_2 (c : Dev nD) : W2 m ρ c (Proc.devRef .tc main_arg10) = W0 m ρ c (Proc.devRef .tc main_arg10) :=
  (W2_of_ne m ρ c main_arg10 (by decide)).trans (keep_main_arg10_1 m ρ c)
theorem keep_main_arg10_3 (c : Dev nD) : W3 m ρ c (Proc.devRef .tc main_arg10) = W0 m ρ c (Proc.devRef .tc main_arg10) :=
  (keepH1 m ρ c main_arg10 (by decide)).trans (keep_main_arg10_2 m ρ c)
theorem keep_main_arg10_4 (c : Dev nD) : W4 m ρ c (Proc.devRef .tc main_arg10) = W0 m ρ c (Proc.devRef .tc main_arg10) :=
  (W4_of_ne m ρ c main_arg10 (by decide)).trans (keep_main_arg10_3 m ρ c)
theorem keep_main_arg10_5 (c : Dev nD) : W5 m ρ c (Proc.devRef .tc main_arg10) = W0 m ρ c (Proc.devRef .tc main_arg10) :=
  (keepH2 m ρ c main_arg10 (by decide)).trans (keep_main_arg10_4 m ρ c)
theorem keep_main_arg10_6 (c : Dev nD) : W6 m ρ c (Proc.devRef .tc main_arg10) = W0 m ρ c (Proc.devRef .tc main_arg10) :=
  (W6_of_ne m ρ c main_arg10 (by decide)).trans (keep_main_arg10_5 m ρ c)
theorem keep_main_arg10_7 (c : Dev nD) : W7 m ρ c (Proc.devRef .tc main_arg10) = W0 m ρ c (Proc.devRef .tc main_arg10) :=
  (keepH3 m ρ c main_arg10 (by decide)).trans (keep_main_arg10_6 m ρ c)
theorem keep_main_arg10_8 (c : Dev nD) : W8 m ρ c (Proc.devRef .tc main_arg10) = W0 m ρ c (Proc.devRef .tc main_arg10) :=
  (W8_of_ne m ρ c main_arg10 (by decide)).trans (keep_main_arg10_7 m ρ c)
theorem keep_main_arg10_9 (c : Dev nD) : W9 m ρ c (Proc.devRef .tc main_arg10) = W0 m ρ c (Proc.devRef .tc main_arg10) :=
  (keepH4 m ρ c main_arg10 (by decide)).trans (keep_main_arg10_8 m ρ c)
theorem keep_main_arg10_10 (c : Dev nD) : W10 m ρ c (Proc.devRef .tc main_arg10) = W0 m ρ c (Proc.devRef .tc main_arg10) :=
  (W10_of_ne m ρ c main_arg10 (by decide)).trans (keep_main_arg10_9 m ρ c)
theorem keep_main_arg10_11 (c : Dev nD) : W11 m ρ c (Proc.devRef .tc main_arg10) = W0 m ρ c (Proc.devRef .tc main_arg10) :=
  (keepH5 m ρ c main_arg10 (by decide)).trans (keep_main_arg10_10 m ρ c)
theorem keep_main_arg10_12 (c : Dev nD) : W12 m ρ c (Proc.devRef .tc main_arg10) = W0 m ρ c (Proc.devRef .tc main_arg10) :=
  (W12_of_ne m ρ c main_arg10 (by decide)).trans (keep_main_arg10_11 m ρ c)
theorem keep_main_arg10_13 (c : Dev nD) : W13 m ρ c (Proc.devRef .tc main_arg10) = W0 m ρ c (Proc.devRef .tc main_arg10) :=
  (keepH6 m ρ c main_arg10 (by decide)).trans (keep_main_arg10_12 m ρ c)
theorem keep_main_arg10_14 (c : Dev nD) : W14 m ρ c (Proc.devRef .tc main_arg10) = W0 m ρ c (Proc.devRef .tc main_arg10) :=
  (W14_of_ne m ρ c main_arg10 (by decide)).trans (keep_main_arg10_13 m ρ c)
theorem keep_main_arg10_15 (c : Dev nD) : W15 m ρ c (Proc.devRef .tc main_arg10) = W0 m ρ c (Proc.devRef .tc main_arg10) :=
  (keepH7 m ρ c main_arg10 (by decide)).trans (keep_main_arg10_14 m ρ c)
theorem keep_main_arg10_16 (c : Dev nD) : W16 m ρ c (Proc.devRef .tc main_arg10) = W0 m ρ c (Proc.devRef .tc main_arg10) :=
  (W16_of_ne m ρ c main_arg10 (by decide)).trans (keep_main_arg10_15 m ρ c)
theorem keep_main_arg10_17 (c : Dev nD) : W17 m ρ c (Proc.devRef .tc main_arg10) = W0 m ρ c (Proc.devRef .tc main_arg10) :=
  (keepH8 m ρ c main_arg10 (by decide)).trans (keep_main_arg10_16 m ρ c)
theorem keep_main_arg10_18 (c : Dev nD) : W18 m ρ c (Proc.devRef .tc main_arg10) = W0 m ρ c (Proc.devRef .tc main_arg10) :=
  (W18_of_ne m ρ c main_arg10 (by decide)).trans (keep_main_arg10_17 m ρ c)
theorem keep_main_arg10_19 (c : Dev nD) : W19 m ρ c (Proc.devRef .tc main_arg10) = W0 m ρ c (Proc.devRef .tc main_arg10) :=
  (keepH9 m ρ c main_arg10 (by decide)).trans (keep_main_arg10_18 m ρ c)
theorem keep_main_arg10_20 (c : Dev nD) : W20 m ρ c (Proc.devRef .tc main_arg10) = W0 m ρ c (Proc.devRef .tc main_arg10) :=
  (W20_of_ne m ρ c main_arg10 (by decide)).trans (keep_main_arg10_19 m ρ c)
theorem keep_main_arg9_1 (c : Dev nD) : W1 m ρ c (Proc.devRef .tc main_arg9) = W0 m ρ c (Proc.devRef .tc main_arg9) :=
  keepH0 m ρ c main_arg9 (by decide)
theorem keep_main_arg9_2 (c : Dev nD) : W2 m ρ c (Proc.devRef .tc main_arg9) = W0 m ρ c (Proc.devRef .tc main_arg9) :=
  (W2_of_ne m ρ c main_arg9 (by decide)).trans (keep_main_arg9_1 m ρ c)
theorem keep_main_arg9_3 (c : Dev nD) : W3 m ρ c (Proc.devRef .tc main_arg9) = W0 m ρ c (Proc.devRef .tc main_arg9) :=
  (keepH1 m ρ c main_arg9 (by decide)).trans (keep_main_arg9_2 m ρ c)
theorem keep_main_arg9_4 (c : Dev nD) : W4 m ρ c (Proc.devRef .tc main_arg9) = W0 m ρ c (Proc.devRef .tc main_arg9) :=
  (W4_of_ne m ρ c main_arg9 (by decide)).trans (keep_main_arg9_3 m ρ c)
theorem keep_main_arg9_5 (c : Dev nD) : W5 m ρ c (Proc.devRef .tc main_arg9) = W0 m ρ c (Proc.devRef .tc main_arg9) :=
  (keepH2 m ρ c main_arg9 (by decide)).trans (keep_main_arg9_4 m ρ c)
theorem keep_main_arg9_6 (c : Dev nD) : W6 m ρ c (Proc.devRef .tc main_arg9) = W0 m ρ c (Proc.devRef .tc main_arg9) :=
  (W6_of_ne m ρ c main_arg9 (by decide)).trans (keep_main_arg9_5 m ρ c)
theorem keep_main_arg9_7 (c : Dev nD) : W7 m ρ c (Proc.devRef .tc main_arg9) = W0 m ρ c (Proc.devRef .tc main_arg9) :=
  (keepH3 m ρ c main_arg9 (by decide)).trans (keep_main_arg9_6 m ρ c)
theorem keep_main_arg9_8 (c : Dev nD) : W8 m ρ c (Proc.devRef .tc main_arg9) = W0 m ρ c (Proc.devRef .tc main_arg9) :=
  (W8_of_ne m ρ c main_arg9 (by decide)).trans (keep_main_arg9_7 m ρ c)
theorem keep_main_arg9_9 (c : Dev nD) : W9 m ρ c (Proc.devRef .tc main_arg9) = W0 m ρ c (Proc.devRef .tc main_arg9) :=
  (keepH4 m ρ c main_arg9 (by decide)).trans (keep_main_arg9_8 m ρ c)
theorem keep_main_arg9_10 (c : Dev nD) : W10 m ρ c (Proc.devRef .tc main_arg9) = W0 m ρ c (Proc.devRef .tc main_arg9) :=
  (W10_of_ne m ρ c main_arg9 (by decide)).trans (keep_main_arg9_9 m ρ c)
theorem keep_main_arg9_11 (c : Dev nD) : W11 m ρ c (Proc.devRef .tc main_arg9) = W0 m ρ c (Proc.devRef .tc main_arg9) :=
  (keepH5 m ρ c main_arg9 (by decide)).trans (keep_main_arg9_10 m ρ c)
theorem keep_main_arg9_12 (c : Dev nD) : W12 m ρ c (Proc.devRef .tc main_arg9) = W0 m ρ c (Proc.devRef .tc main_arg9) :=
  (W12_of_ne m ρ c main_arg9 (by decide)).trans (keep_main_arg9_11 m ρ c)
theorem keep_main_arg9_13 (c : Dev nD) : W13 m ρ c (Proc.devRef .tc main_arg9) = W0 m ρ c (Proc.devRef .tc main_arg9) :=
  (keepH6 m ρ c main_arg9 (by decide)).trans (keep_main_arg9_12 m ρ c)
theorem keep_main_arg9_14 (c : Dev nD) : W14 m ρ c (Proc.devRef .tc main_arg9) = W0 m ρ c (Proc.devRef .tc main_arg9) :=
  (W14_of_ne m ρ c main_arg9 (by decide)).trans (keep_main_arg9_13 m ρ c)
theorem keep_main_arg9_15 (c : Dev nD) : W15 m ρ c (Proc.devRef .tc main_arg9) = W0 m ρ c (Proc.devRef .tc main_arg9) :=
  (keepH7 m ρ c main_arg9 (by decide)).trans (keep_main_arg9_14 m ρ c)
theorem keep_main_arg9_16 (c : Dev nD) : W16 m ρ c (Proc.devRef .tc main_arg9) = W0 m ρ c (Proc.devRef .tc main_arg9) :=
  (W16_of_ne m ρ c main_arg9 (by decide)).trans (keep_main_arg9_15 m ρ c)
theorem keep_main_arg9_17 (c : Dev nD) : W17 m ρ c (Proc.devRef .tc main_arg9) = W0 m ρ c (Proc.devRef .tc main_arg9) :=
  (keepH8 m ρ c main_arg9 (by decide)).trans (keep_main_arg9_16 m ρ c)
theorem keep_main_arg9_18 (c : Dev nD) : W18 m ρ c (Proc.devRef .tc main_arg9) = W0 m ρ c (Proc.devRef .tc main_arg9) :=
  (W18_of_ne m ρ c main_arg9 (by decide)).trans (keep_main_arg9_17 m ρ c)
theorem keep_main_arg9_19 (c : Dev nD) : W19 m ρ c (Proc.devRef .tc main_arg9) = W0 m ρ c (Proc.devRef .tc main_arg9) :=
  (keepH9 m ρ c main_arg9 (by decide)).trans (keep_main_arg9_18 m ρ c)
theorem keep_main_arg9_20 (c : Dev nD) : W20 m ρ c (Proc.devRef .tc main_arg9) = W0 m ρ c (Proc.devRef .tc main_arg9) :=
  (W20_of_ne m ρ c main_arg9 (by decide)).trans (keep_main_arg9_19 m ρ c)
theorem keep_main_arg9_21 (c : Dev nD) : W21 m ρ c (Proc.devRef .tc main_arg9) = W0 m ρ c (Proc.devRef .tc main_arg9) :=
  (keepH10 m ρ c main_arg9 (by decide)).trans (keep_main_arg9_20 m ρ c)

end Cert.KernelIdeal.Hand

end
-- ==== Proof.KDefs.lean ====
/-
  The host-side pieces of the kernel's program, as functions of the arrays they read.

  Between the device calls the program slices the edge list into sources and targets, aggregates neighbour rows by a
  gather and a scatter-add, slices each layer's weights out of the stacked parameters, and forms each column's mean and
  variance over the 100000 rows as a sum divided by 100000. Each piece is named here once; the device calls' inputs
  are these functions of the arguments and of earlier results.
-/
import proofs.«111606_j9388798509633_1_alg».proof.KernelIdeal
import proofs.«111606_j9388798509633_1_alg».proof.Proof.Gen.KernelIdeal
import Idealize.ShloMosaic.PureOps.Ideal

noncomputable section

namespace Cert.KernelIdeal.Hand

open Cert.KernelIdeal Idealize.ShloMosaic
open Cert.KernelIdeal.Facts₀ Cert.KernelIdeal.Facts

/-- The source node of every edge: row 0 of the edge list. -/
def srcOf (e : IVec S2x1000000 32) : IVec S1000000 32 :=
  shapeCast _ (extractStridedSlice S1x1000000 ![0, 0] e slices_S2x1000000_S1x1000000_0_0) shapeCasts_S1x1000000_S1000000

/-- The target node of every edge: row 1 of the edge list. -/
def dstOf (e : IVec S2x1000000 32) : IVec S1000000 32 :=
  shapeCast _ (extractStridedSlice S1x1000000 ![1, 0] e slices_S2x1000000_S1x1000000_1_0) shapeCasts_S1x1000000_S1000000

/-- The neighbour aggregate: the rows of h gathered at the edges' sources (a negative source wrapped once) and
    summed into the rows named by the edges' targets, from zero. -/
def agg (h : FVec Ideal S100000x64 .f32) (src dst : IVec S1000000 32) : FVec Ideal S100000x64 .f32 :=
  Host.scatterAdd scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 dst) (Host.gather gather_S100000x64_S1000000x1_S1000000x64_1_0_n_n_0_1_164 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))

/-- The sum of the 100000 rows, column by column, from zero. -/
def colSum (x : FVec Ideal S100000x64 .f32) : FVec Ideal S64 .f32 :=
  Host.reduceAdd x (constant (F := Ideal) S_ .f32 0x00000000#32) reducesTo_S100000x64_S64_d0 h_S_

/-- The sum of the rows that carry each graph's number: 128 pooled rows, from zero. -/
def pool (h : FVec Ideal S100000x64 .f32) (batch : IVec S100000 32) : FVec Ideal S128x64 .f32 :=
  Host.scatterAdd scatter_S128x64_S100000x1_S100000x64_1_0_0_1 (broadcastInDim S128x64 ![] bcast_S_S128x64 (constant (F := Ideal) S_ .f32 0x00000000#32)) (broadcastInDim S100000x1 ![0] bcast_S100000_S100000x1_0 batch) h

/-- Layer 0's 64 × 64 slab of a stack of five weight matrices. -/
def sl3_0 (a : FVec Ideal S5x64x64 .f32) : FVec Ideal S64x64 .f32 :=
  shapeCast _ (extractStridedSlice S1x64x64 ![0, 0, 0] a slices_S5x64x64_S1x64x64_0_0_0) shapeCasts_S1x64x64_S64x64

/-- Layer 0's row of a stack of five 64-vectors, as a vector. -/
def sl2_0 (a : FVec Ideal S5x64 .f32) : FVec Ideal S64 .f32 :=
  shapeCast _ (extractStridedSlice S1x64 ![0, 0] a slices_S5x64_S1x64_0_0) shapeCasts_S1x64_S64

/-- Layer 1's 64 × 64 slab of a stack of five weight matrices. -/
def sl3_1 (a : FVec Ideal S5x64x64 .f32) : FVec Ideal S64x64 .f32 :=
  shapeCast _ (extractStridedSlice S1x64x64 ![1, 0, 0] a slices_S5x64x64_S1x64x64_1_0_0) shapeCasts_S1x64x64_S64x64

/-- Layer 1's row of a stack of five 64-vectors, as a vector. -/
def sl2_1 (a : FVec Ideal S5x64 .f32) : FVec Ideal S64 .f32 :=
  shapeCast _ (extractStridedSlice S1x64 ![1, 0] a slices_S5x64_S1x64_1_0) shapeCasts_S1x64_S64

/-- Layer 2's 64 × 64 slab of a stack of five weight matrices. -/
def sl3_2 (a : FVec Ideal S5x64x64 .f32) : FVec Ideal S64x64 .f32 :=
  shapeCast _ (extractStridedSlice S1x64x64 ![2, 0, 0] a slices_S5x64x64_S1x64x64_2_0_0) shapeCasts_S1x64x64_S64x64

/-- Layer 2's row of a stack of five 64-vectors, as a vector. -/
def sl2_2 (a : FVec Ideal S5x64 .f32) : FVec Ideal S64 .f32 :=
  shapeCast _ (extractStridedSlice S1x64 ![2, 0] a slices_S5x64_S1x64_2_0) shapeCasts_S1x64_S64

/-- Layer 3's 64 × 64 slab of a stack of five weight matrices. -/
def sl3_3 (a : FVec Ideal S5x64x64 .f32) : FVec Ideal S64x64 .f32 :=
  shapeCast _ (extractStridedSlice S1x64x64 ![3, 0, 0] a slices_S5x64x64_S1x64x64_3_0_0) shapeCasts_S1x64x64_S64x64

/-- Layer 3's row of a stack of five 64-vectors, as a vector. -/
def sl2_3 (a : FVec Ideal S5x64 .f32) : FVec Ideal S64 .f32 :=
  shapeCast _ (extractStridedSlice S1x64 ![3, 0] a slices_S5x64_S1x64_3_0) shapeCasts_S1x64_S64

/-- Layer 4's 64 × 64 slab of a stack of five weight matrices. -/
def sl3_4 (a : FVec Ideal S5x64x64 .f32) : FVec Ideal S64x64 .f32 :=
  shapeCast _ (extractStridedSlice S1x64x64 ![4, 0, 0] a slices_S5x64x64_S1x64x64_4_0_0) shapeCasts_S1x64x64_S64x64

/-- Layer 4's row of a stack of five 64-vectors, as a vector. -/
def sl2_4 (a : FVec Ideal S5x64 .f32) : FVec Ideal S64 .f32 :=
  shapeCast _ (extractStridedSlice S1x64 ![4, 0] a slices_S5x64_S1x64_4_0) shapeCasts_S1x64_S64

/-- A 64-vector laid out as a [1, 64] row. -/
def rowOf (v : FVec Ideal S64 .f32) : FVec Ideal S1x64 .f32 := shapeCast _ v shapeCasts_S64_S1x64

/-- A 16-vector laid out as a [1, 16] row. -/
def rowOf16 (v : FVec Ideal S16 .f32) : FVec Ideal S1x16 .f32 := shapeCast _ v shapeCasts_S16_S1x16

/-- The column means as a [1, 64] row: the column sums laid out as a row, divided by 100000. -/
def meanRow (x : FVec Ideal S100000x64 .f32) : FVec Ideal S1x64 .f32 :=
  Host.divf (broadcastInDim S1x64 ![1] bcast_S64_S1x64_1 (colSum x)) (broadcastInDim S1x64 ![] bcast_S_S1x64 (constant (F := Ideal) S_ .f32 0x47C35000#32))

/-- The squared deviations from a row of column means. -/
def sqDev (x : FVec Ideal S100000x64 .f32) (mu : FVec Ideal S1x64 .f32) : FVec Ideal S100000x64 .f32 :=
  mulf (subf x (broadcastInDim S100000x64 ![0, 1] bcast_S1x64_S100000x64_0_1 mu)) (subf x (broadcastInDim S100000x64 ![0, 1] bcast_S1x64_S100000x64_0_1 mu))

end Cert.KernelIdeal.Hand

end
-- ==== Proof.Spec.lean ====
/-
  The three dense maps of a graph isomorphism network, row by row, on the extended reals.

  A node-feature matrix has 100000 rows of 64 entries. One layer first forms, in every row p, the combination
  1.3 · x(p, ·) + a(p, ·) of the row and of the row's aggregated neighbours, multiplies it by a 64 × 64 weight matrix and
  adds a bias row (`linRow`). The second half of the layer normalises each column with a given mean row and variance
  row, scales by gamma, shifts by beta, takes the hyperbolic tangent, multiplies by a second weight matrix, adds a
  second bias row and takes the hyperbolic tangent again (`bnRow`). The head multiplies the 128 pooled rows by a
  64 × 16 matrix, adds a bias row and applies the logistic function (`finRow`). Each is one function of the row
  index p and the output column f; a product of matrices is the plain finite sum over the contracted column d.
-/
import Idealize.ShloMosaic.PureOps.Ideal
import Idealize.ShloMosaic.Lib.ValueIdx

noncomputable section

namespace Cert.GinSpec

open Idealize.ShloMosaic Idealize.ShloMosaic.ValueIdx
open scoped BigOperators

/-- The factor 1 + eps of the layer's self term, as the single-precision word the programs carry. -/
def c13 : EReal := Ideal.ofBits .f32 0x3FA66666#32

/-- The shift added to a variance before the reciprocal square root, as the programs' single-precision word. -/
def bnEps : EReal := Ideal.ofBits .f32 0x3727C5AC#32

/-- Entry (p, f) of (1.3 · x + a) · w + b. -/
def linRow {n : ℕ} (X A : (⟨2, ![n, 64]⟩ : Shape).Idx → EReal) (W : (⟨2, ![64, 64]⟩ : Shape).Idx → EReal)
    (B : (⟨2, ![1, 64]⟩ : Shape).Idx → EReal) (p : Fin n) (f : Fin 64) : EReal :=
  (∑ d : Fin 64, (c13 * X (ix2 p d) + A (ix2 p d)) * W (ix2 d f)) + B (ix2 (0 : Fin 1) f)

/-- Entry (p, f) of tanh (tanh (gamma · (x − mu) · rsqrt (var + eps) + beta) · w + b). -/
def bnRow {n : ℕ} (X : (⟨2, ![n, 64]⟩ : Shape).Idx → EReal) (MU VAR GA BE : (⟨2, ![1, 64]⟩ : Shape).Idx → EReal)
    (W : (⟨2, ![64, 64]⟩ : Shape).Idx → EReal) (B : (⟨2, ![1, 64]⟩ : Shape).Idx → EReal) (p : Fin n) (f : Fin 64) : EReal :=
  Ideal.tanh ((∑ d : Fin 64,
      Ideal.tanh (GA (ix2 (0 : Fin 1) d) * (X (ix2 p d) - MU (ix2 (0 : Fin 1) d))
        * Ideal.rsqrt (VAR (ix2 (0 : Fin 1) d) + bnEps) + BE (ix2 (0 : Fin 1) d)) * W (ix2 d f))
    + B (ix2 (0 : Fin 1) f))

/-- Entry (g, o) of logistic (pooled · w + b). -/
def finRow (P : (⟨2, ![128, 64]⟩ : Shape).Idx → EReal) (W : (⟨2, ![64, 16]⟩ : Shape).Idx → EReal)
    (B : (⟨2, ![1, 16]⟩ : Shape).Idx → EReal) (g : Fin 128) (o : Fin 16) : EReal :=
  Ideal.logistic ((∑ d : Fin 64, P (ix2 g d) * W (ix2 d o)) + B (ix2 (0 : Fin 1) o))

/-- A function of the two coordinates as a function of an index of the [n, k] shape. -/
def onIdx {n k : ℕ} (g : Fin n → Fin k → EReal) : (⟨2, ![n, k]⟩ : Shape).Idx → EReal :=
  fun i => g ⟨(i 0).val, idx2_lt0 i⟩ ⟨(i 1).val, idx2_lt1 i⟩

theorem onIdx_ix2 {n k : ℕ} (g : Fin n → Fin k → EReal) (p : Fin n) (f : Fin k) : onIdx g (ix2 p f) = g p f := rfl

end Cert.GinSpec

end
-- ==== Proof.KVals.lean ====
/-
  What the kernel's program computes, as functions of the argument arrays.

  Layer l starts from the node features h_l (h_0 is the input), forms lin_l = (1.3 · h_l + aggregate of h_l) · W1_l + b1_l,
  the column means and variances of lin_l over the 100000 rows, and h_(l+1) = tanh (tanh (batch-normalised lin_l) · W2_l + b2_l).
  After five layers the rows are pooled per graph and the read-out gives the [128, 16] result.
-/
import proofs.«111606_j9388798509633_1_alg».proof.Proof.KDefs
import proofs.«111606_j9388798509633_1_alg».proof.Proof.Spec

noncomputable section

namespace Cert.KernelIdeal.Hand

open Cert.KernelIdeal Cert.GinSpec Idealize.ShloMosaic Idealize.ShloMosaic.TcCoe Idealize.SL.Sem

variable (m : (ℓ : Loc nD τ sig) → Buf (Elt Ideal) ℓ) (c : Dev nD)

/-- The edges' sources and targets. -/
def SRC : IVec S1000000 32 := srcOf (m ((c : Thread nD τ).loc main_arg1))
def DST : IVec S1000000 32 := dstOf (m ((c : Thread nD τ).loc main_arg1))

/-- The node features before the first layer: the input. -/
def h_0 : FVec Ideal S100000x64 .f32 := (m ((c : Thread nD τ).loc main_arg0))

/-- Layer 0's first dense map of h_0. -/
def lin_0 : FVec Ideal S100000x64 .f32 :=
  onIdx (linRow (h_0 m c) (agg (h_0 m c) (SRC m c) (DST m c)) (sl3_0 (m ((c : Thread nD τ).loc main_arg3))) (rowOf (sl2_0 (m ((c : Thread nD τ).loc main_arg4)))))

/-- The node features after layer 0. -/
def h_1 : FVec Ideal S100000x64 .f32 :=
  onIdx (bnRow (lin_0 m c) (meanRow (lin_0 m c)) (meanRow (sqDev (lin_0 m c) (meanRow (lin_0 m c))))
    (rowOf (sl2_0 (m ((c : Thread nD τ).loc main_arg5)))) (rowOf (sl2_0 (m ((c : Thread nD τ).loc main_arg6)))) (sl3_0 (m ((c : Thread nD τ).loc main_arg7))) (rowOf (sl2_0 (m ((c : Thread nD τ).loc main_arg8)))))

/-- Layer 1's first dense map of h_1. -/
def lin_1 : FVec Ideal S100000x64 .f32 :=
  onIdx (linRow (h_1 m c) (agg (h_1 m c) (SRC m c) (DST m c)) (sl3_1 (m ((c : Thread nD τ).loc main_arg3))) (rowOf (sl2_1 (m ((c : Thread nD τ).loc main_arg4)))))

/-- The node features after layer 1. -/
def h_2 : FVec Ideal S100000x64 .f32 :=
  onIdx (bnRow (lin_1 m c) (meanRow (lin_1 m c)) (meanRow (sqDev (lin_1 m c) (meanRow (lin_1 m c))))
    (rowOf (sl2_1 (m ((c : Thread nD τ).loc main_arg5)))) (rowOf (sl2_1 (m ((c : Thread nD τ).loc main_arg6)))) (sl3_1 (m ((c : Thread nD τ).loc main_arg7))) (rowOf (sl2_1 (m ((c : Thread nD τ).loc main_arg8)))))

/-- Layer 2's first dense map of h_2. -/
def lin_2 : FVec Ideal S100000x64 .f32 :=
  onIdx (linRow (h_2 m c) (agg (h_2 m c) (SRC m c) (DST m c)) (sl3_2 (m ((c : Thread nD τ).loc main_arg3))) (rowOf (sl2_2 (m ((c : Thread nD τ).loc main_arg4)))))

/-- The node features after layer 2. -/
def h_3 : FVec Ideal S100000x64 .f32 :=
  onIdx (bnRow (lin_2 m c) (meanRow (lin_2 m c)) (meanRow (sqDev (lin_2 m c) (meanRow (lin_2 m c))))
    (rowOf (sl2_2 (m ((c : Thread nD τ).loc main_arg5)))) (rowOf (sl2_2 (m ((c : Thread nD τ).loc main_arg6)))) (sl3_2 (m ((c : Thread nD τ).loc main_arg7))) (rowOf (sl2_2 (m ((c : Thread nD τ).loc main_arg8)))))

/-- Layer 3's first dense map of h_3. -/
def lin_3 : FVec Ideal S100000x64 .f32 :=
  onIdx (linRow (h_3 m c) (agg (h_3 m c) (SRC m c) (DST m c)) (sl3_3 (m ((c : Thread nD τ).loc main_arg3))) (rowOf (sl2_3 (m ((c : Thread nD τ).loc main_arg4)))))

/-- The node features after layer 3. -/
def h_4 : FVec Ideal S100000x64 .f32 :=
  onIdx (bnRow (lin_3 m c) (meanRow (lin_3 m c)) (meanRow (sqDev (lin_3 m c) (meanRow (lin_3 m c))))
    (rowOf (sl2_3 (m ((c : Thread nD τ).loc main_arg5)))) (rowOf (sl2_3 (m ((c : Thread nD τ).loc main_arg6)))) (sl3_3 (m ((c : Thread nD τ).loc main_arg7))) (rowOf (sl2_3 (m ((c : Thread nD τ).loc main_arg8)))))

/-- Layer 4's first dense map of h_4. -/
def lin_4 : FVec Ideal S100000x64 .f32 :=
  onIdx (linRow (h_4 m c) (agg (h_4 m c) (SRC m c) (DST m c)) (sl3_4 (m ((c : Thread nD τ).loc main_arg3))) (rowOf (sl2_4 (m ((c : Thread nD τ).loc main_arg4)))))

/-- The node features after layer 4. -/
def h_5 : FVec Ideal S100000x64 .f32 :=
  onIdx (bnRow (lin_4 m c) (meanRow (lin_4 m c)) (meanRow (sqDev (lin_4 m c) (meanRow (lin_4 m c))))
    (rowOf (sl2_4 (m ((c : Thread nD τ).loc main_arg5)))) (rowOf (sl2_4 (m ((c : Thread nD τ).loc main_arg6)))) (sl3_4 (m ((c : Thread nD τ).loc main_arg7))) (rowOf (sl2_4 (m ((c : Thread nD τ).loc main_arg8)))))

/-- The result: the read-out of the pooled rows. -/
def outK : FVec Ideal S128x16 .f32 :=
  onIdx (finRow (pool (h_5 m c) (m ((c : Thread nD τ).loc main_arg2))) (m ((c : Thread nD τ).loc main_arg9)) (rowOf16 (m ((c : Thread nD τ).loc main_arg10))))

end Cert.KernelIdeal.Hand

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.Region10.lean ====
/-
  The last device call of the kernel's program: the read-out, in one block.

  The call reads the 128 pooled rows, the 64 × 16 weight matrix and the bias row whole, multiplies, adds the bias and
  applies the logistic function; its one block is the whole result, so the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz10 : (![0, 0] : Fin 2 → Nat) = fun _ => 0 := funext fun a => by fin_cases a <;> rfl

/-- The block's arithmetic at row g and column o: the read-out's row function of the three loaded blocks. -/
theorem pay10 (x : Vec Ideal S128x64 .f32) (w : Vec Ideal S64x16 .f32) (b : Vec Ideal S1x16 .f32) (g : Fin 128) (o : Fin 16) :
    k10_pay1 (F := Ideal) x w b (ix2 g o) = finRow x w b g o := by
  unfold k10_pay1 finRow
  simp only [shapeCast_self]
  show Ideal.logistic (matmul _ none _ _ (constant (F := Ideal) S128x16 .f32 0x00000000#32) (ix2 g o)
      + broadcastTo S128x16 b _ (ix2 g o)) = _
  rw [InnerProducts.matmul_zero_apply dot_S128x64_S64x16_S128x16_1_0_0_1_n_n rfl, broadcastTo_1b_ab_apply]

/-- Every window's one block sits at the origin. -/
theorem idx10 : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

theorem iblk10_0_apply (c : Dev nD) (t : Fin cfg10.N) (g : Fin 128) (d : Fin 64) :
    (iblk10 V c 0 t : S128x64.Idx → EReal) (ix2 g d) = (V c (Pipeline.arrRef spec10 0) : S128x64.Idx → EReal) (ix2 g d) := by
  obtain ⟨e0, e1, -⟩ := idx10 t
  unfold iblk10
  rw [View.read_apply]
  refine congrArg (V c (Pipeline.arrRef spec10 0) : S128x64.Idx → EReal) (funext fun a => Fin.ext ?_)
  match a with
  | ⟨0, _⟩ => show win10_0.index t (0 : Fin 2) * 128 + 1 * g.val = g.val; rw [e0]; omega
  | ⟨1, _⟩ => show win10_0.index t (1 : Fin 2) * 64 + 1 * d.val = d.val; rw [e1]; omega

theorem iblk10_1_apply (c : Dev nD) (t : Fin cfg10.N) (d : Fin 64) (o : Fin 16) :
    (iblk10 V c 1 t : S64x16.Idx → EReal) (ix2 d o) = (V c (Pipeline.arrRef spec10 1) : S64x16.Idx → EReal) (ix2 d o) := by
  obtain ⟨-, -, e0, e1, -⟩ := idx10 t
  unfold iblk10
  rw [View.read_apply]
  refine congrArg (V c (Pipeline.arrRef spec10 1) : S64x16.Idx → EReal) (funext fun a => Fin.ext ?_)
  match a with
  | ⟨0, _⟩ => show win10_1.index t (0 : Fin 2) * 64 + 1 * d.val = d.val; rw [e0]; omega
  | ⟨1, _⟩ => show win10_1.index t (1 : Fin 2) * 16 + 1 * o.val = o.val; rw [e1]; omega

theorem iblk10_2_apply (c : Dev nD) (t : Fin cfg10.N) (o : Fin 16) :
    (iblk10 V c 2 t : S1x16.Idx → EReal) (ix2 (0 : Fin 1) o) = (V c (Pipeline.arrRef spec10 2) : S1x16.Idx → EReal) (ix2 (0 : Fin 1) o) := by
  obtain ⟨-, -, -, -, e0, e1, -⟩ := idx10 t
  unfold iblk10
  rw [View.read_apply]
  refine congrArg (V c (Pipeline.arrRef spec10 2) : S1x16.Idx → EReal) (funext fun a => Fin.ext ?_)
  match a with
  | ⟨0, _⟩ => show win10_2.index t (0 : Fin 2) * 1 + 1 * 0 = 0; rw [e0]
  | ⟨1, _⟩ => show win10_2.index t (1 : Fin 2) * 16 + 1 * o.val = o.val; rw [e1]; omega

/-- The matrix the call computes, as one function of the three arrays it reads. -/
abbrev fin10 (c : Dev nD) : S128x16.Idx → EReal :=
  onIdx (finRow (V c (Pipeline.arrRef spec10 0) : S128x64.Idx → EReal) (V c (Pipeline.arrRef spec10 1) : S64x16.Idx → EReal)
    (V c (Pipeline.arrRef spec10 2) : S1x16.Idx → EReal))

/-- What the one point writes back is that matrix read through the whole-array block. -/
theorem flushed10 (c : Dev nD) (t : Fin cfg10.N) :
    (dat10 (F := Ideal) V c).flushed 3 t = ((cfg10.win 3).blk t).view.read (Elt Ideal) (fin10 V c) := by
  obtain ⟨-, -, -, -, -, -, e0, e1⟩ := idx10 t
  show (cfg10.win 3).cut (grid10.coords t) ((dat10 V c).after 3 t) = _
  rw [after10_3]
  unfold out10_3
  rw [View.canon_unit_zero hz10]
  simp only [View.ld_unit_zero (S := S128x64) hz10, View.ld_unit_zero (S := S64x16) hz10, View.ld_unit_zero (S := S1x16) hz10]
  funext j
  obtain ⟨g, o, rfl⟩ : ∃ (g : Fin 128) (o : Fin 16), j = ix2 g o := ⟨j 0, j 1, eq_ix2 j⟩
  have hemb : ((cfg10.win 3).blk t).view.emb (ix2 g o) = (ix2 g o : S128x16.Idx) := by
    funext a; apply Fin.ext
    match a with
    | ⟨0, _⟩ => show win10_3.index t (0 : Fin 2) * 128 + 1 * g.val = g.val; rw [e0]; omega
    | ⟨1, _⟩ => show win10_3.index t (1 : Fin 2) * 16 + 1 * o.val = o.val; rw [e1]; omega
  show k10_pay1 (iblk10 V c 0 t) (iblk10 V c 1 t) (iblk10 V c 2 t) (ix2 g o)
      = fin10 V c (((cfg10.win 3).blk t).view.emb (ix2 g o))
  rw [hemb]
  refine (pay10 (iblk10 V c 0 t) (iblk10 V c 1 t) (iblk10 V c 2 t) g o).trans ?_
  show _ = finRow _ _ _ g o
  unfold finRow
  refine congrArg Ideal.logistic (congrArg₂ (· + ·) (Finset.sum_congr rfl fun d _ => ?_) (iblk10_2_apply V c t o))
  rw [iblk10_0_apply V c t g d, iblk10_1_apply V c t d o]

theorem mem_blk10 (t : Fin cfg10.N) (i : S128x16.Idx) :
    i ∈ ((cfg10.win 3).blk t).view.set ↔ ∀ a : Fin 2, win10_3.index t a * S128x16.size a ≤ (i a).val
      ∧ (i a).val < win10_3.index t a * S128x16.size a + S128x16.size a := by
  show i ∈ ((View.whole main_v203).slice (win10_3.rect t)).set ↔ _
  rw [View.set_slice_whole, Rect.mem_set_unit]
  exact Iff.rfl

/-- The array after the call: the whole matrix. -/
theorem final10 (c : Dev nD) : (dat10 (F := Ideal) V c).arrAt 3 cfg10.N = fin10 V c :=
  (dat10 V c).arrAt_eq_of_cover 3 (fin10 V c) (fun t _ => flushed10 V c t) fun i => by
    have hi0 : (i 0).val < 128 := (i 0).isLt
    have hi1 : (i 1).val < 16 := (i 1).isLt
    have hN : cfg10.N = 1 := N_10
    refine ⟨⟨0, by rw [hN]; omega⟩, flush10_3 _, ?_⟩
    obtain ⟨-, -, -, -, -, -, e0, e1⟩ := idx10 ⟨0, by rw [hN]; omega⟩
    rw [mem_blk10]
    intro a
    match a with
    | ⟨0, _⟩ => show win10_3.index _ (0 : Fin 2) * 128 ≤ (i 0).val ∧ (i 0).val < win10_3.index _ (0 : Fin 2) * 128 + 128; rw [e0]; omega
    | ⟨1, _⟩ => show win10_3.index _ (1 : Fin 2) * 16 ≤ (i 1).val ∧ (i 1).val < win10_3.index _ (1 : Fin 2) * 16 + 16; rw [e1]; omega

end Cert.KernelIdeal.Hand

end
-- ==== Proof.Region8.lean ====
/-
  Device call 8 of the kernel's program: one dense map of a layer, (1.3 · x + a) · w + b, computed ten thousand rows at
  a time.

  The call walks the 100000 rows in ten blocks of 10000; at block t it reads rows 10000·t … 10000·t + 9999 of x and of
  the aggregate a, the whole 64 × 64 weight matrix and the bias row, and writes the same rows of the result. A row of
  a product of matrices depends on that row of the left factor only, so the ten blocks written back are the ten row
  blocks of ONE matrix: entry (p, f) of the result is the sum over d of (1.3 · x(p, d) + a(p, d)) · w(d, f), plus b(f),
  whatever block p lies in. The blocks tile the rows, so the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz8 : (![0, 0] : Fin 2 → Nat) = fun _ => 0 := funext fun a => by fin_cases a <;> rfl

/-- The block's arithmetic at local row r and column f: the row function of the four loaded blocks. -/
theorem pay8 (x0 x1 : Vec Ideal S10000x64 .f32) (x2 : Vec Ideal S64x64 .f32) (x3 : Vec Ideal S1x64 .f32)
    (r : Fin 10000) (f : Fin 64) :
    k8_pay1 (F := Ideal) x0 x1 x2 x3 (ix2 r f) = linRow x0 x1 x2 x3 r f := by
  unfold k8_pay1 linRow
  simp only [shapeCast_self]
  show matmul _ none _ _ (constant (F := Ideal) S10000x64 .f32 0x00000000#32) (ix2 r f)
      + broadcastTo S10000x64 x3 _ (ix2 r f) = _
  rw [InnerProducts.matmul_zero_apply dot_S10000x64_S64x64_S10000x64_1_0_0_1_n_n rfl, broadcastTo_1b_ab_apply]
  rfl

/-- Where each window's block sits at point t: the two row-blocked inputs and the output at block row t, the weight
    matrix and the bias row at the origin. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Local row r of x's block at point t is row 10000·t + r of x. -/
theorem iblk8_0_apply (c : Dev nD) (t : Fin cfg8.N) (r : Fin 10000) (d : Fin 64) (hp : 10000 * t.val + r.val < 100000) :
    (iblk8 V c 0 t : S10000x64.Idx → EReal) (ix2 r d)
      = (V c (Pipeline.arrRef spec8 0) : S100000x64.Idx → EReal) (ix2 ⟨10000 * t.val + r.val, hp⟩ d) := by
  obtain ⟨e0, e1, -⟩ := idx8 t
  unfold iblk8
  rw [View.read_apply]
  refine congrArg (V c (Pipeline.arrRef spec8 0) : S100000x64.Idx → EReal) (funext fun a => Fin.ext ?_)
  match a with
  | ⟨0, _⟩ => show win8_0.index t (0 : Fin 2) * 10000 + 1 * r.val = 10000 * t.val + r.val; rw [e0]; omega
  | ⟨1, _⟩ => show win8_0.index t (1 : Fin 2) * 64 + 1 * d.val = d.val; rw [e1]; omega

/-- Local row r of the aggregate's block at point t is row 10000·t + r of the aggregate. -/
theorem iblk8_1_apply (c : Dev nD) (t : Fin cfg8.N) (r : Fin 10000) (d : Fin 64) (hp : 10000 * t.val + r.val < 100000) :
    (iblk8 V c 1 t : S10000x64.Idx → EReal) (ix2 r d)
      = (V c (Pipeline.arrRef spec8 1) : S100000x64.Idx → EReal) (ix2 ⟨10000 * t.val + r.val, hp⟩ d) := by
  obtain ⟨-, -, e0, e1, -⟩ := idx8 t
  unfold iblk8
  rw [View.read_apply]
  refine congrArg (V c (Pipeline.arrRef spec8 1) : S100000x64.Idx → EReal) (funext fun a => Fin.ext ?_)
  match a with
  | ⟨0, _⟩ => show win8_1.index t (0 : Fin 2) * 10000 + 1 * r.val = 10000 * t.val + r.val; rw [e0]; omega
  | ⟨1, _⟩ => show win8_1.index t (1 : Fin 2) * 64 + 1 * d.val = d.val; rw [e1]; omega

/-- The weight matrix's one block is the matrix. -/
theorem iblk8_2_apply (c : Dev nD) (t : Fin cfg8.N) (d f : Fin 64) :
    (iblk8 V c 2 t : S64x64.Idx → EReal) (ix2 d f)
      = (V c (Pipeline.arrRef spec8 2) : S64x64.Idx → EReal) (ix2 d f) := by
  obtain ⟨-, -, -, -, e0, e1, -⟩ := idx8 t
  unfold iblk8
  rw [View.read_apply]
  refine congrArg (V c (Pipeline.arrRef spec8 2) : S64x64.Idx → EReal) (funext fun a => Fin.ext ?_)
  match a with
  | ⟨0, _⟩ => show win8_2.index t (0 : Fin 2) * 64 + 1 * d.val = d.val; rw [e0]; omega
  | ⟨1, _⟩ => show win8_2.index t (1 : Fin 2) * 64 + 1 * f.val = f.val; rw [e1]; omega

/-- The bias row's one block is the row. -/
theorem iblk8_3_apply (c : Dev nD) (t : Fin cfg8.N) (f : Fin 64) :
    (iblk8 V c 3 t : S1x64.Idx → EReal) (ix2 (0 : Fin 1) f)
      = (V c (Pipeline.arrRef spec8 3) : S1x64.Idx → EReal) (ix2 (0 : Fin 1) f) := by
  obtain ⟨-, -, -, -, -, -, e0, e1, -⟩ := idx8 t
  unfold iblk8
  rw [View.read_apply]
  refine congrArg (V c (Pipeline.arrRef spec8 3) : S1x64.Idx → EReal) (funext fun a => Fin.ext ?_)
  match a with
  | ⟨0, _⟩ => show win8_3.index t (0 : Fin 2) * 1 + 1 * 0 = 0; rw [e0]
  | ⟨1, _⟩ => show win8_3.index t (1 : Fin 2) * 64 + 1 * f.val = f.val; rw [e1]; omega

/-- The matrix the call computes, as one function of the four arrays it reads. -/
abbrev lin8 (c : Dev nD) : S100000x64.Idx → EReal :=
  onIdx (linRow (V c (Pipeline.arrRef spec8 0) : S100000x64.Idx → EReal) (V c (Pipeline.arrRef spec8 1) : S100000x64.Idx → EReal)
    (V c (Pipeline.arrRef spec8 2) : S64x64.Idx → EReal) (V c (Pipeline.arrRef spec8 3) : S1x64.Idx → EReal))

/-- What point t writes back is block t of that matrix. -/
theorem flushed8 (c : Dev nD) (t : Fin cfg8.N) :
    (dat8 (F := Ideal) V c).flushed 4 t = ((cfg8.win 4).blk t).view.read (Elt Ideal) (lin8 V c) := by
  have hN : t.val < 10 := by have h := t.isLt; have e : cfg8.N = 10 := N_8; omega
  obtain ⟨-, -, -, -, -, -, -, -, e0, e1⟩ := idx8 t
  show (cfg8.win 4).cut (grid8.coords t) ((dat8 V c).after 4 t) = _
  rw [after8_4]
  unfold out8_4
  rw [View.canon_unit_zero hz8]
  simp only [View.ld_unit_zero (S := S10000x64) hz8, View.ld_unit_zero (S := S64x64) hz8, View.ld_unit_zero (S := S1x64) hz8]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg8.win 4).blk t).view.emb (ix2 r f) = (ix2 ⟨10000 * t.val + r.val, hp⟩ f : S100000x64.Idx) := by
    funext a; apply Fin.ext
    match a with
    | ⟨0, _⟩ => show win8_4.index t (0 : Fin 2) * 10000 + 1 * r.val = 10000 * t.val + r.val; rw [e0]; omega
    | ⟨1, _⟩ => show win8_4.index t (1 : Fin 2) * 64 + 1 * f.val = f.val; rw [e1]; omega
  show k8_pay1 (iblk8 V c 0 t) (iblk8 V c 1 t) (iblk8 V c 2 t) (iblk8 V c 3 t) (ix2 r f)
      = lin8 V c (((cfg8.win 4).blk t).view.emb (ix2 r f))
  rw [hemb]
  refine (pay8 (iblk8 V c 0 t) (iblk8 V c 1 t) (iblk8 V c 2 t) (iblk8 V c 3 t) r f).trans ?_
  show _ = linRow _ _ _ _ ⟨10000 * t.val + r.val, hp⟩ f
  unfold linRow
  refine congrArg₂ (· + ·) (Finset.sum_congr rfl fun d _ => ?_) (iblk8_3_apply V c t f)
  rw [iblk8_0_apply V c t r d hp, iblk8_1_apply V c t r d hp, iblk8_2_apply V c t d f]

/-- An index of the array is in point t's block iff its row is one of the block's rows. -/
theorem mem_blk8 (t : Fin cfg8.N) (i : S100000x64.Idx) :
    i ∈ ((cfg8.win 4).blk t).view.set ↔ ∀ a : Fin 2, win8_4.index t a * S10000x64.size a ≤ (i a).val
      ∧ (i a).val < win8_4.index t a * S10000x64.size a + S10000x64.size a := by
  show i ∈ ((View.whole main_v175).slice (win8_4.rect t)).set ↔ _
  rw [View.set_slice_whole, Rect.mem_set_unit]
  exact Iff.rfl

/-- The array after the call: the whole matrix (row p is written by point p / 10000). -/
theorem final8 (c : Dev nD) : (dat8 (F := Ideal) V c).arrAt 4 cfg8.N = lin8 V c :=
  (dat8 V c).arrAt_eq_of_cover 4 (lin8 V c) (fun t _ => flushed8 V c t) fun i => by
    have hi0 : (i 0).val < 100000 := (i 0).isLt
    have hi1 : (i 1).val < 64 := (i 1).isLt
    have hN : cfg8.N = 10 := N_8
    refine ⟨⟨(i 0).val / 10000, by rw [hN]; omega⟩, flush8_4 _, ?_⟩
    obtain ⟨-, -, -, -, -, -, -, -, e0, e1⟩ := idx8 ⟨(i 0).val / 10000, by rw [hN]; omega⟩
    rw [mem_blk8]
    intro a
    match a with
    | ⟨0, _⟩ => show win8_4.index _ (0 : Fin 2) * 10000 ≤ (i 0).val ∧ (i 0).val < win8_4.index _ (0 : Fin 2) * 10000 + 10000; rw [e0]; show (i 0).val / 10000 * 10000 ≤ (i 0).val ∧ (i 0).val < (i 0).val / 10000 * 10000 + 10000; omega
    | ⟨1, _⟩ => show win8_4.index _ (1 : Fin 2) * 64 ≤ (i 1).val ∧ (i 1).val < win8_4.index _ (1 : Fin 2) * 64 + 64; rw [e1]; omega

end Cert.KernelIdeal.Hand

end
-- ==== Proof.Region9.lean ====
/-
  Device call 9 of the kernel's program: the second half of a layer, ten thousand rows at a time.

  At block t the call reads rows 10000·t … 10000·t + 9999 of the first dense map's result, the rows of column means and
  variances, gamma, beta, the second 64 × 64 weight matrix and its bias row; it normalises, takes the hyperbolic tangent,
  multiplies by the weights, adds the bias and takes the hyperbolic tangent again, and writes the same rows of the
  result. Every step acts on a row by itself, so the ten blocks written back are the ten row blocks of ONE matrix, and
  the blocks tile the rows: the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz9 : (![0, 0] : Fin 2 → Nat) = fun _ => 0 := funext fun a => by fin_cases a <;> rfl

/-- The block's arithmetic at local row r and column f: the row function of the seven loaded blocks. -/
theorem pay9 (x : Vec Ideal S10000x64 .f32) (ga mu var be : Vec Ideal S1x64 .f32) (w : Vec Ideal S64x64 .f32)
    (b : Vec Ideal S1x64 .f32) (r : Fin 10000) (f : Fin 64) :
    k9_pay1 (F := Ideal) x ga mu var be w b (ix2 r f) = bnRow x mu var ga be w b r f := by
  unfold k9_pay1 bnRow
  simp only [shapeCast_self]
  show Ideal.tanh (matmul _ none _ _ (constant (F := Ideal) S10000x64 .f32 0x00000000#32) (ix2 r f)
      + broadcastTo S10000x64 b _ (ix2 r f)) = _
  rw [InnerProducts.matmul_zero_apply dot_S10000x64_S64x64_S10000x64_1_0_0_1_n_n rfl, broadcastTo_1b_ab_apply]
  refine congrArg Ideal.tanh (congrArg₂ (· + ·) (Finset.sum_congr rfl fun d _ => ?_) rfl)
  show Ideal.tanh (broadcastTo S10000x64 ga _ (ix2 r d) * (x (ix2 r d) - broadcastTo S10000x64 mu _ (ix2 r d))
      * broadcastTo S10000x64 (rsqrt (addf var (broadcast S1x64 (Scalar.ofBits (F := Ideal) .f32 0x3727C5AC#32)))) _ (ix2 r d)
      + broadcastTo S10000x64 be _ (ix2 r d)) * w (ix2 d f) = _
  rw [broadcastTo_1b_ab_apply, broadcastTo_1b_ab_apply, broadcastTo_1b_ab_apply, broadcastTo_1b_ab_apply]
  rfl

/-- Where each window's block sits at point t: the row-blocked input and the output at block row t, every parameter
    at the origin. -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-- Local row r of the input's block at point t is row 10000·t + r of the input. -/
theorem iblk9_0_apply (c : Dev nD) (t : Fin cfg9.N) (r : Fin 10000) (d : Fin 64) (hp : 10000 * t.val + r.val < 100000) :
    (iblk9 V c 0 t : S10000x64.Idx → EReal) (ix2 r d)
      = (V c (Pipeline.arrRef spec9 0) : S100000x64.Idx → EReal) (ix2 ⟨10000 * t.val + r.val, hp⟩ d) := by
  obtain ⟨e0, e1, -⟩ := idx9 t
  unfold iblk9
  rw [View.read_apply]
  refine congrArg (V c (Pipeline.arrRef spec9 0) : S100000x64.Idx → EReal) (funext fun a => Fin.ext ?_)
  match a with
  | ⟨0, _⟩ => show win9_0.index t (0 : Fin 2) * 10000 + 1 * r.val = 10000 * t.val + r.val; rw [e0]; omega
  | ⟨1, _⟩ => show win9_0.index t (1 : Fin 2) * 64 + 1 * d.val = d.val; rw [e1]; omega

/-- Window 1's one block is its [1, 64] row. -/
theorem iblk9_1_apply (c : Dev nD) (t : Fin cfg9.N) (f : Fin 64) :
    (iblk9 V c 1 t : S1x64.Idx → EReal) (ix2 (0 : Fin 1) f)
      = (V c (Pipeline.arrRef spec9 1) : S1x64.Idx → EReal) (ix2 (0 : Fin 1) f) := by
  have e := idx9 t
  unfold iblk9
  rw [View.read_apply]
  refine congrArg (V c (Pipeline.arrRef spec9 1) : S1x64.Idx → EReal) (funext fun a => Fin.ext ?_)
  match a with
  | ⟨0, _⟩ => show win9_1.index t (0 : Fin 2) * 1 + 1 * 0 = 0; rw [e.2.2.1]
  | ⟨1, _⟩ => show win9_1.index t (1 : Fin 2) * 64 + 1 * f.val = f.val; rw [e.2.2.2.1]; omega

/-- Window 2's one block is its [1, 64] row. -/
theorem iblk9_2_apply (c : Dev nD) (t : Fin cfg9.N) (f : Fin 64) :
    (iblk9 V c 2 t : S1x64.Idx → EReal) (ix2 (0 : Fin 1) f)
      = (V c (Pipeline.arrRef spec9 2) : S1x64.Idx → EReal) (ix2 (0 : Fin 1) f) := by
  have e := idx9 t
  unfold iblk9
  rw [View.read_apply]
  refine congrArg (V c (Pipeline.arrRef spec9 2) : S1x64.Idx → EReal) (funext fun a => Fin.ext ?_)
  match a with
  | ⟨0, _⟩ => show win9_2.index t (0 : Fin 2) * 1 + 1 * 0 = 0; rw [e.2.2.2.2.1]
  | ⟨1, _⟩ => show win9_2.index t (1 : Fin 2) * 64 + 1 * f.val = f.val; rw [e.2.2.2.2.2.1]; omega

/-- Window 3's one block is its [1, 64] row. -/
theorem iblk9_3_apply (c : Dev nD) (t : Fin cfg9.N) (f : Fin 64) :
    (iblk9 V c 3 t : S1x64.Idx → EReal) (ix2 (0 : Fin 1) f)
      = (V c (Pipeline.arrRef spec9 3) : S1x64.Idx → EReal) (ix2 (0 : Fin 1) f) := by
  have e := idx9 t
  unfold iblk9
  rw [View.read_apply]
  refine congrArg (V c (Pipeline.arrRef spec9 3) : S1x64.Idx → EReal) (funext fun a => Fin.ext ?_)
  match a with
  | ⟨0, _⟩ => show win9_3.index t (0 : Fin 2) * 1 + 1 * 0 = 0; rw [e.2.2.2.2.2.2.1]
  | ⟨1, _⟩ => show win9_3.index t (1 : Fin 2) * 64 + 1 * f.val = f.val; rw [e.2.2.2.2.2.2.2.1]; omega

/-- Window 4's one block is its [1, 64] row. -/
theorem iblk9_4_apply (c : Dev nD) (t : Fin cfg9.N) (f : Fin 64) :
    (iblk9 V c 4 t : S1x64.Idx → EReal) (ix2 (0 : Fin 1) f)
      = (V c (Pipeline.arrRef spec9 4) : S1x64.Idx → EReal) (ix2 (0 : Fin 1) f) := by
  have e := idx9 t
  unfold iblk9
  rw [View.read_apply]
  refine congrArg (V c (Pipeline.arrRef spec9 4) : S1x64.Idx → EReal) (funext fun a => Fin.ext ?_)
  match a with
  | ⟨0, _⟩ => show win9_4.index t (0 : Fin 2) * 1 + 1 * 0 = 0; rw [e.2.2.2.2.2.2.2.2.1]
  | ⟨1, _⟩ => show win9_4.index t (1 : Fin 2) * 64 + 1 * f.val = f.val; rw [e.2.2.2.2.2.2.2.2.2.1]; omega

/-- Window 6's one block is its [1, 64] row. -/
theorem iblk9_6_apply (c : Dev nD) (t : Fin cfg9.N) (f : Fin 64) :
    (iblk9 V c 6 t : S1x64.Idx → EReal) (ix2 (0 : Fin 1) f)
      = (V c (Pipeline.arrRef spec9 6) : S1x64.Idx → EReal) (ix2 (0 : Fin 1) f) := by
  have e := idx9 t
  unfold iblk9
  rw [View.read_apply]
  refine congrArg (V c (Pipeline.arrRef spec9 6) : S1x64.Idx → EReal) (funext fun a => Fin.ext ?_)
  match a with
  | ⟨0, _⟩ => show win9_6.index t (0 : Fin 2) * 1 + 1 * 0 = 0; rw [e.2.2.2.2.2.2.2.2.2.2.2.2.1]
  | ⟨1, _⟩ => show win9_6.index t (1 : Fin 2) * 64 + 1 * f.val = f.val; rw [e.2.2.2.2.2.2.2.2.2.2.2.2.2.1]; omega

/-- The weight matrix's one block is the matrix. -/
theorem iblk9_5_apply (c : Dev nD) (t : Fin cfg9.N) (d f : Fin 64) :
    (iblk9 V c 5 t : S64x64.Idx → EReal) (ix2 d f)
      = (V c (Pipeline.arrRef spec9 5) : S64x64.Idx → EReal) (ix2 d f) := by
  have e := idx9 t
  unfold iblk9
  rw [View.read_apply]
  refine congrArg (V c (Pipeline.arrRef spec9 5) : S64x64.Idx → EReal) (funext fun a => Fin.ext ?_)
  match a with
  | ⟨0, _⟩ => show win9_5.index t (0 : Fin 2) * 64 + 1 * d.val = d.val; rw [e.2.2.2.2.2.2.2.2.2.2.1]; omega
  | ⟨1, _⟩ => show win9_5.index t (1 : Fin 2) * 64 + 1 * f.val = f.val; rw [e.2.2.2.2.2.2.2.2.2.2.2.1]; omega

/-- The matrix the call computes, as one function of the seven arrays it reads. -/
abbrev bn9 (c : Dev nD) : S100000x64.Idx → EReal :=
  onIdx (bnRow (V c (Pipeline.arrRef spec9 0) : S100000x64.Idx → EReal) (V c (Pipeline.arrRef spec9 1) : S1x64.Idx → EReal)
    (V c (Pipeline.arrRef spec9 2) : S1x64.Idx → EReal) (V c (Pipeline.arrRef spec9 3) : S1x64.Idx → EReal)
    (V c (Pipeline.arrRef spec9 4) : S1x64.Idx → EReal) (V c (Pipeline.arrRef spec9 5) : S64x64.Idx → EReal)
    (V c (Pipeline.arrRef spec9 6) : S1x64.Idx → EReal))

set_option maxHeartbeats 1600000 in
/-- What point t writes back is block t of that matrix. -/
theorem flushed9 (c : Dev nD) (t : Fin cfg9.N) :
    (dat9 (F := Ideal) V c).flushed 7 t = ((cfg9.win 7).blk t).view.read (Elt Ideal) (bn9 V c) := by
  have hN : t.val < 10 := by have h := t.isLt; have e : cfg9.N = 10 := N_9; omega
  have e := idx9 t
  show (cfg9.win 7).cut (grid9.coords t) ((dat9 V c).after 7 t) = _
  rw [after9_7]
  unfold out9_7
  rw [View.canon_unit_zero hz9]
  simp only [View.ld_unit_zero (S := S10000x64) hz9, View.ld_unit_zero (S := S64x64) hz9, View.ld_unit_zero (S := S1x64) hz9]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg9.win 7).blk t).view.emb (ix2 r f) = (ix2 ⟨10000 * t.val + r.val, hp⟩ f : S100000x64.Idx) := by
    funext a; apply Fin.ext
    match a with
    | ⟨0, _⟩ => show win9_7.index t (0 : Fin 2) * 10000 + 1 * r.val = 10000 * t.val + r.val; rw [e.2.2.2.2.2.2.2.2.2.2.2.2.2.2.1]; omega
    | ⟨1, _⟩ => show win9_7.index t (1 : Fin 2) * 64 + 1 * f.val = f.val; rw [e.2.2.2.2.2.2.2.2.2.2.2.2.2.2.2]; omega
  show k9_pay1 (iblk9 V c 0 t) (iblk9 V c 3 t) (iblk9 V c 1 t) (iblk9 V c 2 t) (iblk9 V c 4 t) (iblk9 V c 5 t) (iblk9 V c 6 t) (ix2 r f)
      = bn9 V c (((cfg9.win 7).blk t).view.emb (ix2 r f))
  rw [hemb]
  refine (pay9 (iblk9 V c 0 t) (iblk9 V c 3 t) (iblk9 V c 1 t) (iblk9 V c 2 t) (iblk9 V c 4 t) (iblk9 V c 5 t) (iblk9 V c 6 t) r f).trans ?_
  show _ = bnRow _ _ _ _ _ _ _ ⟨10000 * t.val + r.val, hp⟩ f
  unfold bnRow
  refine congrArg Ideal.tanh (congrArg₂ (· + ·) (Finset.sum_congr rfl fun d _ => ?_) (iblk9_6_apply V c t f))
  rw [iblk9_0_apply V c t r d hp, iblk9_1_apply V c t d, iblk9_2_apply V c t d, iblk9_3_apply V c t d,
    iblk9_4_apply V c t d, iblk9_5_apply V c t d f]

/-- An index of the array is in point t's block iff its row is one of the block's rows. -/
theorem mem_blk9 (t : Fin cfg9.N) (i : S100000x64.Idx) :
    i ∈ ((cfg9.win 7).blk t).view.set ↔ ∀ a : Fin 2, win9_7.index t a * S10000x64.size a ≤ (i a).val
      ∧ (i a).val < win9_7.index t a * S10000x64.size a + S10000x64.size a := by
  show i ∈ ((View.whole main_v198).slice (win9_7.rect t)).set ↔ _
  rw [View.set_slice_whole, Rect.mem_set_unit]
  exact Iff.rfl

/-- The array after the call: the whole matrix (row p is written by point p / 10000). -/
theorem final9 (c : Dev nD) : (dat9 (F := Ideal) V c).arrAt 7 cfg9.N = bn9 V c :=
  (dat9 V c).arrAt_eq_of_cover 7 (bn9 V c) (fun t _ => flushed9 V c t) fun i => by
    have hi0 : (i 0).val < 100000 := (i 0).isLt
    have hi1 : (i 1).val < 64 := (i 1).isLt
    have hN : cfg9.N = 10 := N_9
    refine ⟨⟨(i 0).val / 10000, by rw [hN]; omega⟩, flush9_7 _, ?_⟩
    have e := idx9 ⟨(i 0).val / 10000, by rw [hN]; omega⟩
    rw [mem_blk9]
    intro a
    match a with
    | ⟨0, _⟩ => show win9_7.index _ (0 : Fin 2) * 10000 ≤ (i 0).val ∧ (i 0).val < win9_7.index _ (0 : Fin 2) * 10000 + 10000; rw [e.2.2.2.2.2.2.2.2.2.2.2.2.2.2.1]; show (i 0).val / 10000 * 10000 ≤ (i 0).val ∧ (i 0).val < (i 0).val / 10000 * 10000 + 10000; omega
    | ⟨1, _⟩ => show win9_7.index _ (1 : Fin 2) * 64 ≤ (i 1).val ∧ (i 1).val < win9_7.index _ (1 : Fin 2) * 64 + 64; rw [e.2.2.2.2.2.2.2.2.2.2.2.2.2.2.2]; omega

end Cert.KernelIdeal.Hand

end
-- ==== Proof.Region6.lean ====
/-
  Device call 6 of the kernel's program: one dense map of a layer, (1.3 · x + a) · w + b, computed ten thousand rows at
  a time.

  The call walks the 100000 rows in ten blocks of 10000; at block t it reads rows 10000·t … 10000·t + 9999 of x and of
  the aggregate a, the whole 64 × 64 weight matrix and the bias row, and writes the same rows of the result. A row of
  a product of matrices depends on that row of the left factor only, so the ten blocks written back are the ten row
  blocks of ONE matrix: entry (p, f) of the result is the sum over d of (1.3 · x(p, d) + a(p, d)) · w(d, f), plus b(f),
  whatever block p lies in. The blocks tile the rows, so the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz6 : (![0, 0] : Fin 2 → Nat) = fun _ => 0 := funext fun a => by fin_cases a <;> rfl

/-- The block's arithmetic at local row r and column f: the row function of the four loaded blocks. -/
theorem pay6 (x0 x1 : Vec Ideal S10000x64 .f32) (x2 : Vec Ideal S64x64 .f32) (x3 : Vec Ideal S1x64 .f32)
    (r : Fin 10000) (f : Fin 64) :
    k6_pay1 (F := Ideal) x0 x1 x2 x3 (ix2 r f) = linRow x0 x1 x2 x3 r f := by
  unfold k6_pay1 linRow
  simp only [shapeCast_self]
  show matmul _ none _ _ (constant (F := Ideal) S10000x64 .f32 0x00000000#32) (ix2 r f)
      + broadcastTo S10000x64 x3 _ (ix2 r f) = _
  rw [InnerProducts.matmul_zero_apply dot_S10000x64_S64x64_S10000x64_1_0_0_1_n_n rfl, broadcastTo_1b_ab_apply]
  rfl

/-- Where each window's block sits at point t: the two row-blocked inputs and the output at block row t, the weight
    matrix and the bias row at the origin. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Local row r of x's block at point t is row 10000·t + r of x. -/
theorem iblk6_0_apply (c : Dev nD) (t : Fin cfg6.N) (r : Fin 10000) (d : Fin 64) (hp : 10000 * t.val + r.val < 100000) :
    (iblk6 V c 0 t : S10000x64.Idx → EReal) (ix2 r d)
      = (V c (Pipeline.arrRef spec6 0) : S100000x64.Idx → EReal) (ix2 ⟨10000 * t.val + r.val, hp⟩ d) := by
  obtain ⟨e0, e1, -⟩ := idx6 t
  unfold iblk6
  rw [View.read_apply]
  refine congrArg (V c (Pipeline.arrRef spec6 0) : S100000x64.Idx → EReal) (funext fun a => Fin.ext ?_)
  match a with
  | ⟨0, _⟩ => show win6_0.index t (0 : Fin 2) * 10000 + 1 * r.val = 10000 * t.val + r.val; rw [e0]; omega
  | ⟨1, _⟩ => show win6_0.index t (1 : Fin 2) * 64 + 1 * d.val = d.val; rw [e1]; omega

/-- Local row r of the aggregate's block at point t is row 10000·t + r of the aggregate. -/
theorem iblk6_1_apply (c : Dev nD) (t : Fin cfg6.N) (r : Fin 10000) (d : Fin 64) (hp : 10000 * t.val + r.val < 100000) :
    (iblk6 V c 1 t : S10000x64.Idx → EReal) (ix2 r d)
      = (V c (Pipeline.arrRef spec6 1) : S100000x64.Idx → EReal) (ix2 ⟨10000 * t.val + r.val, hp⟩ d) := by
  obtain ⟨-, -, e0, e1, -⟩ := idx6 t
  unfold iblk6
  rw [View.read_apply]
  refine congrArg (V c (Pipeline.arrRef spec6 1) : S100000x64.Idx → EReal) (funext fun a => Fin.ext ?_)
  match a with
  | ⟨0, _⟩ => show win6_1.index t (0 : Fin 2) * 10000 + 1 * r.val = 10000 * t.val + r.val; rw [e0]; omega
  | ⟨1, _⟩ => show win6_1.index t (1 : Fin 2) * 64 + 1 * d.val = d.val; rw [e1]; omega

/-- The weight matrix's one block is the matrix. -/
theorem iblk6_2_apply (c : Dev nD) (t : Fin cfg6.N) (d f : Fin 64) :
    (iblk6 V c 2 t : S64x64.Idx → EReal) (ix2 d f)
      = (V c (Pipeline.arrRef spec6 2) : S64x64.Idx → EReal) (ix2 d f) := by
  obtain ⟨-, -, -, -, e0, e1, -⟩ := idx6 t
  unfold iblk6
  rw [View.read_apply]
  refine congrArg (V c (Pipeline.arrRef spec6 2) : S64x64.Idx → EReal) (funext fun a => Fin.ext ?_)
  match a with
  | ⟨0, _⟩ => show win6_2.index t (0 : Fin 2) * 64 + 1 * d.val = d.val; rw [e0]; omega
  | ⟨1, _⟩ => show win6_2.index t (1 : Fin 2) * 64 + 1 * f.val = f.val; rw [e1]; omega

/-- The bias row's one block is the row. -/
theorem iblk6_3_apply (c : Dev nD) (t : Fin cfg6.N) (f : Fin 64) :
    (iblk6 V c 3 t : S1x64.Idx → EReal) (ix2 (0 : Fin 1) f)
      = (V c (Pipeline.arrRef spec6 3) : S1x64.Idx → EReal) (ix2 (0 : Fin 1) f) := by
  obtain ⟨-, -, -, -, -, -, e0, e1, -⟩ := idx6 t
  unfold iblk6
  rw [View.read_apply]
  refine congrArg (V c (Pipeline.arrRef spec6 3) : S1x64.Idx → EReal) (funext fun a => Fin.ext ?_)
  match a with
  | ⟨0, _⟩ => show win6_3.index t (0 : Fin 2) * 1 + 1 * 0 = 0; rw [e0]
  | ⟨1, _⟩ => show win6_3.index t (1 : Fin 2) * 64 + 1 * f.val = f.val; rw [e1]; omega

/-- The matrix the call computes, as one function of the four arrays it reads. -/
abbrev lin6 (c : Dev nD) : S100000x64.Idx → EReal :=
  onIdx (linRow (V c (Pipeline.arrRef spec6 0) : S100000x64.Idx → EReal) (V c (Pipeline.arrRef spec6 1) : S100000x64.Idx → EReal)
    (V c (Pipeline.arrRef spec6 2) : S64x64.Idx → EReal) (V c (Pipeline.arrRef spec6 3) : S1x64.Idx → EReal))

/-- What point t writes back is block t of that matrix. -/
theorem flushed6 (c : Dev nD) (t : Fin cfg6.N) :
    (dat6 (F := Ideal) V c).flushed 4 t = ((cfg6.win 4).blk t).view.read (Elt Ideal) (lin6 V c) := by
  have hN : t.val < 10 := by have h := t.isLt; have e : cfg6.N = 10 := N_6; omega
  obtain ⟨-, -, -, -, -, -, -, -, e0, e1⟩ := idx6 t
  show (cfg6.win 4).cut (grid6.coords t) ((dat6 V c).after 4 t) = _
  rw [after6_4]
  unfold out6_4
  rw [View.canon_unit_zero hz6]
  simp only [View.ld_unit_zero (S := S10000x64) hz6, View.ld_unit_zero (S := S64x64) hz6, View.ld_unit_zero (S := S1x64) hz6]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg6.win 4).blk t).view.emb (ix2 r f) = (ix2 ⟨10000 * t.val + r.val, hp⟩ f : S100000x64.Idx) := by
    funext a; apply Fin.ext
    match a with
    | ⟨0, _⟩ => show win6_4.index t (0 : Fin 2) * 10000 + 1 * r.val = 10000 * t.val + r.val; rw [e0]; omega
    | ⟨1, _⟩ => show win6_4.index t (1 : Fin 2) * 64 + 1 * f.val = f.val; rw [e1]; omega
  show k6_pay1 (iblk6 V c 0 t) (iblk6 V c 1 t) (iblk6 V c 2 t) (iblk6 V c 3 t) (ix2 r f)
      = lin6 V c (((cfg6.win 4).blk t).view.emb (ix2 r f))
  rw [hemb]
  refine (pay6 (iblk6 V c 0 t) (iblk6 V c 1 t) (iblk6 V c 2 t) (iblk6 V c 3 t) r f).trans ?_
  show _ = linRow _ _ _ _ ⟨10000 * t.val + r.val, hp⟩ f
  unfold linRow
  refine congrArg₂ (· + ·) (Finset.sum_congr rfl fun d _ => ?_) (iblk6_3_apply V c t f)
  rw [iblk6_0_apply V c t r d hp, iblk6_1_apply V c t r d hp, iblk6_2_apply V c t d f]

/-- An index of the array is in point t's block iff its row is one of the block's rows. -/
theorem mem_blk6 (t : Fin cfg6.N) (i : S100000x64.Idx) :
    i ∈ ((cfg6.win 4).blk t).view.set ↔ ∀ a : Fin 2, win6_4.index t a * S10000x64.size a ≤ (i a).val
      ∧ (i a).val < win6_4.index t a * S10000x64.size a + S10000x64.size a := by
  show i ∈ ((View.whole main_v136).slice (win6_4.rect t)).set ↔ _
  rw [View.set_slice_whole, Rect.mem_set_unit]
  exact Iff.rfl

/-- The array after the call: the whole matrix (row p is written by point p / 10000). -/
theorem final6 (c : Dev nD) : (dat6 (F := Ideal) V c).arrAt 4 cfg6.N = lin6 V c :=
  (dat6 V c).arrAt_eq_of_cover 4 (lin6 V c) (fun t _ => flushed6 V c t) fun i => by
    have hi0 : (i 0).val < 100000 := (i 0).isLt
    have hi1 : (i 1).val < 64 := (i 1).isLt
    have hN : cfg6.N = 10 := N_6
    refine ⟨⟨(i 0).val / 10000, by rw [hN]; omega⟩, flush6_4 _, ?_⟩
    obtain ⟨-, -, -, -, -, -, -, -, e0, e1⟩ := idx6 ⟨(i 0).val / 10000, by rw [hN]; omega⟩
    rw [mem_blk6]
    intro a
    match a with
    | ⟨0, _⟩ => show win6_4.index _ (0 : Fin 2) * 10000 ≤ (i 0).val ∧ (i 0).val < win6_4.index _ (0 : Fin 2) * 10000 + 10000; rw [e0]; show (i 0).val / 10000 * 10000 ≤ (i 0).val ∧ (i 0).val < (i 0).val / 10000 * 10000 + 10000; omega
    | ⟨1, _⟩ => show win6_4.index _ (1 : Fin 2) * 64 ≤ (i 1).val ∧ (i 1).val < win6_4.index _ (1 : Fin 2) * 64 + 64; rw [e1]; omega

end Cert.KernelIdeal.Hand

end
-- ==== Proof.Region7.lean ====
/-
  Device call 7 of the kernel's program: the second half of a layer, ten thousand rows at a time.

  At block t the call reads rows 10000·t … 10000·t + 9999 of the first dense map's result, the rows of column means and
  variances, gamma, beta, the second 64 × 64 weight matrix and its bias row; it normalises, takes the hyperbolic tangent,
  multiplies by the weights, adds the bias and takes the hyperbolic tangent again, and writes the same rows of the
  result. Every step acts on a row by itself, so the ten blocks written back are the ten row blocks of ONE matrix, and
  the blocks tile the rows: the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz7 : (![0, 0] : Fin 2 → Nat) = fun _ => 0 := funext fun a => by fin_cases a <;> rfl

/-- The block's arithmetic at local row r and column f: the row function of the seven loaded blocks. -/
theorem pay7 (x : Vec Ideal S10000x64 .f32) (ga mu var be : Vec Ideal S1x64 .f32) (w : Vec Ideal S64x64 .f32)
    (b : Vec Ideal S1x64 .f32) (r : Fin 10000) (f : Fin 64) :
    k7_pay1 (F := Ideal) x ga mu var be w b (ix2 r f) = bnRow x mu var ga be w b r f := by
  unfold k7_pay1 bnRow
  simp only [shapeCast_self]
  show Ideal.tanh (matmul _ none _ _ (constant (F := Ideal) S10000x64 .f32 0x00000000#32) (ix2 r f)
      + broadcastTo S10000x64 b _ (ix2 r f)) = _
  rw [InnerProducts.matmul_zero_apply dot_S10000x64_S64x64_S10000x64_1_0_0_1_n_n rfl, broadcastTo_1b_ab_apply]
  refine congrArg Ideal.tanh (congrArg₂ (· + ·) (Finset.sum_congr rfl fun d _ => ?_) rfl)
  show Ideal.tanh (broadcastTo S10000x64 ga _ (ix2 r d) * (x (ix2 r d) - broadcastTo S10000x64 mu _ (ix2 r d))
      * broadcastTo S10000x64 (rsqrt (addf var (broadcast S1x64 (Scalar.ofBits (F := Ideal) .f32 0x3727C5AC#32)))) _ (ix2 r d)
      + broadcastTo S10000x64 be _ (ix2 r d)) * w (ix2 d f) = _
  rw [broadcastTo_1b_ab_apply, broadcastTo_1b_ab_apply, broadcastTo_1b_ab_apply, broadcastTo_1b_ab_apply]
  rfl

/-- Where each window's block sits at point t: the row-blocked input and the output at block row t, every parameter
    at the origin. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Local row r of the input's block at point t is row 10000·t + r of the input. -/
theorem iblk7_0_apply (c : Dev nD) (t : Fin cfg7.N) (r : Fin 10000) (d : Fin 64) (hp : 10000 * t.val + r.val < 100000) :
    (iblk7 V c 0 t : S10000x64.Idx → EReal) (ix2 r d)
      = (V c (Pipeline.arrRef spec7 0) : S100000x64.Idx → EReal) (ix2 ⟨10000 * t.val + r.val, hp⟩ d) := by
  obtain ⟨e0, e1, -⟩ := idx7 t
  unfold iblk7
  rw [View.read_apply]
  refine congrArg (V c (Pipeline.arrRef spec7 0) : S100000x64.Idx → EReal) (funext fun a => Fin.ext ?_)
  match a with
  | ⟨0, _⟩ => show win7_0.index t (0 : Fin 2) * 10000 + 1 * r.val = 10000 * t.val + r.val; rw [e0]; omega
  | ⟨1, _⟩ => show win7_0.index t (1 : Fin 2) * 64 + 1 * d.val = d.val; rw [e1]; omega

/-- Window 1's one block is its [1, 64] row. -/
theorem iblk7_1_apply (c : Dev nD) (t : Fin cfg7.N) (f : Fin 64) :
    (iblk7 V c 1 t : S1x64.Idx → EReal) (ix2 (0 : Fin 1) f)
      = (V c (Pipeline.arrRef spec7 1) : S1x64.Idx → EReal) (ix2 (0 : Fin 1) f) := by
  have e := idx7 t
  unfold iblk7
  rw [View.read_apply]
  refine congrArg (V c (Pipeline.arrRef spec7 1) : S1x64.Idx → EReal) (funext fun a => Fin.ext ?_)
  match a with
  | ⟨0, _⟩ => show win7_1.index t (0 : Fin 2) * 1 + 1 * 0 = 0; rw [e.2.2.1]
  | ⟨1, _⟩ => show win7_1.index t (1 : Fin 2) * 64 + 1 * f.val = f.val; rw [e.2.2.2.1]; omega

/-- Window 2's one block is its [1, 64] row. -/
theorem iblk7_2_apply (c : Dev nD) (t : Fin cfg7.N) (f : Fin 64) :
    (iblk7 V c 2 t : S1x64.Idx → EReal) (ix2 (0 : Fin 1) f)
      = (V c (Pipeline.arrRef spec7 2) : S1x64.Idx → EReal) (ix2 (0 : Fin 1) f) := by
  have e := idx7 t
  unfold iblk7
  rw [View.read_apply]
  refine congrArg (V c (Pipeline.arrRef spec7 2) : S1x64.Idx → EReal) (funext fun a => Fin.ext ?_)
  match a with
  | ⟨0, _⟩ => show win7_2.index t (0 : Fin 2) * 1 + 1 * 0 = 0; rw [e.2.2.2.2.1]
  | ⟨1, _⟩ => show win7_2.index t (1 : Fin 2) * 64 + 1 * f.val = f.val; rw [e.2.2.2.2.2.1]; omega

/-- Window 3's one block is its [1, 64] row. -/
theorem iblk7_3_apply (c : Dev nD) (t : Fin cfg7.N) (f : Fin 64) :
    (iblk7 V c 3 t : S1x64.Idx → EReal) (ix2 (0 : Fin 1) f)
      = (V c (Pipeline.arrRef spec7 3) : S1x64.Idx → EReal) (ix2 (0 : Fin 1) f) := by
  have e := idx7 t
  unfold iblk7
  rw [View.read_apply]
  refine congrArg (V c (Pipeline.arrRef spec7 3) : S1x64.Idx → EReal) (funext fun a => Fin.ext ?_)
  match a with
  | ⟨0, _⟩ => show win7_3.index t (0 : Fin 2) * 1 + 1 * 0 = 0; rw [e.2.2.2.2.2.2.1]
  | ⟨1, _⟩ => show win7_3.index t (1 : Fin 2) * 64 + 1 * f.val = f.val; rw [e.2.2.2.2.2.2.2.1]; omega

/-- Window 4's one block is its [1, 64] row. -/
theorem iblk7_4_apply (c : Dev nD) (t : Fin cfg7.N) (f : Fin 64) :
    (iblk7 V c 4 t : S1x64.Idx → EReal) (ix2 (0 : Fin 1) f)
      = (V c (Pipeline.arrRef spec7 4) : S1x64.Idx → EReal) (ix2 (0 : Fin 1) f) := by
  have e := idx7 t
  unfold iblk7
  rw [View.read_apply]
  refine congrArg (V c (Pipeline.arrRef spec7 4) : S1x64.Idx → EReal) (funext fun a => Fin.ext ?_)
  match a with
  | ⟨0, _⟩ => show win7_4.index t (0 : Fin 2) * 1 + 1 * 0 = 0; rw [e.2.2.2.2.2.2.2.2.1]
  | ⟨1, _⟩ => show win7_4.index t (1 : Fin 2) * 64 + 1 * f.val = f.val; rw [e.2.2.2.2.2.2.2.2.2.1]; omega

/-- Window 6's one block is its [1, 64] row. -/
theorem iblk7_6_apply (c : Dev nD) (t : Fin cfg7.N) (f : Fin 64) :
    (iblk7 V c 6 t : S1x64.Idx → EReal) (ix2 (0 : Fin 1) f)
      = (V c (Pipeline.arrRef spec7 6) : S1x64.Idx → EReal) (ix2 (0 : Fin 1) f) := by
  have e := idx7 t
  unfold iblk7
  rw [View.read_apply]
  refine congrArg (V c (Pipeline.arrRef spec7 6) : S1x64.Idx → EReal) (funext fun a => Fin.ext ?_)
  match a with
  | ⟨0, _⟩ => show win7_6.index t (0 : Fin 2) * 1 + 1 * 0 = 0; rw [e.2.2.2.2.2.2.2.2.2.2.2.2.1]
  | ⟨1, _⟩ => show win7_6.index t (1 : Fin 2) * 64 + 1 * f.val = f.val; rw [e.2.2.2.2.2.2.2.2.2.2.2.2.2.1]; omega

/-- The weight matrix's one block is the matrix. -/
theorem iblk7_5_apply (c : Dev nD) (t : Fin cfg7.N) (d f : Fin 64) :
    (iblk7 V c 5 t : S64x64.Idx → EReal) (ix2 d f)
      = (V c (Pipeline.arrRef spec7 5) : S64x64.Idx → EReal) (ix2 d f) := by
  have e := idx7 t
  unfold iblk7
  rw [View.read_apply]
  refine congrArg (V c (Pipeline.arrRef spec7 5) : S64x64.Idx → EReal) (funext fun a => Fin.ext ?_)
  match a with
  | ⟨0, _⟩ => show win7_5.index t (0 : Fin 2) * 64 + 1 * d.val = d.val; rw [e.2.2.2.2.2.2.2.2.2.2.1]; omega
  | ⟨1, _⟩ => show win7_5.index t (1 : Fin 2) * 64 + 1 * f.val = f.val; rw [e.2.2.2.2.2.2.2.2.2.2.2.1]; omega

/-- The matrix the call computes, as one function of the seven arrays it reads. -/
abbrev bn7 (c : Dev nD) : S100000x64.Idx → EReal :=
  onIdx (bnRow (V c (Pipeline.arrRef spec7 0) : S100000x64.Idx → EReal) (V c (Pipeline.arrRef spec7 1) : S1x64.Idx → EReal)
    (V c (Pipeline.arrRef spec7 2) : S1x64.Idx → EReal) (V c (Pipeline.arrRef spec7 3) : S1x64.Idx → EReal)
    (V c (Pipeline.arrRef spec7 4) : S1x64.Idx → EReal) (V c (Pipeline.arrRef spec7 5) : S64x64.Idx → EReal)
    (V c (Pipeline.arrRef spec7 6) : S1x64.Idx → EReal))

set_option maxHeartbeats 1600000 in
/-- What point t writes back is block t of that matrix. -/
theorem flushed7 (c : Dev nD) (t : Fin cfg7.N) :
    (dat7 (F := Ideal) V c).flushed 7 t = ((cfg7.win 7).blk t).view.read (Elt Ideal) (bn7 V c) := by
  have hN : t.val < 10 := by have h := t.isLt; have e : cfg7.N = 10 := N_7; omega
  have e := idx7 t
  show (cfg7.win 7).cut (grid7.coords t) ((dat7 V c).after 7 t) = _
  rw [after7_7]
  unfold out7_7
  rw [View.canon_unit_zero hz7]
  simp only [View.ld_unit_zero (S := S10000x64) hz7, View.ld_unit_zero (S := S64x64) hz7, View.ld_unit_zero (S := S1x64) hz7]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg7.win 7).blk t).view.emb (ix2 r f) = (ix2 ⟨10000 * t.val + r.val, hp⟩ f : S100000x64.Idx) := by
    funext a; apply Fin.ext
    match a with
    | ⟨0, _⟩ => show win7_7.index t (0 : Fin 2) * 10000 + 1 * r.val = 10000 * t.val + r.val; rw [e.2.2.2.2.2.2.2.2.2.2.2.2.2.2.1]; omega
    | ⟨1, _⟩ => show win7_7.index t (1 : Fin 2) * 64 + 1 * f.val = f.val; rw [e.2.2.2.2.2.2.2.2.2.2.2.2.2.2.2]; omega
  show k7_pay1 (iblk7 V c 0 t) (iblk7 V c 3 t) (iblk7 V c 1 t) (iblk7 V c 2 t) (iblk7 V c 4 t) (iblk7 V c 5 t) (iblk7 V c 6 t) (ix2 r f)
      = bn7 V c (((cfg7.win 7).blk t).view.emb (ix2 r f))
  rw [hemb]
  refine (pay7 (iblk7 V c 0 t) (iblk7 V c 3 t) (iblk7 V c 1 t) (iblk7 V c 2 t) (iblk7 V c 4 t) (iblk7 V c 5 t) (iblk7 V c 6 t) r f).trans ?_
  show _ = bnRow _ _ _ _ _ _ _ ⟨10000 * t.val + r.val, hp⟩ f
  unfold bnRow
  refine congrArg Ideal.tanh (congrArg₂ (· + ·) (Finset.sum_congr rfl fun d _ => ?_) (iblk7_6_apply V c t f))
  rw [iblk7_0_apply V c t r d hp, iblk7_1_apply V c t d, iblk7_2_apply V c t d, iblk7_3_apply V c t d,
    iblk7_4_apply V c t d, iblk7_5_apply V c t d f]

/-- An index of the array is in point t's block iff its row is one of the block's rows. -/
theorem mem_blk7 (t : Fin cfg7.N) (i : S100000x64.Idx) :
    i ∈ ((cfg7.win 7).blk t).view.set ↔ ∀ a : Fin 2, win7_7.index t a * S10000x64.size a ≤ (i a).val
      ∧ (i a).val < win7_7.index t a * S10000x64.size a + S10000x64.size a := by
  show i ∈ ((View.whole main_v159).slice (win7_7.rect t)).set ↔ _
  rw [View.set_slice_whole, Rect.mem_set_unit]
  exact Iff.rfl

/-- The array after the call: the whole matrix (row p is written by point p / 10000). -/
theorem final7 (c : Dev nD) : (dat7 (F := Ideal) V c).arrAt 7 cfg7.N = bn7 V c :=
  (dat7 V c).arrAt_eq_of_cover 7 (bn7 V c) (fun t _ => flushed7 V c t) fun i => by
    have hi0 : (i 0).val < 100000 := (i 0).isLt
    have hi1 : (i 1).val < 64 := (i 1).isLt
    have hN : cfg7.N = 10 := N_7
    refine ⟨⟨(i 0).val / 10000, by rw [hN]; omega⟩, flush7_7 _, ?_⟩
    have e := idx7 ⟨(i 0).val / 10000, by rw [hN]; omega⟩
    rw [mem_blk7]
    intro a
    match a with
    | ⟨0, _⟩ => show win7_7.index _ (0 : Fin 2) * 10000 ≤ (i 0).val ∧ (i 0).val < win7_7.index _ (0 : Fin 2) * 10000 + 10000; rw [e.2.2.2.2.2.2.2.2.2.2.2.2.2.2.1]; show (i 0).val / 10000 * 10000 ≤ (i 0).val ∧ (i 0).val < (i 0).val / 10000 * 10000 + 10000; omega
    | ⟨1, _⟩ => show win7_7.index _ (1 : Fin 2) * 64 ≤ (i 1).val ∧ (i 1).val < win7_7.index _ (1 : Fin 2) * 64 + 64; rw [e.2.2.2.2.2.2.2.2.2.2.2.2.2.2.2]; omega

end Cert.KernelIdeal.Hand

end
-- ==== Proof.Region4.lean ====
/-
  Device call 4 of the kernel's program: one dense map of a layer, (1.3 · x + a) · w + b, computed ten thousand rows at
  a time.

  The call walks the 100000 rows in ten blocks of 10000; at block t it reads rows 10000·t … 10000·t + 9999 of x and of
  the aggregate a, the whole 64 × 64 weight matrix and the bias row, and writes the same rows of the result. A row of
  a product of matrices depends on that row of the left factor only, so the ten blocks written back are the ten row
  blocks of ONE matrix: entry (p, f) of the result is the sum over d of (1.3 · x(p, d) + a(p, d)) · w(d, f), plus b(f),
  whatever block p lies in. The blocks tile the rows, so the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz4 : (![0, 0] : Fin 2 → Nat) = fun _ => 0 := funext fun a => by fin_cases a <;> rfl

/-- The block's arithmetic at local row r and column f: the row function of the four loaded blocks. -/
theorem pay4 (x0 x1 : Vec Ideal S10000x64 .f32) (x2 : Vec Ideal S64x64 .f32) (x3 : Vec Ideal S1x64 .f32)
    (r : Fin 10000) (f : Fin 64) :
    k4_pay1 (F := Ideal) x0 x1 x2 x3 (ix2 r f) = linRow x0 x1 x2 x3 r f := by
  unfold k4_pay1 linRow
  simp only [shapeCast_self]
  show matmul _ none _ _ (constant (F := Ideal) S10000x64 .f32 0x00000000#32) (ix2 r f)
      + broadcastTo S10000x64 x3 _ (ix2 r f) = _
  rw [InnerProducts.matmul_zero_apply dot_S10000x64_S64x64_S10000x64_1_0_0_1_n_n rfl, broadcastTo_1b_ab_apply]
  rfl

/-- Where each window's block sits at point t: the two row-blocked inputs and the output at block row t, the weight
    matrix and the bias row at the origin. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Local row r of x's block at point t is row 10000·t + r of x. -/
theorem iblk4_0_apply (c : Dev nD) (t : Fin cfg4.N) (r : Fin 10000) (d : Fin 64) (hp : 10000 * t.val + r.val < 100000) :
    (iblk4 V c 0 t : S10000x64.Idx → EReal) (ix2 r d)
      = (V c (Pipeline.arrRef spec4 0) : S100000x64.Idx → EReal) (ix2 ⟨10000 * t.val + r.val, hp⟩ d) := by
  obtain ⟨e0, e1, -⟩ := idx4 t
  unfold iblk4
  rw [View.read_apply]
  refine congrArg (V c (Pipeline.arrRef spec4 0) : S100000x64.Idx → EReal) (funext fun a => Fin.ext ?_)
  match a with
  | ⟨0, _⟩ => show win4_0.index t (0 : Fin 2) * 10000 + 1 * r.val = 10000 * t.val + r.val; rw [e0]; omega
  | ⟨1, _⟩ => show win4_0.index t (1 : Fin 2) * 64 + 1 * d.val = d.val; rw [e1]; omega

/-- Local row r of the aggregate's block at point t is row 10000·t + r of the aggregate. -/
theorem iblk4_1_apply (c : Dev nD) (t : Fin cfg4.N) (r : Fin 10000) (d : Fin 64) (hp : 10000 * t.val + r.val < 100000) :
    (iblk4 V c 1 t : S10000x64.Idx → EReal) (ix2 r d)
      = (V c (Pipeline.arrRef spec4 1) : S100000x64.Idx → EReal) (ix2 ⟨10000 * t.val + r.val, hp⟩ d) := by
  obtain ⟨-, -, e0, e1, -⟩ := idx4 t
  unfold iblk4
  rw [View.read_apply]
  refine congrArg (V c (Pipeline.arrRef spec4 1) : S100000x64.Idx → EReal) (funext fun a => Fin.ext ?_)
  match a with
  | ⟨0, _⟩ => show win4_1.index t (0 : Fin 2) * 10000 + 1 * r.val = 10000 * t.val + r.val; rw [e0]; omega
  | ⟨1, _⟩ => show win4_1.index t (1 : Fin 2) * 64 + 1 * d.val = d.val; rw [e1]; omega

/-- The weight matrix's one block is the matrix. -/
theorem iblk4_2_apply (c : Dev nD) (t : Fin cfg4.N) (d f : Fin 64) :
    (iblk4 V c 2 t : S64x64.Idx → EReal) (ix2 d f)
      = (V c (Pipeline.arrRef spec4 2) : S64x64.Idx → EReal) (ix2 d f) := by
  obtain ⟨-, -, -, -, e0, e1, -⟩ := idx4 t
  unfold iblk4
  rw [View.read_apply]
  refine congrArg (V c (Pipeline.arrRef spec4 2) : S64x64.Idx → EReal) (funext fun a => Fin.ext ?_)
  match a with
  | ⟨0, _⟩ => show win4_2.index t (0 : Fin 2) * 64 + 1 * d.val = d.val; rw [e0]; omega
  | ⟨1, _⟩ => show win4_2.index t (1 : Fin 2) * 64 + 1 * f.val = f.val; rw [e1]; omega

/-- The bias row's one block is the row. -/
theorem iblk4_3_apply (c : Dev nD) (t : Fin cfg4.N) (f : Fin 64) :
    (iblk4 V c 3 t : S1x64.Idx → EReal) (ix2 (0 : Fin 1) f)
      = (V c (Pipeline.arrRef spec4 3) : S1x64.Idx → EReal) (ix2 (0 : Fin 1) f) := by
  obtain ⟨-, -, -, -, -, -, e0, e1, -⟩ := idx4 t
  unfold iblk4
  rw [View.read_apply]
  refine congrArg (V c (Pipeline.arrRef spec4 3) : S1x64.Idx → EReal) (funext fun a => Fin.ext ?_)
  match a with
  | ⟨0, _⟩ => show win4_3.index t (0 : Fin 2) * 1 + 1 * 0 = 0; rw [e0]
  | ⟨1, _⟩ => show win4_3.index t (1 : Fin 2) * 64 + 1 * f.val = f.val; rw [e1]; omega

/-- The matrix the call computes, as one function of the four arrays it reads. -/
abbrev lin4 (c : Dev nD) : S100000x64.Idx → EReal :=
  onIdx (linRow (V c (Pipeline.arrRef spec4 0) : S100000x64.Idx → EReal) (V c (Pipeline.arrRef spec4 1) : S100000x64.Idx → EReal)
    (V c (Pipeline.arrRef spec4 2) : S64x64.Idx → EReal) (V c (Pipeline.arrRef spec4 3) : S1x64.Idx → EReal))

/-- What point t writes back is block t of that matrix. -/
theorem flushed4 (c : Dev nD) (t : Fin cfg4.N) :
    (dat4 (F := Ideal) V c).flushed 4 t = ((cfg4.win 4).blk t).view.read (Elt Ideal) (lin4 V c) := by
  have hN : t.val < 10 := by have h := t.isLt; have e : cfg4.N = 10 := N_4; omega
  obtain ⟨-, -, -, -, -, -, -, -, e0, e1⟩ := idx4 t
  show (cfg4.win 4).cut (grid4.coords t) ((dat4 V c).after 4 t) = _
  rw [after4_4]
  unfold out4_4
  rw [View.canon_unit_zero hz4]
  simp only [View.ld_unit_zero (S := S10000x64) hz4, View.ld_unit_zero (S := S64x64) hz4, View.ld_unit_zero (S := S1x64) hz4]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg4.win 4).blk t).view.emb (ix2 r f) = (ix2 ⟨10000 * t.val + r.val, hp⟩ f : S100000x64.Idx) := by
    funext a; apply Fin.ext
    match a with
    | ⟨0, _⟩ => show win4_4.index t (0 : Fin 2) * 10000 + 1 * r.val = 10000 * t.val + r.val; rw [e0]; omega
    | ⟨1, _⟩ => show win4_4.index t (1 : Fin 2) * 64 + 1 * f.val = f.val; rw [e1]; omega
  show k4_pay1 (iblk4 V c 0 t) (iblk4 V c 1 t) (iblk4 V c 2 t) (iblk4 V c 3 t) (ix2 r f)
      = lin4 V c (((cfg4.win 4).blk t).view.emb (ix2 r f))
  rw [hemb]
  refine (pay4 (iblk4 V c 0 t) (iblk4 V c 1 t) (iblk4 V c 2 t) (iblk4 V c 3 t) r f).trans ?_
  show _ = linRow _ _ _ _ ⟨10000 * t.val + r.val, hp⟩ f
  unfold linRow
  refine congrArg₂ (· + ·) (Finset.sum_congr rfl fun d _ => ?_) (iblk4_3_apply V c t f)
  rw [iblk4_0_apply V c t r d hp, iblk4_1_apply V c t r d hp, iblk4_2_apply V c t d f]

/-- An index of the array is in point t's block iff its row is one of the block's rows. -/
theorem mem_blk4 (t : Fin cfg4.N) (i : S100000x64.Idx) :
    i ∈ ((cfg4.win 4).blk t).view.set ↔ ∀ a : Fin 2, win4_4.index t a * S10000x64.size a ≤ (i a).val
      ∧ (i a).val < win4_4.index t a * S10000x64.size a + S10000x64.size a := by
  show i ∈ ((View.whole main_v97).slice (win4_4.rect t)).set ↔ _
  rw [View.set_slice_whole, Rect.mem_set_unit]
  exact Iff.rfl

/-- The array after the call: the whole matrix (row p is written by point p / 10000). -/
theorem final4 (c : Dev nD) : (dat4 (F := Ideal) V c).arrAt 4 cfg4.N = lin4 V c :=
  (dat4 V c).arrAt_eq_of_cover 4 (lin4 V c) (fun t _ => flushed4 V c t) fun i => by
    have hi0 : (i 0).val < 100000 := (i 0).isLt
    have hi1 : (i 1).val < 64 := (i 1).isLt
    have hN : cfg4.N = 10 := N_4
    refine ⟨⟨(i 0).val / 10000, by rw [hN]; omega⟩, flush4_4 _, ?_⟩
    obtain ⟨-, -, -, -, -, -, -, -, e0, e1⟩ := idx4 ⟨(i 0).val / 10000, by rw [hN]; omega⟩
    rw [mem_blk4]
    intro a
    match a with
    | ⟨0, _⟩ => show win4_4.index _ (0 : Fin 2) * 10000 ≤ (i 0).val ∧ (i 0).val < win4_4.index _ (0 : Fin 2) * 10000 + 10000; rw [e0]; show (i 0).val / 10000 * 10000 ≤ (i 0).val ∧ (i 0).val < (i 0).val / 10000 * 10000 + 10000; omega
    | ⟨1, _⟩ => show win4_4.index _ (1 : Fin 2) * 64 ≤ (i 1).val ∧ (i 1).val < win4_4.index _ (1 : Fin 2) * 64 + 64; rw [e1]; omega

end Cert.KernelIdeal.Hand

end
-- ==== Proof.Region5.lean ====
/-
  Device call 5 of the kernel's program: the second half of a layer, ten thousand rows at a time.

  At block t the call reads rows 10000·t … 10000·t + 9999 of the first dense map's result, the rows of column means and
  variances, gamma, beta, the second 64 × 64 weight matrix and its bias row; it normalises, takes the hyperbolic tangent,
  multiplies by the weights, adds the bias and takes the hyperbolic tangent again, and writes the same rows of the
  result. Every step acts on a row by itself, so the ten blocks written back are the ten row blocks of ONE matrix, and
  the blocks tile the rows: the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz5 : (![0, 0] : Fin 2 → Nat) = fun _ => 0 := funext fun a => by fin_cases a <;> rfl

/-- The block's arithmetic at local row r and column f: the row function of the seven loaded blocks. -/
theorem pay5 (x : Vec Ideal S10000x64 .f32) (ga mu var be : Vec Ideal S1x64 .f32) (w : Vec Ideal S64x64 .f32)
    (b : Vec Ideal S1x64 .f32) (r : Fin 10000) (f : Fin 64) :
    k5_pay1 (F := Ideal) x ga mu var be w b (ix2 r f) = bnRow x mu var ga be w b r f := by
  unfold k5_pay1 bnRow
  simp only [shapeCast_self]
  show Ideal.tanh (matmul _ none _ _ (constant (F := Ideal) S10000x64 .f32 0x00000000#32) (ix2 r f)
      + broadcastTo S10000x64 b _ (ix2 r f)) = _
  rw [InnerProducts.matmul_zero_apply dot_S10000x64_S64x64_S10000x64_1_0_0_1_n_n rfl, broadcastTo_1b_ab_apply]
  refine congrArg Ideal.tanh (congrArg₂ (· + ·) (Finset.sum_congr rfl fun d _ => ?_) rfl)
  show Ideal.tanh (broadcastTo S10000x64 ga _ (ix2 r d) * (x (ix2 r d) - broadcastTo S10000x64 mu _ (ix2 r d))
      * broadcastTo S10000x64 (rsqrt (addf var (broadcast S1x64 (Scalar.ofBits (F := Ideal) .f32 0x3727C5AC#32)))) _ (ix2 r d)
      + broadcastTo S10000x64 be _ (ix2 r d)) * w (ix2 d f) = _
  rw [broadcastTo_1b_ab_apply, broadcastTo_1b_ab_apply, broadcastTo_1b_ab_apply, broadcastTo_1b_ab_apply]
  rfl

/-- Where each window's block sits at point t: the row-blocked input and the output at block row t, every parameter
    at the origin. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Local row r of the input's block at point t is row 10000·t + r of the input. -/
theorem iblk5_0_apply (c : Dev nD) (t : Fin cfg5.N) (r : Fin 10000) (d : Fin 64) (hp : 10000 * t.val + r.val < 100000) :
    (iblk5 V c 0 t : S10000x64.Idx → EReal) (ix2 r d)
      = (V c (Pipeline.arrRef spec5 0) : S100000x64.Idx → EReal) (ix2 ⟨10000 * t.val + r.val, hp⟩ d) := by
  obtain ⟨e0, e1, -⟩ := idx5 t
  unfold iblk5
  rw [View.read_apply]
  refine congrArg (V c (Pipeline.arrRef spec5 0) : S100000x64.Idx → EReal) (funext fun a => Fin.ext ?_)
  match a with
  | ⟨0, _⟩ => show win5_0.index t (0 : Fin 2) * 10000 + 1 * r.val = 10000 * t.val + r.val; rw [e0]; omega
  | ⟨1, _⟩ => show win5_0.index t (1 : Fin 2) * 64 + 1 * d.val = d.val; rw [e1]; omega

/-- Window 1's one block is its [1, 64] row. -/
theorem iblk5_1_apply (c : Dev nD) (t : Fin cfg5.N) (f : Fin 64) :
    (iblk5 V c 1 t : S1x64.Idx → EReal) (ix2 (0 : Fin 1) f)
      = (V c (Pipeline.arrRef spec5 1) : S1x64.Idx → EReal) (ix2 (0 : Fin 1) f) := by
  have e := idx5 t
  unfold iblk5
  rw [View.read_apply]
  refine congrArg (V c (Pipeline.arrRef spec5 1) : S1x64.Idx → EReal) (funext fun a => Fin.ext ?_)
  match a with
  | ⟨0, _⟩ => show win5_1.index t (0 : Fin 2) * 1 + 1 * 0 = 0; rw [e.2.2.1]
  | ⟨1, _⟩ => show win5_1.index t (1 : Fin 2) * 64 + 1 * f.val = f.val; rw [e.2.2.2.1]; omega

/-- Window 2's one block is its [1, 64] row. -/
theorem iblk5_2_apply (c : Dev nD) (t : Fin cfg5.N) (f : Fin 64) :
    (iblk5 V c 2 t : S1x64.Idx → EReal) (ix2 (0 : Fin 1) f)
      = (V c (Pipeline.arrRef spec5 2) : S1x64.Idx → EReal) (ix2 (0 : Fin 1) f) := by
  have e := idx5 t
  unfold iblk5
  rw [View.read_apply]
  refine congrArg (V c (Pipeline.arrRef spec5 2) : S1x64.Idx → EReal) (funext fun a => Fin.ext ?_)
  match a with
  | ⟨0, _⟩ => show win5_2.index t (0 : Fin 2) * 1 + 1 * 0 = 0; rw [e.2.2.2.2.1]
  | ⟨1, _⟩ => show win5_2.index t (1 : Fin 2) * 64 + 1 * f.val = f.val; rw [e.2.2.2.2.2.1]; omega

/-- Window 3's one block is its [1, 64] row. -/
theorem iblk5_3_apply (c : Dev nD) (t : Fin cfg5.N) (f : Fin 64) :
    (iblk5 V c 3 t : S1x64.Idx → EReal) (ix2 (0 : Fin 1) f)
      = (V c (Pipeline.arrRef spec5 3) : S1x64.Idx → EReal) (ix2 (0 : Fin 1) f) := by
  have e := idx5 t
  unfold iblk5
  rw [View.read_apply]
  refine congrArg (V c (Pipeline.arrRef spec5 3) : S1x64.Idx → EReal) (funext fun a => Fin.ext ?_)
  match a with
  | ⟨0, _⟩ => show win5_3.index t (0 : Fin 2) * 1 + 1 * 0 = 0; rw [e.2.2.2.2.2.2.1]
  | ⟨1, _⟩ => show win5_3.index t (1 : Fin 2) * 64 + 1 * f.val = f.val; rw [e.2.2.2.2.2.2.2.1]; omega

/-- Window 4's one block is its [1, 64] row. -/
theorem iblk5_4_apply (c : Dev nD) (t : Fin cfg5.N) (f : Fin 64) :
    (iblk5 V c 4 t : S1x64.Idx → EReal) (ix2 (0 : Fin 1) f)
      = (V c (Pipeline.arrRef spec5 4) : S1x64.Idx → EReal) (ix2 (0 : Fin 1) f) := by
  have e := idx5 t
  unfold iblk5
  rw [View.read_apply]
  refine congrArg (V c (Pipeline.arrRef spec5 4) : S1x64.Idx → EReal) (funext fun a => Fin.ext ?_)
  match a with
  | ⟨0, _⟩ => show win5_4.index t (0 : Fin 2) * 1 + 1 * 0 = 0; rw [e.2.2.2.2.2.2.2.2.1]
  | ⟨1, _⟩ => show win5_4.index t (1 : Fin 2) * 64 + 1 * f.val = f.val; rw [e.2.2.2.2.2.2.2.2.2.1]; omega

/-- Window 6's one block is its [1, 64] row. -/
theorem iblk5_6_apply (c : Dev nD) (t : Fin cfg5.N) (f : Fin 64) :
    (iblk5 V c 6 t : S1x64.Idx → EReal) (ix2 (0 : Fin 1) f)
      = (V c (Pipeline.arrRef spec5 6) : S1x64.Idx → EReal) (ix2 (0 : Fin 1) f) := by
  have e := idx5 t
  unfold iblk5
  rw [View.read_apply]
  refine congrArg (V c (Pipeline.arrRef spec5 6) : S1x64.Idx → EReal) (funext fun a => Fin.ext ?_)
  match a with
  | ⟨0, _⟩ => show win5_6.index t (0 : Fin 2) * 1 + 1 * 0 = 0; rw [e.2.2.2.2.2.2.2.2.2.2.2.2.1]
  | ⟨1, _⟩ => show win5_6.index t (1 : Fin 2) * 64 + 1 * f.val = f.val; rw [e.2.2.2.2.2.2.2.2.2.2.2.2.2.1]; omega

/-- The weight matrix's one block is the matrix. -/
theorem iblk5_5_apply (c : Dev nD) (t : Fin cfg5.N) (d f : Fin 64) :
    (iblk5 V c 5 t : S64x64.Idx → EReal) (ix2 d f)
      = (V c (Pipeline.arrRef spec5 5) : S64x64.Idx → EReal) (ix2 d f) := by
  have e := idx5 t
  unfold iblk5
  rw [View.read_apply]
  refine congrArg (V c (Pipeline.arrRef spec5 5) : S64x64.Idx → EReal) (funext fun a => Fin.ext ?_)
  match a with
  | ⟨0, _⟩ => show win5_5.index t (0 : Fin 2) * 64 + 1 * d.val = d.val; rw [e.2.2.2.2.2.2.2.2.2.2.1]; omega
  | ⟨1, _⟩ => show win5_5.index t (1 : Fin 2) * 64 + 1 * f.val = f.val; rw [e.2.2.2.2.2.2.2.2.2.2.2.1]; omega

/-- The matrix the call computes, as one function of the seven arrays it reads. -/
abbrev bn5 (c : Dev nD) : S100000x64.Idx → EReal :=
  onIdx (bnRow (V c (Pipeline.arrRef spec5 0) : S100000x64.Idx → EReal) (V c (Pipeline.arrRef spec5 1) : S1x64.Idx → EReal)
    (V c (Pipeline.arrRef spec5 2) : S1x64.Idx → EReal) (V c (Pipeline.arrRef spec5 3) : S1x64.Idx → EReal)
    (V c (Pipeline.arrRef spec5 4) : S1x64.Idx → EReal) (V c (Pipeline.arrRef spec5 5) : S64x64.Idx → EReal)
    (V c (Pipeline.arrRef spec5 6) : S1x64.Idx → EReal))

set_option maxHeartbeats 1600000 in
/-- What point t writes back is block t of that matrix. -/
theorem flushed5 (c : Dev nD) (t : Fin cfg5.N) :
    (dat5 (F := Ideal) V c).flushed 7 t = ((cfg5.win 7).blk t).view.read (Elt Ideal) (bn5 V c) := by
  have hN : t.val < 10 := by have h := t.isLt; have e : cfg5.N = 10 := N_5; omega
  have e := idx5 t
  show (cfg5.win 7).cut (grid5.coords t) ((dat5 V c).after 7 t) = _
  rw [after5_7]
  unfold out5_7
  rw [View.canon_unit_zero hz5]
  simp only [View.ld_unit_zero (S := S10000x64) hz5, View.ld_unit_zero (S := S64x64) hz5, View.ld_unit_zero (S := S1x64) hz5]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg5.win 7).blk t).view.emb (ix2 r f) = (ix2 ⟨10000 * t.val + r.val, hp⟩ f : S100000x64.Idx) := by
    funext a; apply Fin.ext
    match a with
    | ⟨0, _⟩ => show win5_7.index t (0 : Fin 2) * 10000 + 1 * r.val = 10000 * t.val + r.val; rw [e.2.2.2.2.2.2.2.2.2.2.2.2.2.2.1]; omega
    | ⟨1, _⟩ => show win5_7.index t (1 : Fin 2) * 64 + 1 * f.val = f.val; rw [e.2.2.2.2.2.2.2.2.2.2.2.2.2.2.2]; omega
  show k5_pay1 (iblk5 V c 0 t) (iblk5 V c 3 t) (iblk5 V c 1 t) (iblk5 V c 2 t) (iblk5 V c 4 t) (iblk5 V c 5 t) (iblk5 V c 6 t) (ix2 r f)
      = bn5 V c (((cfg5.win 7).blk t).view.emb (ix2 r f))
  rw [hemb]
  refine (pay5 (iblk5 V c 0 t) (iblk5 V c 3 t) (iblk5 V c 1 t) (iblk5 V c 2 t) (iblk5 V c 4 t) (iblk5 V c 5 t) (iblk5 V c 6 t) r f).trans ?_
  show _ = bnRow _ _ _ _ _ _ _ ⟨10000 * t.val + r.val, hp⟩ f
  unfold bnRow
  refine congrArg Ideal.tanh (congrArg₂ (· + ·) (Finset.sum_congr rfl fun d _ => ?_) (iblk5_6_apply V c t f))
  rw [iblk5_0_apply V c t r d hp, iblk5_1_apply V c t d, iblk5_2_apply V c t d, iblk5_3_apply V c t d,
    iblk5_4_apply V c t d, iblk5_5_apply V c t d f]

/-- An index of the array is in point t's block iff its row is one of the block's rows. -/
theorem mem_blk5 (t : Fin cfg5.N) (i : S100000x64.Idx) :
    i ∈ ((cfg5.win 7).blk t).view.set ↔ ∀ a : Fin 2, win5_7.index t a * S10000x64.size a ≤ (i a).val
      ∧ (i a).val < win5_7.index t a * S10000x64.size a + S10000x64.size a := by
  show i ∈ ((View.whole main_v120).slice (win5_7.rect t)).set ↔ _
  rw [View.set_slice_whole, Rect.mem_set_unit]
  exact Iff.rfl

/-- The array after the call: the whole matrix (row p is written by point p / 10000). -/
theorem final5 (c : Dev nD) : (dat5 (F := Ideal) V c).arrAt 7 cfg5.N = bn5 V c :=
  (dat5 V c).arrAt_eq_of_cover 7 (bn5 V c) (fun t _ => flushed5 V c t) fun i => by
    have hi0 : (i 0).val < 100000 := (i 0).isLt
    have hi1 : (i 1).val < 64 := (i 1).isLt
    have hN : cfg5.N = 10 := N_5
    refine ⟨⟨(i 0).val / 10000, by rw [hN]; omega⟩, flush5_7 _, ?_⟩
    have e := idx5 ⟨(i 0).val / 10000, by rw [hN]; omega⟩
    rw [mem_blk5]
    intro a
    match a with
    | ⟨0, _⟩ => show win5_7.index _ (0 : Fin 2) * 10000 ≤ (i 0).val ∧ (i 0).val < win5_7.index _ (0 : Fin 2) * 10000 + 10000; rw [e.2.2.2.2.2.2.2.2.2.2.2.2.2.2.1]; show (i 0).val / 10000 * 10000 ≤ (i 0).val ∧ (i 0).val < (i 0).val / 10000 * 10000 + 10000; omega
    | ⟨1, _⟩ => show win5_7.index _ (1 : Fin 2) * 64 ≤ (i 1).val ∧ (i 1).val < win5_7.index _ (1 : Fin 2) * 64 + 64; rw [e.2.2.2.2.2.2.2.2.2.2.2.2.2.2.2]; omega

end Cert.KernelIdeal.Hand

end
-- ==== Proof.Region2.lean ====
/-
  Device call 2 of the kernel's program: one dense map of a layer, (1.3 · x + a) · w + b, computed ten thousand rows at
  a time.

  The call walks the 100000 rows in ten blocks of 10000; at block t it reads rows 10000·t … 10000·t + 9999 of x and of
  the aggregate a, the whole 64 × 64 weight matrix and the bias row, and writes the same rows of the result. A row of
  a product of matrices depends on that row of the left factor only, so the ten blocks written back are the ten row
  blocks of ONE matrix: entry (p, f) of the result is the sum over d of (1.3 · x(p, d) + a(p, d)) · w(d, f), plus b(f),
  whatever block p lies in. The blocks tile the rows, so the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The block's arithmetic at local row r and column f: the row function of the four loaded blocks. -/
theorem pay2 (x0 x1 : Vec Ideal S10000x64 .f32) (x2 : Vec Ideal S64x64 .f32) (x3 : Vec Ideal S1x64 .f32)
    (r : Fin 10000) (f : Fin 64) :
    k2_pay1 (F := Ideal) x0 x1 x2 x3 (ix2 r f) = linRow x0 x1 x2 x3 r f := by
  unfold k2_pay1 linRow
  simp only [shapeCast_self]
  show matmul _ none _ _ (constant (F := Ideal) S10000x64 .f32 0x00000000#32) (ix2 r f)
      + broadcastTo S10000x64 x3 _ (ix2 r f) = _
  rw [InnerProducts.matmul_zero_apply dot_S10000x64_S64x64_S10000x64_1_0_0_1_n_n rfl, broadcastTo_1b_ab_apply]
  rfl

/-- Where each window's block sits at point t: the two row-blocked inputs and the output at block row t, the weight
    matrix and the bias row at the origin. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Local row r of x's block at point t is row 10000·t + r of x. -/
theorem iblk2_0_apply (c : Dev nD) (t : Fin cfg2.N) (r : Fin 10000) (d : Fin 64) (hp : 10000 * t.val + r.val < 100000) :
    (iblk2 V c 0 t : S10000x64.Idx → EReal) (ix2 r d)
      = (V c (Pipeline.arrRef spec2 0) : S100000x64.Idx → EReal) (ix2 ⟨10000 * t.val + r.val, hp⟩ d) := by
  obtain ⟨e0, e1, -⟩ := idx2 t
  unfold iblk2
  rw [View.read_apply]
  refine congrArg (V c (Pipeline.arrRef spec2 0) : S100000x64.Idx → EReal) (funext fun a => Fin.ext ?_)
  match a with
  | ⟨0, _⟩ => show win2_0.index t (0 : Fin 2) * 10000 + 1 * r.val = 10000 * t.val + r.val; rw [e0]; omega
  | ⟨1, _⟩ => show win2_0.index t (1 : Fin 2) * 64 + 1 * d.val = d.val; rw [e1]; omega

/-- Local row r of the aggregate's block at point t is row 10000·t + r of the aggregate. -/
theorem iblk2_1_apply (c : Dev nD) (t : Fin cfg2.N) (r : Fin 10000) (d : Fin 64) (hp : 10000 * t.val + r.val < 100000) :
    (iblk2 V c 1 t : S10000x64.Idx → EReal) (ix2 r d)
      = (V c (Pipeline.arrRef spec2 1) : S100000x64.Idx → EReal) (ix2 ⟨10000 * t.val + r.val, hp⟩ d) := by
  obtain ⟨-, -, e0, e1, -⟩ := idx2 t
  unfold iblk2
  rw [View.read_apply]
  refine congrArg (V c (Pipeline.arrRef spec2 1) : S100000x64.Idx → EReal) (funext fun a => Fin.ext ?_)
  match a with
  | ⟨0, _⟩ => show win2_1.index t (0 : Fin 2) * 10000 + 1 * r.val = 10000 * t.val + r.val; rw [e0]; omega
  | ⟨1, _⟩ => show win2_1.index t (1 : Fin 2) * 64 + 1 * d.val = d.val; rw [e1]; omega

/-- The weight matrix's one block is the matrix. -/
theorem iblk2_2_apply (c : Dev nD) (t : Fin cfg2.N) (d f : Fin 64) :
    (iblk2 V c 2 t : S64x64.Idx → EReal) (ix2 d f)
      = (V c (Pipeline.arrRef spec2 2) : S64x64.Idx → EReal) (ix2 d f) := by
  obtain ⟨-, -, -, -, e0, e1, -⟩ := idx2 t
  unfold iblk2
  rw [View.read_apply]
  refine congrArg (V c (Pipeline.arrRef spec2 2) : S64x64.Idx → EReal) (funext fun a => Fin.ext ?_)
  match a with
  | ⟨0, _⟩ => show win2_2.index t (0 : Fin 2) * 64 + 1 * d.val = d.val; rw [e0]; omega
  | ⟨1, _⟩ => show win2_2.index t (1 : Fin 2) * 64 + 1 * f.val = f.val; rw [e1]; omega

/-- The bias row's one block is the row. -/
theorem iblk2_3_apply (c : Dev nD) (t : Fin cfg2.N) (f : Fin 64) :
    (iblk2 V c 3 t : S1x64.Idx → EReal) (ix2 (0 : Fin 1) f)
      = (V c (Pipeline.arrRef spec2 3) : S1x64.Idx → EReal) (ix2 (0 : Fin 1) f) := by
  obtain ⟨-, -, -, -, -, -, e0, e1, -⟩ := idx2 t
  unfold iblk2
  rw [View.read_apply]
  refine congrArg (V c (Pipeline.arrRef spec2 3) : S1x64.Idx → EReal) (funext fun a => Fin.ext ?_)
  match a with
  | ⟨0, _⟩ => show win2_3.index t (0 : Fin 2) * 1 + 1 * 0 = 0; rw [e0]
  | ⟨1, _⟩ => show win2_3.index t (1 : Fin 2) * 64 + 1 * f.val = f.val; rw [e1]; omega

/-- The matrix the call computes, as one function of the four arrays it reads. -/
abbrev lin2 (c : Dev nD) : S100000x64.Idx → EReal :=
  onIdx (linRow (V c (Pipeline.arrRef spec2 0) : S100000x64.Idx → EReal) (V c (Pipeline.arrRef spec2 1) : S100000x64.Idx → EReal)
    (V c (Pipeline.arrRef spec2 2) : S64x64.Idx → EReal) (V c (Pipeline.arrRef spec2 3) : S1x64.Idx → EReal))

/-- What point t writes back is block t of that matrix. -/
theorem flushed2 (c : Dev nD) (t : Fin cfg2.N) :
    (dat2 (F := Ideal) V c).flushed 4 t = ((cfg2.win 4).blk t).view.read (Elt Ideal) (lin2 V c) := by
  have hN : t.val < 10 := by have h := t.isLt; have e : cfg2.N = 10 := N_2; omega
  obtain ⟨-, -, -, -, -, -, -, -, e0, e1⟩ := idx2 t
  show (cfg2.win 4).cut (grid2.coords t) ((dat2 V c).after 4 t) = _
  rw [after2_4]
  unfold out2_4
  rw [View.canon_unit_zero hz2]
  simp only [View.ld_unit_zero (S := S10000x64) hz2, View.ld_unit_zero (S := S64x64) hz2, View.ld_unit_zero (S := S1x64) hz2]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg2.win 4).blk t).view.emb (ix2 r f) = (ix2 ⟨10000 * t.val + r.val, hp⟩ f : S100000x64.Idx) := by
    funext a; apply Fin.ext
    match a with
    | ⟨0, _⟩ => show win2_4.index t (0 : Fin 2) * 10000 + 1 * r.val = 10000 * t.val + r.val; rw [e0]; omega
    | ⟨1, _⟩ => show win2_4.index t (1 : Fin 2) * 64 + 1 * f.val = f.val; rw [e1]; omega
  show k2_pay1 (iblk2 V c 0 t) (iblk2 V c 1 t) (iblk2 V c 2 t) (iblk2 V c 3 t) (ix2 r f)
      = lin2 V c (((cfg2.win 4).blk t).view.emb (ix2 r f))
  rw [hemb]
  refine (pay2 (iblk2 V c 0 t) (iblk2 V c 1 t) (iblk2 V c 2 t) (iblk2 V c 3 t) r f).trans ?_
  show _ = linRow _ _ _ _ ⟨10000 * t.val + r.val, hp⟩ f
  unfold linRow
  refine congrArg₂ (· + ·) (Finset.sum_congr rfl fun d _ => ?_) (iblk2_3_apply V c t f)
  rw [iblk2_0_apply V c t r d hp, iblk2_1_apply V c t r d hp, iblk2_2_apply V c t d f]

/-- An index of the array is in point t's block iff its row is one of the block's rows. -/
theorem mem_blk2 (t : Fin cfg2.N) (i : S100000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v58).slice (win2_4.rect t)).set ↔ _
  rw [View.set_slice_whole, Rect.mem_set_unit]
  exact Iff.rfl

/-- The array after the call: the whole matrix (row p is written by point p / 10000). -/
theorem final2 (c : Dev nD) : (dat2 (F := Ideal) V c).arrAt 4 cfg2.N = lin2 V c :=
  (dat2 V c).arrAt_eq_of_cover 4 (lin2 V c) (fun t _ => flushed2 V c t) fun i => by
    have hi0 : (i 0).val < 100000 := (i 0).isLt
    have hi1 : (i 1).val < 64 := (i 1).isLt
    have hN : cfg2.N = 10 := N_2
    refine ⟨⟨(i 0).val / 10000, by rw [hN]; omega⟩, flush2_4 _, ?_⟩
    obtain ⟨-, -, -, -, -, -, -, -, e0, e1⟩ := idx2 ⟨(i 0).val / 10000, by rw [hN]; omega⟩
    rw [mem_blk2]
    intro a
    match a with
    | ⟨0, _⟩ => show win2_4.index _ (0 : Fin 2) * 10000 ≤ (i 0).val ∧ (i 0).val < win2_4.index _ (0 : Fin 2) * 10000 + 10000; rw [e0]; show (i 0).val / 10000 * 10000 ≤ (i 0).val ∧ (i 0).val < (i 0).val / 10000 * 10000 + 10000; omega
    | ⟨1, _⟩ => show win2_4.index _ (1 : Fin 2) * 64 ≤ (i 1).val ∧ (i 1).val < win2_4.index _ (1 : Fin 2) * 64 + 64; rw [e1]; omega

end Cert.KernelIdeal.Hand

end
-- ==== Proof.Region3.lean ====
/-
  Device call 3 of the kernel's program: the second half of a layer, ten thousand rows at a time.

  At block t the call reads rows 10000·t … 10000·t + 9999 of the first dense map's result, the rows of column means and
  variances, gamma, beta, the second 64 × 64 weight matrix and its bias row; it normalises, takes the hyperbolic tangent,
  multiplies by the weights, adds the bias and takes the hyperbolic tangent again, and writes the same rows of the
  result. Every step acts on a row by itself, so the ten blocks written back are the ten row blocks of ONE matrix, and
  the blocks tile the rows: the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The block's arithmetic at local row r and column f: the row function of the seven loaded blocks. -/
theorem pay3 (x : Vec Ideal S10000x64 .f32) (ga mu var be : Vec Ideal S1x64 .f32) (w : Vec Ideal S64x64 .f32)
    (b : Vec Ideal S1x64 .f32) (r : Fin 10000) (f : Fin 64) :
    k3_pay1 (F := Ideal) x ga mu var be w b (ix2 r f) = bnRow x mu var ga be w b r f := by
  unfold k3_pay1 bnRow
  simp only [shapeCast_self]
  show Ideal.tanh (matmul _ none _ _ (constant (F := Ideal) S10000x64 .f32 0x00000000#32) (ix2 r f)
      + broadcastTo S10000x64 b _ (ix2 r f)) = _
  rw [InnerProducts.matmul_zero_apply dot_S10000x64_S64x64_S10000x64_1_0_0_1_n_n rfl, broadcastTo_1b_ab_apply]
  refine congrArg Ideal.tanh (congrArg₂ (· + ·) (Finset.sum_congr rfl fun d _ => ?_) rfl)
  show Ideal.tanh (broadcastTo S10000x64 ga _ (ix2 r d) * (x (ix2 r d) - broadcastTo S10000x64 mu _ (ix2 r d))
      * broadcastTo S10000x64 (rsqrt (addf var (broadcast S1x64 (Scalar.ofBits (F := Ideal) .f32 0x3727C5AC#32)))) _ (ix2 r d)
      + broadcastTo S10000x64 be _ (ix2 r d)) * w (ix2 d f) = _
  rw [broadcastTo_1b_ab_apply, broadcastTo_1b_ab_apply, broadcastTo_1b_ab_apply, broadcastTo_1b_ab_apply]
  rfl

/-- Where each window's block sits at point t: the row-blocked input and the output at block row t, every parameter
    at the origin. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Local row r of the input's block at point t is row 10000·t + r of the input. -/
theorem iblk3_0_apply (c : Dev nD) (t : Fin cfg3.N) (r : Fin 10000) (d : Fin 64) (hp : 10000 * t.val + r.val < 100000) :
    (iblk3 V c 0 t : S10000x64.Idx → EReal) (ix2 r d)
      = (V c (Pipeline.arrRef spec3 0) : S100000x64.Idx → EReal) (ix2 ⟨10000 * t.val + r.val, hp⟩ d) := by
  obtain ⟨e0, e1, -⟩ := idx3 t
  unfold iblk3
  rw [View.read_apply]
  refine congrArg (V c (Pipeline.arrRef spec3 0) : S100000x64.Idx → EReal) (funext fun a => Fin.ext ?_)
  match a with
  | ⟨0, _⟩ => show win3_0.index t (0 : Fin 2) * 10000 + 1 * r.val = 10000 * t.val + r.val; rw [e0]; omega
  | ⟨1, _⟩ => show win3_0.index t (1 : Fin 2) * 64 + 1 * d.val = d.val; rw [e1]; omega

/-- Window 1's one block is its [1, 64] row. -/
theorem iblk3_1_apply (c : Dev nD) (t : Fin cfg3.N) (f : Fin 64) :
    (iblk3 V c 1 t : S1x64.Idx → EReal) (ix2 (0 : Fin 1) f)
      = (V c (Pipeline.arrRef spec3 1) : S1x64.Idx → EReal) (ix2 (0 : Fin 1) f) := by
  have e := idx3 t
  unfold iblk3
  rw [View.read_apply]
  refine congrArg (V c (Pipeline.arrRef spec3 1) : S1x64.Idx → EReal) (funext fun a => Fin.ext ?_)
  match a with
  | ⟨0, _⟩ => show win3_1.index t (0 : Fin 2) * 1 + 1 * 0 = 0; rw [e.2.2.1]
  | ⟨1, _⟩ => show win3_1.index t (1 : Fin 2) * 64 + 1 * f.val = f.val; rw [e.2.2.2.1]; omega

/-- Window 2's one block is its [1, 64] row. -/
theorem iblk3_2_apply (c : Dev nD) (t : Fin cfg3.N) (f : Fin 64) :
    (iblk3 V c 2 t : S1x64.Idx → EReal) (ix2 (0 : Fin 1) f)
      = (V c (Pipeline.arrRef spec3 2) : S1x64.Idx → EReal) (ix2 (0 : Fin 1) f) := by
  have e := idx3 t
  unfold iblk3
  rw [View.read_apply]
  refine congrArg (V c (Pipeline.arrRef spec3 2) : S1x64.Idx → EReal) (funext fun a => Fin.ext ?_)
  match a with
  | ⟨0, _⟩ => show win3_2.index t (0 : Fin 2) * 1 + 1 * 0 = 0; rw [e.2.2.2.2.1]
  | ⟨1, _⟩ => show win3_2.index t (1 : Fin 2) * 64 + 1 * f.val = f.val; rw [e.2.2.2.2.2.1]; omega

/-- Window 3's one block is its [1, 64] row. -/
theorem iblk3_3_apply (c : Dev nD) (t : Fin cfg3.N) (f : Fin 64) :
    (iblk3 V c 3 t : S1x64.Idx → EReal) (ix2 (0 : Fin 1) f)
      = (V c (Pipeline.arrRef spec3 3) : S1x64.Idx → EReal) (ix2 (0 : Fin 1) f) := by
  have e := idx3 t
  unfold iblk3
  rw [View.read_apply]
  refine congrArg (V c (Pipeline.arrRef spec3 3) : S1x64.Idx → EReal) (funext fun a => Fin.ext ?_)
  match a with
  | ⟨0, _⟩ => show win3_3.index t (0 : Fin 2) * 1 + 1 * 0 = 0; rw [e.2.2.2.2.2.2.1]
  | ⟨1, _⟩ => show win3_3.index t (1 : Fin 2) * 64 + 1 * f.val = f.val; rw [e.2.2.2.2.2.2.2.1]; omega

/-- Window 4's one block is its [1, 64] row. -/
theorem iblk3_4_apply (c : Dev nD) (t : Fin cfg3.N) (f : Fin 64) :
    (iblk3 V c 4 t : S1x64.Idx → EReal) (ix2 (0 : Fin 1) f)
      = (V c (Pipeline.arrRef spec3 4) : S1x64.Idx → EReal) (ix2 (0 : Fin 1) f) := by
  have e := idx3 t
  unfold iblk3
  rw [View.read_apply]
  refine congrArg (V c (Pipeline.arrRef spec3 4) : S1x64.Idx → EReal) (funext fun a => Fin.ext ?_)
  match a with
  | ⟨0, _⟩ => show win3_4.index t (0 : Fin 2) * 1 + 1 * 0 = 0; rw [e.2.2.2.2.2.2.2.2.1]
  | ⟨1, _⟩ => show win3_4.index t (1 : Fin 2) * 64 + 1 * f.val = f.val; rw [e.2.2.2.2.2.2.2.2.2.1]; omega

/-- Window 6's one block is its [1, 64] row. -/
theorem iblk3_6_apply (c : Dev nD) (t : Fin cfg3.N) (f : Fin 64) :
    (iblk3 V c 6 t : S1x64.Idx → EReal) (ix2 (0 : Fin 1) f)
      = (V c (Pipeline.arrRef spec3 6) : S1x64.Idx → EReal) (ix2 (0 : Fin 1) f) := by
  have e := idx3 t
  unfold iblk3
  rw [View.read_apply]
  refine congrArg (V c (Pipeline.arrRef spec3 6) : S1x64.Idx → EReal) (funext fun a => Fin.ext ?_)
  match a with
  | ⟨0, _⟩ => show win3_6.index t (0 : Fin 2) * 1 + 1 * 0 = 0; rw [e.2.2.2.2.2.2.2.2.2.2.2.2.1]
  | ⟨1, _⟩ => show win3_6.index t (1 : Fin 2) * 64 + 1 * f.val = f.val; rw [e.2.2.2.2.2.2.2.2.2.2.2.2.2.1]; omega

/-- The weight matrix's one block is the matrix. -/
theorem iblk3_5_apply (c : Dev nD) (t : Fin cfg3.N) (d f : Fin 64) :
    (iblk3 V c 5 t : S64x64.Idx → EReal) (ix2 d f)
      = (V c (Pipeline.arrRef spec3 5) : S64x64.Idx → EReal) (ix2 d f) := by
  have e := idx3 t
  unfold iblk3
  rw [View.read_apply]
  refine congrArg (V c (Pipeline.arrRef spec3 5) : S64x64.Idx → EReal) (funext fun a => Fin.ext ?_)
  match a with
  | ⟨0, _⟩ => show win3_5.index t (0 : Fin 2) * 64 + 1 * d.val = d.val; rw [e.2.2.2.2.2.2.2.2.2.2.1]; omega
  | ⟨1, _⟩ => show win3_5.index t (1 : Fin 2) * 64 + 1 * f.val = f.val; rw [e.2.2.2.2.2.2.2.2.2.2.2.1]; omega

/-- The matrix the call computes, as one function of the seven arrays it reads. -/
abbrev bn3 (c : Dev nD) : S100000x64.Idx → EReal :=
  onIdx (bnRow (V c (Pipeline.arrRef spec3 0) : S100000x64.Idx → EReal) (V c (Pipeline.arrRef spec3 1) : S1x64.Idx → EReal)
    (V c (Pipeline.arrRef spec3 2) : S1x64.Idx → EReal) (V c (Pipeline.arrRef spec3 3) : S1x64.Idx → EReal)
    (V c (Pipeline.arrRef spec3 4) : S1x64.Idx → EReal) (V c (Pipeline.arrRef spec3 5) : S64x64.Idx → EReal)
    (V c (Pipeline.arrRef spec3 6) : S1x64.Idx → EReal))

set_option maxHeartbeats 1600000 in
/-- What point t writes back is block t of that matrix. -/
theorem flushed3 (c : Dev nD) (t : Fin cfg3.N) :
    (dat3 (F := Ideal) V c).flushed 7 t = ((cfg3.win 7).blk t).view.read (Elt Ideal) (bn3 V c) := by
  have hN : t.val < 10 := by have h := t.isLt; have e : cfg3.N = 10 := N_3; omega
  have e := idx3 t
  show (cfg3.win 7).cut (grid3.coords t) ((dat3 V c).after 7 t) = _
  rw [after3_7]
  unfold out3_7
  rw [View.canon_unit_zero hz3]
  simp only [View.ld_unit_zero (S := S10000x64) hz3, View.ld_unit_zero (S := S64x64) hz3, View.ld_unit_zero (S := S1x64) hz3]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg3.win 7).blk t).view.emb (ix2 r f) = (ix2 ⟨10000 * t.val + r.val, hp⟩ f : S100000x64.Idx) := by
    funext a; apply Fin.ext
    match a with
    | ⟨0, _⟩ => show win3_7.index t (0 : Fin 2) * 10000 + 1 * r.val = 10000 * t.val + r.val; rw [e.2.2.2.2.2.2.2.2.2.2.2.2.2.2.1]; omega
    | ⟨1, _⟩ => show win3_7.index t (1 : Fin 2) * 64 + 1 * f.val = f.val; rw [e.2.2.2.2.2.2.2.2.2.2.2.2.2.2.2]; omega
  show k3_pay1 (iblk3 V c 0 t) (iblk3 V c 3 t) (iblk3 V c 1 t) (iblk3 V c 2 t) (iblk3 V c 4 t) (iblk3 V c 5 t) (iblk3 V c 6 t) (ix2 r f)
      = bn3 V c (((cfg3.win 7).blk t).view.emb (ix2 r f))
  rw [hemb]
  refine (pay3 (iblk3 V c 0 t) (iblk3 V c 3 t) (iblk3 V c 1 t) (iblk3 V c 2 t) (iblk3 V c 4 t) (iblk3 V c 5 t) (iblk3 V c 6 t) r f).trans ?_
  show _ = bnRow _ _ _ _ _ _ _ ⟨10000 * t.val + r.val, hp⟩ f
  unfold bnRow
  refine congrArg Ideal.tanh (congrArg₂ (· + ·) (Finset.sum_congr rfl fun d _ => ?_) (iblk3_6_apply V c t f))
  rw [iblk3_0_apply V c t r d hp, iblk3_1_apply V c t d, iblk3_2_apply V c t d, iblk3_3_apply V c t d,
    iblk3_4_apply V c t d, iblk3_5_apply V c t d f]

/-- An index of the array is in point t's block iff its row is one of the block's rows. -/
theorem mem_blk3 (t : Fin cfg3.N) (i : S100000x64.Idx) :
    i ∈ ((cfg3.win 7).blk t).view.set ↔ ∀ a : Fin 2, win3_7.index t a * S10000x64.size a ≤ (i a).val
      ∧ (i a).val < win3_7.index t a * S10000x64.size a + S10000x64.size a := by
  show i ∈ ((View.whole main_v81).slice (win3_7.rect t)).set ↔ _
  rw [View.set_slice_whole, Rect.mem_set_unit]
  exact Iff.rfl

/-- The array after the call: the whole matrix (row p is written by point p / 10000). -/
theorem final3 (c : Dev nD) : (dat3 (F := Ideal) V c).arrAt 7 cfg3.N = bn3 V c :=
  (dat3 V c).arrAt_eq_of_cover 7 (bn3 V c) (fun t _ => flushed3 V c t) fun i => by
    have hi0 : (i 0).val < 100000 := (i 0).isLt
    have hi1 : (i 1).val < 64 := (i 1).isLt
    have hN : cfg3.N = 10 := N_3
    refine ⟨⟨(i 0).val / 10000, by rw [hN]; omega⟩, flush3_7 _, ?_⟩
    have e := idx3 ⟨(i 0).val / 10000, by rw [hN]; omega⟩
    rw [mem_blk3]
    intro a
    match a with
    | ⟨0, _⟩ => show win3_7.index _ (0 : Fin 2) * 10000 ≤ (i 0).val ∧ (i 0).val < win3_7.index _ (0 : Fin 2) * 10000 + 10000; rw [e.2.2.2.2.2.2.2.2.2.2.2.2.2.2.1]; show (i 0).val / 10000 * 10000 ≤ (i 0).val ∧ (i 0).val < (i 0).val / 10000 * 10000 + 10000; omega
    | ⟨1, _⟩ => show win3_7.index _ (1 : Fin 2) * 64 ≤ (i 1).val ∧ (i 1).val < win3_7.index _ (1 : Fin 2) * 64 + 64; rw [e.2.2.2.2.2.2.2.2.2.2.2.2.2.2.2]; omega

end Cert.KernelIdeal.Hand

end
-- ==== Proof.Region0.lean ====
/-
  Device call 0 of the kernel's program: one dense map of a layer, (1.3 · x + a) · w + b, computed ten thousand rows at
  a time.

  The call walks the 100000 rows in ten blocks of 10000; at block t it reads rows 10000·t … 10000·t + 9999 of x and of
  the aggregate a, the whole 64 × 64 weight matrix and the bias row, and writes the same rows of the result. A row of
  a product of matrices depends on that row of the left factor only, so the ten blocks written back are the ten row
  blocks of ONE matrix: entry (p, f) of the result is the sum over d of (1.3 · x(p, d) + a(p, d)) · w(d, f), plus b(f),
  whatever block p lies in. The blocks tile the rows, so the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-- The block's arithmetic at local row r and column f: the row function of the four loaded blocks. -/
theorem pay0 (x0 x1 : Vec Ideal S10000x64 .f32) (x2 : Vec Ideal S64x64 .f32) (x3 : Vec Ideal S1x64 .f32)
    (r : Fin 10000) (f : Fin 64) :
    k0_pay1 (F := Ideal) x0 x1 x2 x3 (ix2 r f) = linRow x0 x1 x2 x3 r f := by
  unfold k0_pay1 linRow
  simp only [shapeCast_self]
  show matmul _ none _ _ (constant (F := Ideal) S10000x64 .f32 0x00000000#32) (ix2 r f)
      + broadcastTo S10000x64 x3 _ (ix2 r f) = _
  rw [InnerProducts.matmul_zero_apply dot_S10000x64_S64x64_S10000x64_1_0_0_1_n_n rfl, broadcastTo_1b_ab_apply]
  rfl

/-- Where each window's block sits at point t: the two row-blocked inputs and the output at block row t, the weight
    matrix and the bias row at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Local row r of x's block at point t is row 10000·t + r of x. -/
theorem iblk0_0_apply (c : Dev nD) (t : Fin cfg0.N) (r : Fin 10000) (d : Fin 64) (hp : 10000 * t.val + r.val < 100000) :
    (iblk0 V c 0 t : S10000x64.Idx → EReal) (ix2 r d)
      = (V c (Pipeline.arrRef spec0 0) : S100000x64.Idx → EReal) (ix2 ⟨10000 * t.val + r.val, hp⟩ d) := by
  obtain ⟨e0, e1, -⟩ := idx0 t
  unfold iblk0
  rw [View.read_apply]
  refine congrArg (V c (Pipeline.arrRef spec0 0) : S100000x64.Idx → EReal) (funext fun a => Fin.ext ?_)
  match a with
  | ⟨0, _⟩ => show win0_0.index t (0 : Fin 2) * 10000 + 1 * r.val = 10000 * t.val + r.val; rw [e0]; omega
  | ⟨1, _⟩ => show win0_0.index t (1 : Fin 2) * 64 + 1 * d.val = d.val; rw [e1]; omega

/-- Local row r of the aggregate's block at point t is row 10000·t + r of the aggregate. -/
theorem iblk0_1_apply (c : Dev nD) (t : Fin cfg0.N) (r : Fin 10000) (d : Fin 64) (hp : 10000 * t.val + r.val < 100000) :
    (iblk0 V c 1 t : S10000x64.Idx → EReal) (ix2 r d)
      = (V c (Pipeline.arrRef spec0 1) : S100000x64.Idx → EReal) (ix2 ⟨10000 * t.val + r.val, hp⟩ d) := by
  obtain ⟨-, -, e0, e1, -⟩ := idx0 t
  unfold iblk0
  rw [View.read_apply]
  refine congrArg (V c (Pipeline.arrRef spec0 1) : S100000x64.Idx → EReal) (funext fun a => Fin.ext ?_)
  match a with
  | ⟨0, _⟩ => show win0_1.index t (0 : Fin 2) * 10000 + 1 * r.val = 10000 * t.val + r.val; rw [e0]; omega
  | ⟨1, _⟩ => show win0_1.index t (1 : Fin 2) * 64 + 1 * d.val = d.val; rw [e1]; omega

/-- The weight matrix's one block is the matrix. -/
theorem iblk0_2_apply (c : Dev nD) (t : Fin cfg0.N) (d f : Fin 64) :
    (iblk0 V c 2 t : S64x64.Idx → EReal) (ix2 d f)
      = (V c (Pipeline.arrRef spec0 2) : S64x64.Idx → EReal) (ix2 d f) := by
  obtain ⟨-, -, -, -, e0, e1, -⟩ := idx0 t
  unfold iblk0
  rw [View.read_apply]
  refine congrArg (V c (Pipeline.arrRef spec0 2) : S64x64.Idx → EReal) (funext fun a => Fin.ext ?_)
  match a with
  | ⟨0, _⟩ => show win0_2.index t (0 : Fin 2) * 64 + 1 * d.val = d.val; rw [e0]; omega
  | ⟨1, _⟩ => show win0_2.index t (1 : Fin 2) * 64 + 1 * f.val = f.val; rw [e1]; omega

/-- The bias row's one block is the row. -/
theorem iblk0_3_apply (c : Dev nD) (t : Fin cfg0.N) (f : Fin 64) :
    (iblk0 V c 3 t : S1x64.Idx → EReal) (ix2 (0 : Fin 1) f)
      = (V c (Pipeline.arrRef spec0 3) : S1x64.Idx → EReal) (ix2 (0 : Fin 1) f) := by
  obtain ⟨-, -, -, -, -, -, e0, e1, -⟩ := idx0 t
  unfold iblk0
  rw [View.read_apply]
  refine congrArg (V c (Pipeline.arrRef spec0 3) : S1x64.Idx → EReal) (funext fun a => Fin.ext ?_)
  match a with
  | ⟨0, _⟩ => show win0_3.index t (0 : Fin 2) * 1 + 1 * 0 = 0; rw [e0]
  | ⟨1, _⟩ => show win0_3.index t (1 : Fin 2) * 64 + 1 * f.val = f.val; rw [e1]; omega

/-- The matrix the call computes, as one function of the four arrays it reads. -/
abbrev lin0 (c : Dev nD) : S100000x64.Idx → EReal :=
  onIdx (linRow (V c (Pipeline.arrRef spec0 0) : S100000x64.Idx → EReal) (V c (Pipeline.arrRef spec0 1) : S100000x64.Idx → EReal)
    (V c (Pipeline.arrRef spec0 2) : S64x64.Idx → EReal) (V c (Pipeline.arrRef spec0 3) : S1x64.Idx → EReal))

/-- What point t writes back is block t of that matrix. -/
theorem flushed0 (c : Dev nD) (t : Fin cfg0.N) :
    (dat0 (F := Ideal) V c).flushed 4 t = ((cfg0.win 4).blk t).view.read (Elt Ideal) (lin0 V c) := by
  have hN : t.val < 10 := by have h := t.isLt; have e : cfg0.N = 10 := N_0; omega
  obtain ⟨-, -, -, -, -, -, -, -, e0, e1⟩ := idx0 t
  show (cfg0.win 4).cut (grid0.coords t) ((dat0 V c).after 4 t) = _
  rw [after0_4]
  unfold out0_4
  rw [View.canon_unit_zero hz0]
  simp only [View.ld_unit_zero (S := S10000x64) hz0, View.ld_unit_zero (S := S64x64) hz0, View.ld_unit_zero (S := S1x64) hz0]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg0.win 4).blk t).view.emb (ix2 r f) = (ix2 ⟨10000 * t.val + r.val, hp⟩ f : S100000x64.Idx) := by
    funext a; apply Fin.ext
    match a with
    | ⟨0, _⟩ => show win0_4.index t (0 : Fin 2) * 10000 + 1 * r.val = 10000 * t.val + r.val; rw [e0]; omega
    | ⟨1, _⟩ => show win0_4.index t (1 : Fin 2) * 64 + 1 * f.val = f.val; rw [e1]; omega
  show k0_pay1 (iblk0 V c 0 t) (iblk0 V c 1 t) (iblk0 V c 2 t) (iblk0 V c 3 t) (ix2 r f)
      = lin0 V c (((cfg0.win 4).blk t).view.emb (ix2 r f))
  rw [hemb]
  refine (pay0 (iblk0 V c 0 t) (iblk0 V c 1 t) (iblk0 V c 2 t) (iblk0 V c 3 t) r f).trans ?_
  show _ = linRow _ _ _ _ ⟨10000 * t.val + r.val, hp⟩ f
  unfold linRow
  refine congrArg₂ (· + ·) (Finset.sum_congr rfl fun d _ => ?_) (iblk0_3_apply V c t f)
  rw [iblk0_0_apply V c t r d hp, iblk0_1_apply V c t r d hp, iblk0_2_apply V c t d f]

/-- An index of the array is in point t's block iff its row is one of the block's rows. -/
theorem mem_blk0 (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v19).slice (win0_4.rect t)).set ↔ _
  rw [View.set_slice_whole, Rect.mem_set_unit]
  exact Iff.rfl

/-- The array after the call: the whole matrix (row p is written by point p / 10000). -/
theorem final0 (c : Dev nD) : (dat0 (F := Ideal) V c).arrAt 4 cfg0.N = lin0 V c :=
  (dat0 V c).arrAt_eq_of_cover 4 (lin0 V c) (fun t _ => flushed0 V c t) fun i => by
    have hi0 : (i 0).val < 100000 := (i 0).isLt
    have hi1 : (i 1).val < 64 := (i 1).isLt
    have hN : cfg0.N = 10 := N_0
    refine ⟨⟨(i 0).val / 10000, by rw [hN]; omega⟩, flush0_4 _, ?_⟩
    obtain ⟨-, -, -, -, -, -, -, -, e0, e1⟩ := idx0 ⟨(i 0).val / 10000, by rw [hN]; omega⟩
    rw [mem_blk0]
    intro a
    match a with
    | ⟨0, _⟩ => show win0_4.index _ (0 : Fin 2) * 10000 ≤ (i 0).val ∧ (i 0).val < win0_4.index _ (0 : Fin 2) * 10000 + 10000; rw [e0]; show (i 0).val / 10000 * 10000 ≤ (i 0).val ∧ (i 0).val < (i 0).val / 10000 * 10000 + 10000; omega
    | ⟨1, _⟩ => show win0_4.index _ (1 : Fin 2) * 64 ≤ (i 1).val ∧ (i 1).val < win0_4.index _ (1 : Fin 2) * 64 + 64; rw [e1]; omega

end Cert.KernelIdeal.Hand

end
-- ==== Proof.Region1.lean ====
/-
  Device call 1 of the kernel's program: the second half of a layer, ten thousand rows at a time.

  At block t the call reads rows 10000·t … 10000·t + 9999 of the first dense map's result, the rows of column means and
  variances, gamma, beta, the second 64 × 64 weight matrix and its bias row; it normalises, takes the hyperbolic tangent,
  multiplies by the weights, adds the bias and takes the hyperbolic tangent again, and writes the same rows of the
  result. Every step acts on a row by itself, so the ten blocks written back are the ten row blocks of ONE matrix, and
  the blocks tile the rows: the array ends holding that matrix.
-/
import proofs.«111606_j9388798509633_1_alg».proof.Proof.Gen.KernelIdeal.Frame
import proofs.«111606_j9388798509633_1_alg».proof.Proof.Spec
import proofs.«111606_j9388798509633_1_alg».proof.Proof.LibInnerProducts
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-- The block's arithmetic at local row r and column f: the row function of the seven loaded blocks. -/
theorem pay1 (x : Vec Ideal S10000x64 .f32) (ga mu var be : Vec Ideal S1x64 .f32) (w : Vec Ideal S64x64 .f32)
    (b : Vec Ideal S1x64 .f32) (r : Fin 10000) (f : Fin 64) :
    k1_pay1 (F := Ideal) x ga mu var be w b (ix2 r f) = bnRow x mu var ga be w b r f := by
  unfold k1_pay1 bnRow
  simp only [shapeCast_self]
  show Ideal.tanh (matmul _ none _ _ (constant (F := Ideal) S10000x64 .f32 0x00000000#32) (ix2 r f)
      + broadcastTo S10000x64 b _ (ix2 r f)) = _
  rw [InnerProducts.matmul_zero_apply dot_S10000x64_S64x64_S10000x64_1_0_0_1_n_n rfl, broadcastTo_1b_ab_apply]
  refine congrArg Ideal.tanh (congrArg₂ (· + ·) (Finset.sum_congr rfl fun d _ => ?_) rfl)
  show Ideal.tanh (broadcastTo S10000x64 ga _ (ix2 r d) * (x (ix2 r d) - broadcastTo S10000x64 mu _ (ix2 r d))
      * broadcastTo S10000x64 (rsqrt (addf var (broadcast S1x64 (Scalar.ofBits (F := Ideal) .f32 0x3727C5AC#32)))) _ (ix2 r d)
      + broadcastTo S10000x64 be _ (ix2 r d)) * w (ix2 d f) = _
  rw [broadcastTo_1b_ab_apply, broadcastTo_1b_ab_apply, broadcastTo_1b_ab_apply, broadcastTo_1b_ab_apply]
  rfl

/-- Where each window's block sits at point t: the row-blocked input and the output at block row t, every parameter
    at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Local row r of the input's block at point t is row 10000·t + r of the input. -/
theorem iblk1_0_apply (c : Dev nD) (t : Fin cfg1.N) (r : Fin 10000) (d : Fin 64) (hp : 10000 * t.val + r.val < 100000) :
    (iblk1 V c 0 t : S10000x64.Idx → EReal) (ix2 r d)
      = (V c (Pipeline.arrRef spec1 0) : S100000x64.Idx → EReal) (ix2 ⟨10000 * t.val + r.val, hp⟩ d) := by
  obtain ⟨e0, e1, -⟩ := idx1 t
  unfold iblk1
  rw [View.read_apply]
  refine congrArg (V c (Pipeline.arrRef spec1 0) : S100000x64.Idx → EReal) (funext fun a => Fin.ext ?_)
  match a with
  | ⟨0, _⟩ => show win1_0.index t (0 : Fin 2) * 10000 + 1 * r.val = 10000 * t.val + r.val; rw [e0]; omega
  | ⟨1, _⟩ => show win1_0.index t (1 : Fin 2) * 64 + 1 * d.val = d.val; rw [e1]; omega

/-- Window 1's one block is its [1, 64] row. -/
theorem iblk1_1_apply (c : Dev nD) (t : Fin cfg1.N) (f : Fin 64) :
    (iblk1 V c 1 t : S1x64.Idx → EReal) (ix2 (0 : Fin 1) f)
      = (V c (Pipeline.arrRef spec1 1) : S1x64.Idx → EReal) (ix2 (0 : Fin 1) f) := by
  have e := idx1 t
  unfold iblk1
  rw [View.read_apply]
  refine congrArg (V c (Pipeline.arrRef spec1 1) : S1x64.Idx → EReal) (funext fun a => Fin.ext ?_)
  match a with
  | ⟨0, _⟩ => show win1_1.index t (0 : Fin 2) * 1 + 1 * 0 = 0; rw [e.2.2.1]
  | ⟨1, _⟩ => show win1_1.index t (1 : Fin 2) * 64 + 1 * f.val = f.val; rw [e.2.2.2.1]; omega

/-- Window 2's one block is its [1, 64] row. -/
theorem iblk1_2_apply (c : Dev nD) (t : Fin cfg1.N) (f : Fin 64) :
    (iblk1 V c 2 t : S1x64.Idx → EReal) (ix2 (0 : Fin 1) f)
      = (V c (Pipeline.arrRef spec1 2) : S1x64.Idx → EReal) (ix2 (0 : Fin 1) f) := by
  have e := idx1 t
  unfold iblk1
  rw [View.read_apply]
  refine congrArg (V c (Pipeline.arrRef spec1 2) : S1x64.Idx → EReal) (funext fun a => Fin.ext ?_)
  match a with
  | ⟨0, _⟩ => show win1_2.index t (0 : Fin 2) * 1 + 1 * 0 = 0; rw [e.2.2.2.2.1]
  | ⟨1, _⟩ => show win1_2.index t (1 : Fin 2) * 64 + 1 * f.val = f.val; rw [e.2.2.2.2.2.1]; omega

/-- Window 3's one block is its [1, 64] row. -/
theorem iblk1_3_apply (c : Dev nD) (t : Fin cfg1.N) (f : Fin 64) :
    (iblk1 V c 3 t : S1x64.Idx → EReal) (ix2 (0 : Fin 1) f)
      = (V c (Pipeline.arrRef spec1 3) : S1x64.Idx → EReal) (ix2 (0 : Fin 1) f) := by
  have e := idx1 t
  unfold iblk1
  rw [View.read_apply]
  refine congrArg (V c (Pipeline.arrRef spec1 3) : S1x64.Idx → EReal) (funext fun a => Fin.ext ?_)
  match a with
  | ⟨0, _⟩ => show win1_3.index t (0 : Fin 2) * 1 + 1 * 0 = 0; rw [e.2.2.2.2.2.2.1]
  | ⟨1, _⟩ => show win1_3.index t (1 : Fin 2) * 64 + 1 * f.val = f.val; rw [e.2.2.2.2.2.2.2.1]; omega

/-- Window 4's one block is its [1, 64] row. -/
theorem iblk1_4_apply (c : Dev nD) (t : Fin cfg1.N) (f : Fin 64) :
    (iblk1 V c 4 t : S1x64.Idx → EReal) (ix2 (0 : Fin 1) f)
      = (V c (Pipeline.arrRef spec1 4) : S1x64.Idx → EReal) (ix2 (0 : Fin 1) f) := by
  have e := idx1 t
  unfold iblk1
  rw [View.read_apply]
  refine congrArg (V c (Pipeline.arrRef spec1 4) : S1x64.Idx → EReal) (funext fun a => Fin.ext ?_)
  match a with
  | ⟨0, _⟩ => show win1_4.index t (0 : Fin 2) * 1 + 1 * 0 = 0; rw [e.2.2.2.2.2.2.2.2.1]
  | ⟨1, _⟩ => show win1_4.index t (1 : Fin 2) * 64 + 1 * f.val = f.val; rw [e.2.2.2.2.2.2.2.2.2.1]; omega

/-- Window 6's one block is its [1, 64] row. -/
theorem iblk1_6_apply (c : Dev nD) (t : Fin cfg1.N) (f : Fin 64) :
    (iblk1 V c 6 t : S1x64.Idx → EReal) (ix2 (0 : Fin 1) f)
      = (V c (Pipeline.arrRef spec1 6) : S1x64.Idx → EReal) (ix2 (0 : Fin 1) f) := by
  have e := idx1 t
  unfold iblk1
  rw [View.read_apply]
  refine congrArg (V c (Pipeline.arrRef spec1 6) : S1x64.Idx → EReal) (funext fun a => Fin.ext ?_)
  match a with
  | ⟨0, _⟩ => show win1_6.index t (0 : Fin 2) * 1 + 1 * 0 = 0; rw [e.2.2.2.2.2.2.2.2.2.2.2.2.1]
  | ⟨1, _⟩ => show win1_6.index t (1 : Fin 2) * 64 + 1 * f.val = f.val; rw [e.2.2.2.2.2.2.2.2.2.2.2.2.2.1]; omega

/-- The weight matrix's one block is the matrix. -/
theorem iblk1_5_apply (c : Dev nD) (t : Fin cfg1.N) (d f : Fin 64) :
    (iblk1 V c 5 t : S64x64.Idx → EReal) (ix2 d f)
      = (V c (Pipeline.arrRef spec1 5) : S64x64.Idx → EReal) (ix2 d f) := by
  have e := idx1 t
  unfold iblk1
  rw [View.read_apply]
  refine congrArg (V c (Pipeline.arrRef spec1 5) : S64x64.Idx → EReal) (funext fun a => Fin.ext ?_)
  match a with
  | ⟨0, _⟩ => show win1_5.index t (0 : Fin 2) * 64 + 1 * d.val = d.val; rw [e.2.2.2.2.2.2.2.2.2.2.1]; omega
  | ⟨1, _⟩ => show win1_5.index t (1 : Fin 2) * 64 + 1 * f.val = f.val; rw [e.2.2.2.2.2.2.2.2.2.2.2.1]; omega

/-- The matrix the call computes, as one function of the seven arrays it reads. -/
abbrev bn1 (c : Dev nD) : S100000x64.Idx → EReal :=
  onIdx (bnRow (V c (Pipeline.arrRef spec1 0) : S100000x64.Idx → EReal) (V c (Pipeline.arrRef spec1 1) : S1x64.Idx → EReal)
    (V c (Pipeline.arrRef spec1 2) : S1x64.Idx → EReal) (V c (Pipeline.arrRef spec1 3) : S1x64.Idx → EReal)
    (V c (Pipeline.arrRef spec1 4) : S1x64.Idx → EReal) (V c (Pipeline.arrRef spec1 5) : S64x64.Idx → EReal)
    (V c (Pipeline.arrRef spec1 6) : S1x64.Idx → EReal))

set_option maxHeartbeats 1600000 in
/-- What point t writes back is block t of that matrix. -/
theorem flushed1 (c : Dev nD) (t : Fin cfg1.N) :
    (dat1 (F := Ideal) V c).flushed 7 t = ((cfg1.win 7).blk t).view.read (Elt Ideal) (bn1 V c) := by
  have hN : t.val < 10 := by have h := t.isLt; have e : cfg1.N = 10 := N_1; omega
  have e := idx1 t
  show (cfg1.win 7).cut (grid1.coords t) ((dat1 V c).after 7 t) = _
  rw [after1_7]
  unfold out1_7
  rw [View.canon_unit_zero hz1]
  simp only [View.ld_unit_zero (S := S10000x64) hz1, View.ld_unit_zero (S := S64x64) hz1, View.ld_unit_zero (S := S1x64) hz1]
  funext j
  obtain ⟨r, f, rfl⟩ : ∃ (r : Fin 10000) (f : Fin 64), j = ix2 r f := ⟨j 0, j 1, eq_ix2 j⟩
  have hp : 10000 * t.val + r.val < 100000 := by have := r.isLt; omega
  have hemb : ((cfg1.win 7).blk t).view.emb (ix2 r f) = (ix2 ⟨10000 * t.val + r.val, hp⟩ f : S100000x64.Idx) := by
    funext a; apply Fin.ext
    match a with
    | ⟨0, _⟩ => show win1_7.index t (0 : Fin 2) * 10000 + 1 * r.val = 10000 * t.val + r.val; rw [e.2.2.2.2.2.2.2.2.2.2.2.2.2.2.1]; omega
    | ⟨1, _⟩ => show win1_7.index t (1 : Fin 2) * 64 + 1 * f.val = f.val; rw [e.2.2.2.2.2.2.2.2.2.2.2.2.2.2.2]; omega
  show k1_pay1 (iblk1 V c 0 t) (iblk1 V c 3 t) (iblk1 V c 1 t) (iblk1 V c 2 t) (iblk1 V c 4 t) (iblk1 V c 5 t) (iblk1 V c 6 t) (ix2 r f)
      = bn1 V c (((cfg1.win 7).blk t).view.emb (ix2 r f))
  rw [hemb]
  refine (pay1 (iblk1 V c 0 t) (iblk1 V c 3 t) (iblk1 V c 1 t) (iblk1 V c 2 t) (iblk1 V c 4 t) (iblk1 V c 5 t) (iblk1 V c 6 t) r f).trans ?_
  show _ = bnRow _ _ _ _ _ _ _ ⟨10000 * t.val + r.val, hp⟩ f
  unfold bnRow
  refine congrArg Ideal.tanh (congrArg₂ (· + ·) (Finset.sum_congr rfl fun d _ => ?_) (iblk1_6_apply V c t f))
  rw [iblk1_0_apply V c t r d hp, iblk1_1_apply V c t d, iblk1_2_apply V c t d, iblk1_3_apply V c t d,
    iblk1_4_apply V c t d, iblk1_5_apply V c t d f]

/-- An index of the array is in point t's block iff its row is one of the block's rows. -/
theorem mem_blk1 (t : Fin cfg1.N) (i : S100000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v42).slice (win1_7.rect t)).set ↔ _
  rw [View.set_slice_whole, Rect.mem_set_unit]
  exact Iff.rfl

/-- The array after the call: the whole matrix (row p is written by point p / 10000). -/
theorem final1 (c : Dev nD) : (dat1 (F := Ideal) V c).arrAt 7 cfg1.N = bn1 V c :=
  (dat1 V c).arrAt_eq_of_cover 7 (bn1 V c) (fun t _ => flushed1 V c t) fun i => by
    have hi0 : (i 0).val < 100000 := (i 0).isLt
    have hi1 : (i 1).val < 64 := (i 1).isLt
    have hN : cfg1.N = 10 := N_1
    refine ⟨⟨(i 0).val / 10000, by rw [hN]; omega⟩, flush1_7 _, ?_⟩
    have e := idx1 ⟨(i 0).val / 10000, by rw [hN]; omega⟩
    rw [mem_blk1]
    intro a
    match a with
    | ⟨0, _⟩ => show win1_7.index _ (0 : Fin 2) * 10000 ≤ (i 0).val ∧ (i 0).val < win1_7.index _ (0 : Fin 2) * 10000 + 10000; rw [e.2.2.2.2.2.2.2.2.2.2.2.2.2.2.1]; show (i 0).val / 10000 * 10000 ≤ (i 0).val ∧ (i 0).val < (i 0).val / 10000 * 10000 + 10000; omega
    | ⟨1, _⟩ => show win1_7.index _ (1 : Fin 2) * 64 ≤ (i 1).val ∧ (i 1).val < win1_7.index _ (1 : Fin 2) * 64 + 64; rw [e.2.2.2.2.2.2.2.2.2.2.2.2.2.2.2]; omega

end Cert.KernelIdeal.Hand

end
-- ==== Proof.KLayer0.lean ====
/-
  Layer 0 of the kernel's program, read from its run.

  Host stretch 0 prepares the layer's aggregate, weight matrix and bias row; device call 0 writes the first dense
  map lin_0; host stretch 1 forms its column means and variances and cuts gamma, beta, the second weights and bias
  out of the parameters; device call 1 writes the node features h_1.
-/
import proofs.«111606_j9388798509633_1_alg».proof.Proof.KKeep
import proofs.«111606_j9388798509633_1_alg».proof.Proof.KVals
import proofs.«111606_j9388798509633_1_alg».proof.Proof.Region0
import proofs.«111606_j9388798509633_1_alg».proof.Proof.Region1
import Idealize.ShloMosaic.Lib.StableHlo.Run

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

open Idealize.ShloMosaic.StableHlo

variable (m : (ℓ : Loc nD τ sig) → Buf (Elt Ideal) ℓ) (ρ : Dev nD → PrngReg)

/-- The layer's input features when host stretch 0 starts. -/
theorem L0_h_in (c : Dev nD) : W0 m ρ c (Proc.devRef .tc main_arg0) = h_0 m c := rfl

/-- The first stretch cuts the edges' sources out of the edge list. -/
theorem L0_src (c : Dev nD) : W1 m ρ c (Proc.devRef .tc main_v1) = SRC m c := by
  show StableHlo.after hostOps0 (W0 m ρ c) (Proc.devRef .tc main_v1) = _
  dsimp only [hostOps0]
  after_results_simp
  try rfl

/-- The first stretch cuts the edges' targets out of the edge list. -/
theorem L0_dst (c : Dev nD) : W1 m ρ c (Proc.devRef .tc main_v3) = DST m c := by
  show StableHlo.after hostOps0 (W0 m ρ c) (Proc.devRef .tc main_v3) = _
  dsimp only [hostOps0]
  after_results_simp
  try rfl

/-- The neighbour aggregate of the layer's input. -/
theorem L0_agg (c : Dev nD) : W1 m ρ c (Proc.devRef .tc main_v13) = agg (h_0 m c) (SRC m c) (DST m c) := by
  show StableHlo.after hostOps0 (W0 m ρ c) (Proc.devRef .tc main_v13) = _
  dsimp only [hostOps0]
  after_results_simp
  try rfl

/-- The layer's first weight matrix. -/
theorem L0_w (c : Dev nD) : W1 m ρ c (Proc.devRef .tc main_v15) = sl3_0 (m ((c : Thread nD τ).loc main_arg3)) := by
  show StableHlo.after hostOps0 (W0 m ρ c) (Proc.devRef .tc main_v15) = _
  dsimp only [hostOps0]
  after_results_simp
  try rfl

/-- The layer's first bias, as a row. -/
theorem L0_b (c : Dev nD) : W1 m ρ c (Proc.devRef .tc main_v18) = rowOf (sl2_0 (m ((c : Thread nD τ).loc main_arg4))) := by
  show StableHlo.after hostOps0 (W0 m ρ c) (Proc.devRef .tc main_v18) = _
  dsimp only [hostOps0]
  after_results_simp
  try rfl

/-- The stretch leaves the layer's input features alone. -/
theorem L0_h_mid (c : Dev nD) : W1 m ρ c (Proc.devRef .tc main_arg0) = h_0 m c := by
  show StableHlo.after hostOps0 (W0 m ρ c) (Proc.devRef .tc main_arg0) = _
  dsimp only [hostOps0]
  after_results_simp
  rw [L0_h_in m ρ c]
  try rfl

/-- Device call 0 leaves the first dense map of the layer in its output array. -/
theorem L0_lin (c : Dev nD) : W2 m ρ c (Proc.devRef .tc main_v19) = lin_0 m c := by
  refine (W2_arr m ρ c 4).trans ((final0 (V1 m ρ) c).trans ?_)
  show onIdx (linRow (W1 m ρ c (Proc.devRef .tc main_arg0)) (W1 m ρ c (Proc.devRef .tc main_v13)) (W1 m ρ c (Proc.devRef .tc main_v15)) (W1 m ρ c (Proc.devRef .tc main_v18))) = _
  rw [L0_h_mid m ρ c, L0_agg m ρ c, L0_w m ρ c, L0_b m ρ c]
  try rfl

/-- The second stretch leaves the dense map's result alone. -/
theorem L0_lin_mid (c : Dev nD) : W3 m ρ c (Proc.devRef .tc main_v19) = lin_0 m c := by
  show StableHlo.after hostOps1 (W2 m ρ c) (Proc.devRef .tc main_v19) = _
  dsimp only [hostOps1]
  after_results_simp
  rw [L0_lin m ρ c]
  try rfl

/-- The column means, as a row. -/
theorem L0_mu (c : Dev nD) : W3 m ρ c (Proc.devRef .tc main_v23) = meanRow (lin_0 m c) := by
  show StableHlo.after hostOps1 (W2 m ρ c) (Proc.devRef .tc main_v23) = _
  dsimp only [hostOps1]
  after_results_simp
  rw [L0_lin m ρ c]
  try rfl

/-- The column variances, as a row. -/
theorem L0_var (c : Dev nD) : W3 m ρ c (Proc.devRef .tc main_v30) = meanRow (sqDev (lin_0 m c) (meanRow (lin_0 m c))) := by
  show StableHlo.after hostOps1 (W2 m ρ c) (Proc.devRef .tc main_v30) = _
  dsimp only [hostOps1]
  after_results_simp
  rw [L0_lin m ρ c]
  try rfl

/-- The layer's gamma, as a row. -/
theorem L0_ga (c : Dev nD) : W3 m ρ c (Proc.devRef .tc main_v33) = rowOf (sl2_0 (m ((c : Thread nD τ).loc main_arg5))) := by
  show StableHlo.after hostOps1 (W2 m ρ c) (Proc.devRef .tc main_v33) = _
  dsimp only [hostOps1]
  after_results_simp
  rw [keep_main_arg5_2 m ρ c]
  try rfl

/-- The layer's beta, as a row. -/
theorem L0_be (c : Dev nD) : W3 m ρ c (Proc.devRef .tc main_v36) = rowOf (sl2_0 (m ((c : Thread nD τ).loc main_arg6))) := by
  show StableHlo.after hostOps1 (W2 m ρ c) (Proc.devRef .tc main_v36) = _
  dsimp only [hostOps1]
  after_results_simp
  rw [keep_main_arg6_2 m ρ c]
  try rfl

/-- The layer's second weight matrix. -/
theorem L0_w2 (c : Dev nD) : W3 m ρ c (Proc.devRef .tc main_v38) = sl3_0 (m ((c : Thread nD τ).loc main_arg7)) := by
  show StableHlo.after hostOps1 (W2 m ρ c) (Proc.devRef .tc main_v38) = _
  dsimp only [hostOps1]
  after_results_simp
  rw [keep_main_arg7_2 m ρ c]
  try rfl

/-- The layer's second bias, as a row. -/
theorem L0_b2 (c : Dev nD) : W3 m ρ c (Proc.devRef .tc main_v41) = rowOf (sl2_0 (m ((c : Thread nD τ).loc main_arg8))) := by
  show StableHlo.after hostOps1 (W2 m ρ c) (Proc.devRef .tc main_v41) = _
  dsimp only [hostOps1]
  after_results_simp
  rw [keep_main_arg8_2 m ρ c]
  try rfl

/-- Device call 1 leaves the layer's output features in its output array. -/
theorem L0_out (c : Dev nD) : W4 m ρ c (Proc.devRef .tc main_v42) = h_1 m c := by
  refine (W4_arr m ρ c 7).trans ((final1 (V3 m ρ) c).trans ?_)
  show onIdx (bnRow (W3 m ρ c (Proc.devRef .tc main_v19)) (W3 m ρ c (Proc.devRef .tc main_v23)) (W3 m ρ c (Proc.devRef .tc main_v30)) (W3 m ρ c (Proc.devRef .tc main_v33)) (W3 m ρ c (Proc.devRef .tc main_v36)) (W3 m ρ c (Proc.devRef .tc main_v38)) (W3 m ρ c (Proc.devRef .tc main_v41))) = _
  rw [L0_lin_mid m ρ c, L0_mu m ρ c, L0_var m ρ c, L0_ga m ρ c, L0_be m ρ c, L0_w2 m ρ c, L0_b2 m ρ c]
  try rfl

end Cert.KernelIdeal.Hand

end
-- ==== Proof.KLayer1.lean ====
/-
  Layer 1 of the kernel's program, read from its run.

  Host stretch 2 prepares the layer's aggregate, weight matrix and bias row; device call 2 writes the first dense
  map lin_1; host stretch 3 forms its column means and variances and cuts gamma, beta, the second weights and bias
  out of the parameters; device call 3 writes the node features h_2.
-/
import proofs.«111606_j9388798509633_1_alg».proof.Proof.KKeep
import proofs.«111606_j9388798509633_1_alg».proof.Proof.KVals
import proofs.«111606_j9388798509633_1_alg».proof.Proof.Region2
import proofs.«111606_j9388798509633_1_alg».proof.Proof.Region3
import proofs.«111606_j9388798509633_1_alg».proof.Proof.KLayer0
import Idealize.ShloMosaic.Lib.StableHlo.Run

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

open Idealize.ShloMosaic.StableHlo

variable (m : (ℓ : Loc nD τ sig) → Buf (Elt Ideal) ℓ) (ρ : Dev nD → PrngReg)

/-- The layer's input features when host stretch 2 starts. -/
theorem L1_h_in (c : Dev nD) : W4 m ρ c (Proc.devRef .tc main_v42) = h_1 m c := L0_out m ρ c

/-- The edges' sources and targets are still what the first stretch left. -/
theorem L1_src (c : Dev nD) : W4 m ρ c (Proc.devRef .tc main_v1) = SRC m c := (keep_main_v1_4 m ρ c).trans (L0_src m ρ c)
theorem L1_dst (c : Dev nD) : W4 m ρ c (Proc.devRef .tc main_v3) = DST m c := (keep_main_v3_4 m ρ c).trans (L0_dst m ρ c)

/-- The neighbour aggregate of the layer's input. -/
theorem L1_agg (c : Dev nD) : W5 m ρ c (Proc.devRef .tc main_v52) = agg (h_1 m c) (SRC m c) (DST m c) := by
  show StableHlo.after hostOps2 (W4 m ρ c) (Proc.devRef .tc main_v52) = _
  dsimp only [hostOps2]
  after_results_simp
  rw [L1_h_in m ρ c, L1_src m ρ c, L1_dst m ρ c]
  try rfl

/-- The layer's first weight matrix. -/
theorem L1_w (c : Dev nD) : W5 m ρ c (Proc.devRef .tc main_v54) = sl3_1 (m ((c : Thread nD τ).loc main_arg3)) := by
  show StableHlo.after hostOps2 (W4 m ρ c) (Proc.devRef .tc main_v54) = _
  dsimp only [hostOps2]
  after_results_simp
  rw [keep_main_arg3_4 m ρ c]
  try rfl

/-- The layer's first bias, as a row. -/
theorem L1_b (c : Dev nD) : W5 m ρ c (Proc.devRef .tc main_v57) = rowOf (sl2_1 (m ((c : Thread nD τ).loc main_arg4))) := by
  show StableHlo.after hostOps2 (W4 m ρ c) (Proc.devRef .tc main_v57) = _
  dsimp only [hostOps2]
  after_results_simp
  rw [keep_main_arg4_4 m ρ c]
  try rfl

/-- The stretch leaves the layer's input features alone. -/
theorem L1_h_mid (c : Dev nD) : W5 m ρ c (Proc.devRef .tc main_v42) = h_1 m c := by
  show StableHlo.after hostOps2 (W4 m ρ c) (Proc.devRef .tc main_v42) = _
  dsimp only [hostOps2]
  after_results_simp
  rw [L1_h_in m ρ c]
  try rfl

/-- Device call 2 leaves the first dense map of the layer in its output array. -/
theorem L1_lin (c : Dev nD) : W6 m ρ c (Proc.devRef .tc main_v58) = lin_1 m c := by
  refine (W6_arr m ρ c 4).trans ((final2 (V5 m ρ) c).trans ?_)
  show onIdx (linRow (W5 m ρ c (Proc.devRef .tc main_v42)) (W5 m ρ c (Proc.devRef .tc main_v52)) (W5 m ρ c (Proc.devRef .tc main_v54)) (W5 m ρ c (Proc.devRef .tc main_v57))) = _
  rw [L1_h_mid m ρ c, L1_agg m ρ c, L1_w m ρ c, L1_b m ρ c]
  try rfl

/-- The second stretch leaves the dense map's result alone. -/
theorem L1_lin_mid (c : Dev nD) : W7 m ρ c (Proc.devRef .tc main_v58) = lin_1 m c := by
  show StableHlo.after hostOps3 (W6 m ρ c) (Proc.devRef .tc main_v58) = _
  dsimp only [hostOps3]
  after_results_simp
  rw [L1_lin m ρ c]
  try rfl

/-- The column means, as a row. -/
theorem L1_mu (c : Dev nD) : W7 m ρ c (Proc.devRef .tc main_v62) = meanRow (lin_1 m c) := by
  show StableHlo.after hostOps3 (W6 m ρ c) (Proc.devRef .tc main_v62) = _
  dsimp only [hostOps3]
  after_results_simp
  rw [L1_lin m ρ c]
  try rfl

/-- The column variances, as a row. -/
theorem L1_var (c : Dev nD) : W7 m ρ c (Proc.devRef .tc main_v69) = meanRow (sqDev (lin_1 m c) (meanRow (lin_1 m c))) := by
  show StableHlo.after hostOps3 (W6 m ρ c) (Proc.devRef .tc main_v69) = _
  dsimp only [hostOps3]
  after_results_simp
  rw [L1_lin m ρ c]
  try rfl

/-- The layer's gamma, as a row. -/
theorem L1_ga (c : Dev nD) : W7 m ρ c (Proc.devRef .tc main_v72) = rowOf (sl2_1 (m ((c : Thread nD τ).loc main_arg5))) := by
  show StableHlo.after hostOps3 (W6 m ρ c) (Proc.devRef .tc main_v72) = _
  dsimp only [hostOps3]
  after_results_simp
  rw [keep_main_arg5_6 m ρ c]
  try rfl

/-- The layer's beta, as a row. -/
theorem L1_be (c : Dev nD) : W7 m ρ c (Proc.devRef .tc main_v75) = rowOf (sl2_1 (m ((c : Thread nD τ).loc main_arg6))) := by
  show StableHlo.after hostOps3 (W6 m ρ c) (Proc.devRef .tc main_v75) = _
  dsimp only [hostOps3]
  after_results_simp
  rw [keep_main_arg6_6 m ρ c]
  try rfl

/-- The layer's second weight matrix. -/
theorem L1_w2 (c : Dev nD) : W7 m ρ c (Proc.devRef .tc main_v77) = sl3_1 (m ((c : Thread nD τ).loc main_arg7)) := by
  show StableHlo.after hostOps3 (W6 m ρ c) (Proc.devRef .tc main_v77) = _
  dsimp only [hostOps3]
  after_results_simp
  rw [keep_main_arg7_6 m ρ c]
  try rfl

/-- The layer's second bias, as a row. -/
theorem L1_b2 (c : Dev nD) : W7 m ρ c (Proc.devRef .tc main_v80) = rowOf (sl2_1 (m ((c : Thread nD τ).loc main_arg8))) := by
  show StableHlo.after hostOps3 (W6 m ρ c) (Proc.devRef .tc main_v80) = _
  dsimp only [hostOps3]
  after_results_simp
  rw [keep_main_arg8_6 m ρ c]
  try rfl

/-- Device call 3 leaves the layer's output features in its output array. -/
theorem L1_out (c : Dev nD) : W8 m ρ c (Proc.devRef .tc main_v81) = h_2 m c := by
  refine (W8_arr m ρ c 7).trans ((final3 (V7 m ρ) c).trans ?_)
  show onIdx (bnRow (W7 m ρ c (Proc.devRef .tc main_v58)) (W7 m ρ c (Proc.devRef .tc main_v62)) (W7 m ρ c (Proc.devRef .tc main_v69)) (W7 m ρ c (Proc.devRef .tc main_v72)) (W7 m ρ c (Proc.devRef .tc main_v75)) (W7 m ρ c (Proc.devRef .tc main_v77)) (W7 m ρ c (Proc.devRef .tc main_v80))) = _
  rw [L1_lin_mid m ρ c, L1_mu m ρ c, L1_var m ρ c, L1_ga m ρ c, L1_be m ρ c, L1_w2 m ρ c, L1_b2 m ρ c]
  try rfl

end Cert.KernelIdeal.Hand

end
-- ==== Proof.KLayer2.lean ====
/-
  Layer 2 of the kernel's program, read from its run.

  Host stretch 4 prepares the layer's aggregate, weight matrix and bias row; device call 4 writes the first dense
  map lin_2; host stretch 5 forms its column means and variances and cuts gamma, beta, the second weights and bias
  out of the parameters; device call 5 writes the node features h_3.
-/
import proofs.«111606_j9388798509633_1_alg».proof.Proof.KKeep
import proofs.«111606_j9388798509633_1_alg».proof.Proof.KVals
import proofs.«111606_j9388798509633_1_alg».proof.Proof.Region4
import proofs.«111606_j9388798509633_1_alg».proof.Proof.Region5
import proofs.«111606_j9388798509633_1_alg».proof.Proof.KLayer1
import Idealize.ShloMosaic.Lib.StableHlo.Run

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

open Idealize.ShloMosaic.StableHlo

variable (m : (ℓ : Loc nD τ sig) → Buf (Elt Ideal) ℓ) (ρ : Dev nD → PrngReg)

/-- The layer's input features when host stretch 4 starts. -/
theorem L2_h_in (c : Dev nD) : W8 m ρ c (Proc.devRef .tc main_v81) = h_2 m c := L1_out m ρ c

/-- The edges' sources and targets are still what the first stretch left. -/
theorem L2_src (c : Dev nD) : W8 m ρ c (Proc.devRef .tc main_v1) = SRC m c := (keep_main_v1_8 m ρ c).trans (L0_src m ρ c)
theorem L2_dst (c : Dev nD) : W8 m ρ c (Proc.devRef .tc main_v3) = DST m c := (keep_main_v3_8 m ρ c).trans (L0_dst m ρ c)

/-- The neighbour aggregate of the layer's input. -/
theorem L2_agg (c : Dev nD) : W9 m ρ c (Proc.devRef .tc main_v91) = agg (h_2 m c) (SRC m c) (DST m c) := by
  show StableHlo.after hostOps4 (W8 m ρ c) (Proc.devRef .tc main_v91) = _
  dsimp only [hostOps4]
  after_results_simp
  rw [L2_h_in m ρ c, L2_src m ρ c, L2_dst m ρ c]
  try rfl

/-- The layer's first weight matrix. -/
theorem L2_w (c : Dev nD) : W9 m ρ c (Proc.devRef .tc main_v93) = sl3_2 (m ((c : Thread nD τ).loc main_arg3)) := by
  show StableHlo.after hostOps4 (W8 m ρ c) (Proc.devRef .tc main_v93) = _
  dsimp only [hostOps4]
  after_results_simp
  rw [keep_main_arg3_8 m ρ c]
  try rfl

/-- The layer's first bias, as a row. -/
theorem L2_b (c : Dev nD) : W9 m ρ c (Proc.devRef .tc main_v96) = rowOf (sl2_2 (m ((c : Thread nD τ).loc main_arg4))) := by
  show StableHlo.after hostOps4 (W8 m ρ c) (Proc.devRef .tc main_v96) = _
  dsimp only [hostOps4]
  after_results_simp
  rw [keep_main_arg4_8 m ρ c]
  try rfl

/-- The stretch leaves the layer's input features alone. -/
theorem L2_h_mid (c : Dev nD) : W9 m ρ c (Proc.devRef .tc main_v81) = h_2 m c := by
  show StableHlo.after hostOps4 (W8 m ρ c) (Proc.devRef .tc main_v81) = _
  dsimp only [hostOps4]
  after_results_simp
  rw [L2_h_in m ρ c]
  try rfl

/-- Device call 4 leaves the first dense map of the layer in its output array. -/
theorem L2_lin (c : Dev nD) : W10 m ρ c (Proc.devRef .tc main_v97) = lin_2 m c := by
  refine (W10_arr m ρ c 4).trans ((final4 (V9 m ρ) c).trans ?_)
  show onIdx (linRow (W9 m ρ c (Proc.devRef .tc main_v81)) (W9 m ρ c (Proc.devRef .tc main_v91)) (W9 m ρ c (Proc.devRef .tc main_v93)) (W9 m ρ c (Proc.devRef .tc main_v96))) = _
  rw [L2_h_mid m ρ c, L2_agg m ρ c, L2_w m ρ c, L2_b m ρ c]
  try rfl

/-- The second stretch leaves the dense map's result alone. -/
theorem L2_lin_mid (c : Dev nD) : W11 m ρ c (Proc.devRef .tc main_v97) = lin_2 m c := by
  show StableHlo.after hostOps5 (W10 m ρ c) (Proc.devRef .tc main_v97) = _
  dsimp only [hostOps5]
  after_results_simp
  rw [L2_lin m ρ c]
  try rfl

/-- The column means, as a row. -/
theorem L2_mu (c : Dev nD) : W11 m ρ c (Proc.devRef .tc main_v101) = meanRow (lin_2 m c) := by
  show StableHlo.after hostOps5 (W10 m ρ c) (Proc.devRef .tc main_v101) = _
  dsimp only [hostOps5]
  after_results_simp
  rw [L2_lin m ρ c]
  try rfl

/-- The column variances, as a row. -/
theorem L2_var (c : Dev nD) : W11 m ρ c (Proc.devRef .tc main_v108) = meanRow (sqDev (lin_2 m c) (meanRow (lin_2 m c))) := by
  show StableHlo.after hostOps5 (W10 m ρ c) (Proc.devRef .tc main_v108) = _
  dsimp only [hostOps5]
  after_results_simp
  rw [L2_lin m ρ c]
  try rfl

/-- The layer's gamma, as a row. -/
theorem L2_ga (c : Dev nD) : W11 m ρ c (Proc.devRef .tc main_v111) = rowOf (sl2_2 (m ((c : Thread nD τ).loc main_arg5))) := by
  show StableHlo.after hostOps5 (W10 m ρ c) (Proc.devRef .tc main_v111) = _
  dsimp only [hostOps5]
  after_results_simp
  rw [keep_main_arg5_10 m ρ c]
  try rfl

/-- The layer's beta, as a row. -/
theorem L2_be (c : Dev nD) : W11 m ρ c (Proc.devRef .tc main_v114) = rowOf (sl2_2 (m ((c : Thread nD τ).loc main_arg6))) := by
  show StableHlo.after hostOps5 (W10 m ρ c) (Proc.devRef .tc main_v114) = _
  dsimp only [hostOps5]
  after_results_simp
  rw [keep_main_arg6_10 m ρ c]
  try rfl

/-- The layer's second weight matrix. -/
theorem L2_w2 (c : Dev nD) : W11 m ρ c (Proc.devRef .tc main_v116) = sl3_2 (m ((c : Thread nD τ).loc main_arg7)) := by
  show StableHlo.after hostOps5 (W10 m ρ c) (Proc.devRef .tc main_v116) = _
  dsimp only [hostOps5]
  after_results_simp
  rw [keep_main_arg7_10 m ρ c]
  try rfl

/-- The layer's second bias, as a row. -/
theorem L2_b2 (c : Dev nD) : W11 m ρ c (Proc.devRef .tc main_v119) = rowOf (sl2_2 (m ((c : Thread nD τ).loc main_arg8))) := by
  show StableHlo.after hostOps5 (W10 m ρ c) (Proc.devRef .tc main_v119) = _
  dsimp only [hostOps5]
  after_results_simp
  rw [keep_main_arg8_10 m ρ c]
  try rfl

/-- Device call 5 leaves the layer's output features in its output array. -/
theorem L2_out (c : Dev nD) : W12 m ρ c (Proc.devRef .tc main_v120) = h_3 m c := by
  refine (W12_arr m ρ c 7).trans ((final5 (V11 m ρ) c).trans ?_)
  show onIdx (bnRow (W11 m ρ c (Proc.devRef .tc main_v97)) (W11 m ρ c (Proc.devRef .tc main_v101)) (W11 m ρ c (Proc.devRef .tc main_v108)) (W11 m ρ c (Proc.devRef .tc main_v111)) (W11 m ρ c (Proc.devRef .tc main_v114)) (W11 m ρ c (Proc.devRef .tc main_v116)) (W11 m ρ c (Proc.devRef .tc main_v119))) = _
  rw [L2_lin_mid m ρ c, L2_mu m ρ c, L2_var m ρ c, L2_ga m ρ c, L2_be m ρ c, L2_w2 m ρ c, L2_b2 m ρ c]
  try rfl

end Cert.KernelIdeal.Hand

end
-- ==== Proof.KLayer3.lean ====
/-
  Layer 3 of the kernel's program, read from its run.

  Host stretch 6 prepares the layer's aggregate, weight matrix and bias row; device call 6 writes the first dense
  map lin_3; host stretch 7 forms its column means and variances and cuts gamma, beta, the second weights and bias
  out of the parameters; device call 7 writes the node features h_4.
-/
import proofs.«111606_j9388798509633_1_alg».proof.Proof.KKeep
import proofs.«111606_j9388798509633_1_alg».proof.Proof.KVals
import proofs.«111606_j9388798509633_1_alg».proof.Proof.Region6
import proofs.«111606_j9388798509633_1_alg».proof.Proof.Region7
import proofs.«111606_j9388798509633_1_alg».proof.Proof.KLayer2
import Idealize.ShloMosaic.Lib.StableHlo.Run

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

open Idealize.ShloMosaic.StableHlo

variable (m : (ℓ : Loc nD τ sig) → Buf (Elt Ideal) ℓ) (ρ : Dev nD → PrngReg)

/-- The layer's input features when host stretch 6 starts. -/
theorem L3_h_in (c : Dev nD) : W12 m ρ c (Proc.devRef .tc main_v120) = h_3 m c := L2_out m ρ c

/-- The edges' sources and targets are still what the first stretch left. -/
theorem L3_src (c : Dev nD) : W12 m ρ c (Proc.devRef .tc main_v1) = SRC m c := (keep_main_v1_12 m ρ c).trans (L0_src m ρ c)
theorem L3_dst (c : Dev nD) : W12 m ρ c (Proc.devRef .tc main_v3) = DST m c := (keep_main_v3_12 m ρ c).trans (L0_dst m ρ c)

/-- The neighbour aggregate of the layer's input. -/
theorem L3_agg (c : Dev nD) : W13 m ρ c (Proc.devRef .tc main_v130) = agg (h_3 m c) (SRC m c) (DST m c) := by
  show StableHlo.after hostOps6 (W12 m ρ c) (Proc.devRef .tc main_v130) = _
  dsimp only [hostOps6]
  after_results_simp
  rw [L3_h_in m ρ c, L3_src m ρ c, L3_dst m ρ c]
  try rfl

/-- The layer's first weight matrix. -/
theorem L3_w (c : Dev nD) : W13 m ρ c (Proc.devRef .tc main_v132) = sl3_3 (m ((c : Thread nD τ).loc main_arg3)) := by
  show StableHlo.after hostOps6 (W12 m ρ c) (Proc.devRef .tc main_v132) = _
  dsimp only [hostOps6]
  after_results_simp
  rw [keep_main_arg3_12 m ρ c]
  try rfl

/-- The layer's first bias, as a row. -/
theorem L3_b (c : Dev nD) : W13 m ρ c (Proc.devRef .tc main_v135) = rowOf (sl2_3 (m ((c : Thread nD τ).loc main_arg4))) := by
  show StableHlo.after hostOps6 (W12 m ρ c) (Proc.devRef .tc main_v135) = _
  dsimp only [hostOps6]
  after_results_simp
  rw [keep_main_arg4_12 m ρ c]
  try rfl

/-- The stretch leaves the layer's input features alone. -/
theorem L3_h_mid (c : Dev nD) : W13 m ρ c (Proc.devRef .tc main_v120) = h_3 m c := by
  show StableHlo.after hostOps6 (W12 m ρ c) (Proc.devRef .tc main_v120) = _
  dsimp only [hostOps6]
  after_results_simp
  rw [L3_h_in m ρ c]
  try rfl

/-- Device call 6 leaves the first dense map of the layer in its output array. -/
theorem L3_lin (c : Dev nD) : W14 m ρ c (Proc.devRef .tc main_v136) = lin_3 m c := by
  refine (W14_arr m ρ c 4).trans ((final6 (V13 m ρ) c).trans ?_)
  show onIdx (linRow (W13 m ρ c (Proc.devRef .tc main_v120)) (W13 m ρ c (Proc.devRef .tc main_v130)) (W13 m ρ c (Proc.devRef .tc main_v132)) (W13 m ρ c (Proc.devRef .tc main_v135))) = _
  rw [L3_h_mid m ρ c, L3_agg m ρ c, L3_w m ρ c, L3_b m ρ c]
  try rfl

/-- The second stretch leaves the dense map's result alone. -/
theorem L3_lin_mid (c : Dev nD) : W15 m ρ c (Proc.devRef .tc main_v136) = lin_3 m c := by
  show StableHlo.after hostOps7 (W14 m ρ c) (Proc.devRef .tc main_v136) = _
  dsimp only [hostOps7]
  after_results_simp
  rw [L3_lin m ρ c]
  try rfl

/-- The column means, as a row. -/
theorem L3_mu (c : Dev nD) : W15 m ρ c (Proc.devRef .tc main_v140) = meanRow (lin_3 m c) := by
  show StableHlo.after hostOps7 (W14 m ρ c) (Proc.devRef .tc main_v140) = _
  dsimp only [hostOps7]
  after_results_simp
  rw [L3_lin m ρ c]
  try rfl

/-- The column variances, as a row. -/
theorem L3_var (c : Dev nD) : W15 m ρ c (Proc.devRef .tc main_v147) = meanRow (sqDev (lin_3 m c) (meanRow (lin_3 m c))) := by
  show StableHlo.after hostOps7 (W14 m ρ c) (Proc.devRef .tc main_v147) = _
  dsimp only [hostOps7]
  after_results_simp
  rw [L3_lin m ρ c]
  try rfl

/-- The layer's gamma, as a row. -/
theorem L3_ga (c : Dev nD) : W15 m ρ c (Proc.devRef .tc main_v150) = rowOf (sl2_3 (m ((c : Thread nD τ).loc main_arg5))) := by
  show StableHlo.after hostOps7 (W14 m ρ c) (Proc.devRef .tc main_v150) = _
  dsimp only [hostOps7]
  after_results_simp
  rw [keep_main_arg5_14 m ρ c]
  try rfl

/-- The layer's beta, as a row. -/
theorem L3_be (c : Dev nD) : W15 m ρ c (Proc.devRef .tc main_v153) = rowOf (sl2_3 (m ((c : Thread nD τ).loc main_arg6))) := by
  show StableHlo.after hostOps7 (W14 m ρ c) (Proc.devRef .tc main_v153) = _
  dsimp only [hostOps7]
  after_results_simp
  rw [keep_main_arg6_14 m ρ c]
  try rfl

/-- The layer's second weight matrix. -/
theorem L3_w2 (c : Dev nD) : W15 m ρ c (Proc.devRef .tc main_v155) = sl3_3 (m ((c : Thread nD τ).loc main_arg7)) := by
  show StableHlo.after hostOps7 (W14 m ρ c) (Proc.devRef .tc main_v155) = _
  dsimp only [hostOps7]
  after_results_simp
  rw [keep_main_arg7_14 m ρ c]
  try rfl

/-- The layer's second bias, as a row. -/
theorem L3_b2 (c : Dev nD) : W15 m ρ c (Proc.devRef .tc main_v158) = rowOf (sl2_3 (m ((c : Thread nD τ).loc main_arg8))) := by
  show StableHlo.after hostOps7 (W14 m ρ c) (Proc.devRef .tc main_v158) = _
  dsimp only [hostOps7]
  after_results_simp
  rw [keep_main_arg8_14 m ρ c]
  try rfl

/-- Device call 7 leaves the layer's output features in its output array. -/
theorem L3_out (c : Dev nD) : W16 m ρ c (Proc.devRef .tc main_v159) = h_4 m c := by
  refine (W16_arr m ρ c 7).trans ((final7 (V15 m ρ) c).trans ?_)
  show onIdx (bnRow (W15 m ρ c (Proc.devRef .tc main_v136)) (W15 m ρ c (Proc.devRef .tc main_v140)) (W15 m ρ c (Proc.devRef .tc main_v147)) (W15 m ρ c (Proc.devRef .tc main_v150)) (W15 m ρ c (Proc.devRef .tc main_v153)) (W15 m ρ c (Proc.devRef .tc main_v155)) (W15 m ρ c (Proc.devRef .tc main_v158))) = _
  rw [L3_lin_mid m ρ c, L3_mu m ρ c, L3_var m ρ c, L3_ga m ρ c, L3_be m ρ c, L3_w2 m ρ c, L3_b2 m ρ c]
  try rfl

end Cert.KernelIdeal.Hand

end
-- ==== Proof.KLayer4.lean ====
/-
  Layer 4 of the kernel's program, read from its run.

  Host stretch 8 prepares the layer's aggregate, weight matrix and bias row; device call 8 writes the first dense
  map lin_4; host stretch 9 forms its column means and variances and cuts gamma, beta, the second weights and bias
  out of the parameters; device call 9 writes the node features h_5.
-/
import proofs.«111606_j9388798509633_1_alg».proof.Proof.KKeep
import proofs.«111606_j9388798509633_1_alg».proof.Proof.KVals
import proofs.«111606_j9388798509633_1_alg».proof.Proof.Region8
import proofs.«111606_j9388798509633_1_alg».proof.Proof.Region9
import proofs.«111606_j9388798509633_1_alg».proof.Proof.KLayer3
import Idealize.ShloMosaic.Lib.StableHlo.Run

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

open Idealize.ShloMosaic.StableHlo

variable (m : (ℓ : Loc nD τ sig) → Buf (Elt Ideal) ℓ) (ρ : Dev nD → PrngReg)

/-- The layer's input features when host stretch 8 starts. -/
theorem L4_h_in (c : Dev nD) : W16 m ρ c (Proc.devRef .tc main_v159) = h_4 m c := L3_out m ρ c

/-- The edges' sources and targets are still what the first stretch left. -/
theorem L4_src (c : Dev nD) : W16 m ρ c (Proc.devRef .tc main_v1) = SRC m c := (keep_main_v1_16 m ρ c).trans (L0_src m ρ c)
theorem L4_dst (c : Dev nD) : W16 m ρ c (Proc.devRef .tc main_v3) = DST m c := (keep_main_v3_16 m ρ c).trans (L0_dst m ρ c)

/-- The neighbour aggregate of the layer's input. -/
theorem L4_agg (c : Dev nD) : W17 m ρ c (Proc.devRef .tc main_v169) = agg (h_4 m c) (SRC m c) (DST m c) := by
  show StableHlo.after hostOps8 (W16 m ρ c) (Proc.devRef .tc main_v169) = _
  dsimp only [hostOps8]
  after_results_simp
  rw [L4_h_in m ρ c, L4_src m ρ c, L4_dst m ρ c]
  try rfl

/-- The layer's first weight matrix. -/
theorem L4_w (c : Dev nD) : W17 m ρ c (Proc.devRef .tc main_v171) = sl3_4 (m ((c : Thread nD τ).loc main_arg3)) := by
  show StableHlo.after hostOps8 (W16 m ρ c) (Proc.devRef .tc main_v171) = _
  dsimp only [hostOps8]
  after_results_simp
  rw [keep_main_arg3_16 m ρ c]
  try rfl

/-- The layer's first bias, as a row. -/
theorem L4_b (c : Dev nD) : W17 m ρ c (Proc.devRef .tc main_v174) = rowOf (sl2_4 (m ((c : Thread nD τ).loc main_arg4))) := by
  show StableHlo.after hostOps8 (W16 m ρ c) (Proc.devRef .tc main_v174) = _
  dsimp only [hostOps8]
  after_results_simp
  rw [keep_main_arg4_16 m ρ c]
  try rfl

/-- The stretch leaves the layer's input features alone. -/
theorem L4_h_mid (c : Dev nD) : W17 m ρ c (Proc.devRef .tc main_v159) = h_4 m c := by
  show StableHlo.after hostOps8 (W16 m ρ c) (Proc.devRef .tc main_v159) = _
  dsimp only [hostOps8]
  after_results_simp
  rw [L4_h_in m ρ c]
  try rfl

/-- Device call 8 leaves the first dense map of the layer in its output array. -/
theorem L4_lin (c : Dev nD) : W18 m ρ c (Proc.devRef .tc main_v175) = lin_4 m c := by
  refine (W18_arr m ρ c 4).trans ((final8 (V17 m ρ) c).trans ?_)
  show onIdx (linRow (W17 m ρ c (Proc.devRef .tc main_v159)) (W17 m ρ c (Proc.devRef .tc main_v169)) (W17 m ρ c (Proc.devRef .tc main_v171)) (W17 m ρ c (Proc.devRef .tc main_v174))) = _
  rw [L4_h_mid m ρ c, L4_agg m ρ c, L4_w m ρ c, L4_b m ρ c]
  try rfl

/-- The second stretch leaves the dense map's result alone. -/
theorem L4_lin_mid (c : Dev nD) : W19 m ρ c (Proc.devRef .tc main_v175) = lin_4 m c := by
  show StableHlo.after hostOps9 (W18 m ρ c) (Proc.devRef .tc main_v175) = _
  dsimp only [hostOps9]
  after_results_simp
  rw [L4_lin m ρ c]
  try rfl

/-- The column means, as a row. -/
theorem L4_mu (c : Dev nD) : W19 m ρ c (Proc.devRef .tc main_v179) = meanRow (lin_4 m c) := by
  show StableHlo.after hostOps9 (W18 m ρ c) (Proc.devRef .tc main_v179) = _
  dsimp only [hostOps9]
  after_results_simp
  rw [L4_lin m ρ c]
  try rfl

/-- The column variances, as a row. -/
theorem L4_var (c : Dev nD) : W19 m ρ c (Proc.devRef .tc main_v186) = meanRow (sqDev (lin_4 m c) (meanRow (lin_4 m c))) := by
  show StableHlo.after hostOps9 (W18 m ρ c) (Proc.devRef .tc main_v186) = _
  dsimp only [hostOps9]
  after_results_simp
  rw [L4_lin m ρ c]
  try rfl

/-- The layer's gamma, as a row. -/
theorem L4_ga (c : Dev nD) : W19 m ρ c (Proc.devRef .tc main_v189) = rowOf (sl2_4 (m ((c : Thread nD τ).loc main_arg5))) := by
  show StableHlo.after hostOps9 (W18 m ρ c) (Proc.devRef .tc main_v189) = _
  dsimp only [hostOps9]
  after_results_simp
  rw [keep_main_arg5_18 m ρ c]
  try rfl

/-- The layer's beta, as a row. -/
theorem L4_be (c : Dev nD) : W19 m ρ c (Proc.devRef .tc main_v192) = rowOf (sl2_4 (m ((c : Thread nD τ).loc main_arg6))) := by
  show StableHlo.after hostOps9 (W18 m ρ c) (Proc.devRef .tc main_v192) = _
  dsimp only [hostOps9]
  after_results_simp
  rw [keep_main_arg6_18 m ρ c]
  try rfl

/-- The layer's second weight matrix. -/
theorem L4_w2 (c : Dev nD) : W19 m ρ c (Proc.devRef .tc main_v194) = sl3_4 (m ((c : Thread nD τ).loc main_arg7)) := by
  show StableHlo.after hostOps9 (W18 m ρ c) (Proc.devRef .tc main_v194) = _
  dsimp only [hostOps9]
  after_results_simp
  rw [keep_main_arg7_18 m ρ c]
  try rfl

/-- The layer's second bias, as a row. -/
theorem L4_b2 (c : Dev nD) : W19 m ρ c (Proc.devRef .tc main_v197) = rowOf (sl2_4 (m ((c : Thread nD τ).loc main_arg8))) := by
  show StableHlo.after hostOps9 (W18 m ρ c) (Proc.devRef .tc main_v197) = _
  dsimp only [hostOps9]
  after_results_simp
  rw [keep_main_arg8_18 m ρ c]
  try rfl

/-- Device call 9 leaves the layer's output features in its output array. -/
theorem L4_out (c : Dev nD) : W20 m ρ c (Proc.devRef .tc main_v198) = h_5 m c := by
  refine (W20_arr m ρ c 7).trans ((final9 (V19 m ρ) c).trans ?_)
  show onIdx (bnRow (W19 m ρ c (Proc.devRef .tc main_v175)) (W19 m ρ c (Proc.devRef .tc main_v179)) (W19 m ρ c (Proc.devRef .tc main_v186)) (W19 m ρ c (Proc.devRef .tc main_v189)) (W19 m ρ c (Proc.devRef .tc main_v192)) (W19 m ρ c (Proc.devRef .tc main_v194)) (W19 m ρ c (Proc.devRef .tc main_v197))) = _
  rw [L4_lin_mid m ρ c, L4_mu m ρ c, L4_var m ρ c, L4_ga m ρ c, L4_be m ρ c, L4_w2 m ρ c, L4_b2 m ρ c]
  try rfl

end Cert.KernelIdeal.Hand

end
-- ==== Proof.KFinal.lean ====
/-
  The end of the kernel's program, read from its run: the last host stretch pools the node features per graph and lays
  the read-out's bias out as a row, and the last device call writes the read-out. The result array ends holding the
  read-out of the pooled features of the fifth layer.
-/
import proofs.«111606_j9388798509633_1_alg».proof.Proof.KKeep
import proofs.«111606_j9388798509633_1_alg».proof.Proof.KVals
import proofs.«111606_j9388798509633_1_alg».proof.Proof.Region10
import proofs.«111606_j9388798509633_1_alg».proof.Proof.KLayer4
import Idealize.ShloMosaic.Lib.StableHlo.Run

set_option maxRecDepth 16384

noncomputable section

namespace Cert.KernelIdeal.Hand

open Cert.KernelIdeal Cert.KernelIdeal.Gen Cert.GinSpec
open Idealize.ShloMosaic Idealize.ShloMosaic.TcCoe Idealize.ShloMosaic.ValueIdx Idealize.SL.Sem
open Idealize.ShloMosaic.Pipeline (Dat)
open scoped BigOperators

open Idealize.ShloMosaic.StableHlo

variable (m : (ℓ : Loc nD τ sig) → Buf (Elt Ideal) ℓ) (ρ : Dev nD → PrngReg)

/-- The pooled rows of the last layer's features. -/
theorem F_pool (c : Dev nD) : W21 m ρ c (Proc.devRef .tc main_v201) = pool (h_5 m c) (m ((c : Thread nD τ).loc main_arg2)) := by
  show StableHlo.after hostOps10 (W20 m ρ c) (Proc.devRef .tc main_v201) = _
  dsimp only [hostOps10]
  after_results_simp
  rw [L4_out m ρ c, keep_main_arg2_20 m ρ c]
  try rfl

/-- The read-out's bias, as a row. -/
theorem F_b (c : Dev nD) : W21 m ρ c (Proc.devRef .tc main_v202) = rowOf16 (m ((c : Thread nD τ).loc main_arg10)) := by
  show StableHlo.after hostOps10 (W20 m ρ c) (Proc.devRef .tc main_v202) = _
  dsimp only [hostOps10]
  after_results_simp
  rw [keep_main_arg10_20 m ρ c]
  try rfl

/-- The read-out's weights are the argument. -/
theorem F_w (c : Dev nD) : W21 m ρ c (Proc.devRef .tc main_arg9) = (m ((c : Thread nD τ).loc main_arg9)) := keep_main_arg9_21 m ρ c

/-- The result array after the whole run. -/
theorem W22_out (c : Dev nD) : W22 m ρ c (Proc.devRef .tc main_v203) = outK m c := by
  refine (W22_arr m ρ c 3).trans ((final10 (V21 m ρ) c).trans ?_)
  show onIdx (finRow (W21 m ρ c (Proc.devRef .tc main_v201)) (W21 m ρ c (Proc.devRef .tc main_arg9)) (W21 m ρ c (Proc.devRef .tc main_v202))) = _
  rw [F_pool m ρ c, F_w m ρ c, F_b m ρ c]
  try rfl

end Cert.KernelIdeal.Hand

end
-- ==== Proof.RDefs.lean ====
/-
  The pieces of the reference program, as functions of the arrays they read.

  The reference slices the same edge list and stacked parameters, aggregates neighbour rows by the same gather and
  scatter-add, and writes each layer's two dense maps with whole-array operations: a product of a [100000, 64] matrix
  with a 64 × 64 matrix, a bias vector spread over the rows, column means and variances kept as 64-vectors and spread
  over the rows where they are used, and the logistic function written out as 1 / (1 + exp (−x)).
-/
import proofs.«111606_j9388798509633_1_alg».proof.ReferenceIdeal
import proofs.«111606_j9388798509633_1_alg».proof.Proof.Gen.ReferenceIdeal
import Idealize.ShloMosaic.PureOps.Ideal

noncomputable section

namespace Cert.ReferenceIdeal.Hand

open Cert.ReferenceIdeal Idealize.ShloMosaic
open Cert.ReferenceIdeal.Facts₀ Cert.ReferenceIdeal.Facts

/-- The source node of every edge: row 0 of the edge list. -/
def srcOf (e : IVec S2x1000000 32) : IVec S1000000 32 :=
  shapeCast _ (extractStridedSlice S1x1000000 ![0, 0] e slices_S2x1000000_S1x1000000_0_0) shapeCasts_S1x1000000_S1000000

/-- The target node of every edge: row 1 of the edge list. -/
def dstOf (e : IVec S2x1000000 32) : IVec S1000000 32 :=
  shapeCast _ (extractStridedSlice S1x1000000 ![1, 0] e slices_S2x1000000_S1x1000000_1_0) shapeCasts_S1x1000000_S1000000

/-- The neighbour aggregate: the rows of h gathered at the edges' sources (a negative source wrapped once) and
    summed into the rows named by the edges' targets, from zero. -/
def agg (h : FVec Ideal S100000x64 .f32) (src dst : IVec S1000000 32) : FVec Ideal S100000x64 .f32 :=
  Host.scatterAdd scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 dst) (Host.gather gather_S100000x64_S1000000x1_S1000000x64_1_0_n_n_0_1_164 h (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))

/-- The sum of the 100000 rows, column by column, from zero. -/
def colSum (x : FVec Ideal S100000x64 .f32) : FVec Ideal S64 .f32 :=
  Host.reduceAdd x (constant (F := Ideal) S_ .f32 0x00000000#32) reducesTo_S100000x64_S64_d0 h_S_

/-- The sum of the rows that carry each graph's number: 128 pooled rows, from zero. -/
def pool (h : FVec Ideal S100000x64 .f32) (batch : IVec S100000 32) : FVec Ideal S128x64 .f32 :=
  Host.scatterAdd scatter_S128x64_S100000x1_S100000x64_1_0_0_1 (broadcastInDim S128x64 ![] bcast_S_S128x64 (constant (F := Ideal) S_ .f32 0x00000000#32)) (broadcastInDim S100000x1 ![0] bcast_S100000_S100000x1_0 batch) h

/-- Layer 0's 64 × 64 slab of a stack of five weight matrices. -/
def sl3_0 (a : FVec Ideal S5x64x64 .f32) : FVec Ideal S64x64 .f32 :=
  shapeCast _ (extractStridedSlice S1x64x64 ![0, 0, 0] a slices_S5x64x64_S1x64x64_0_0_0) shapeCasts_S1x64x64_S64x64

/-- Layer 0's row of a stack of five 64-vectors, as a vector. -/
def sl2_0 (a : FVec Ideal S5x64 .f32) : FVec Ideal S64 .f32 :=
  shapeCast _ (extractStridedSlice S1x64 ![0, 0] a slices_S5x64_S1x64_0_0) shapeCasts_S1x64_S64

/-- Layer 1's 64 × 64 slab of a stack of five weight matrices. -/
def sl3_1 (a : FVec Ideal S5x64x64 .f32) : FVec Ideal S64x64 .f32 :=
  shapeCast _ (extractStridedSlice S1x64x64 ![1, 0, 0] a slices_S5x64x64_S1x64x64_1_0_0) shapeCasts_S1x64x64_S64x64

/-- Layer 1's row of a stack of five 64-vectors, as a vector. -/
def sl2_1 (a : FVec Ideal S5x64 .f32) : FVec Ideal S64 .f32 :=
  shapeCast _ (extractStridedSlice S1x64 ![1, 0] a slices_S5x64_S1x64_1_0) shapeCasts_S1x64_S64

/-- Layer 2's 64 × 64 slab of a stack of five weight matrices. -/
def sl3_2 (a : FVec Ideal S5x64x64 .f32) : FVec Ideal S64x64 .f32 :=
  shapeCast _ (extractStridedSlice S1x64x64 ![2, 0, 0] a slices_S5x64x64_S1x64x64_2_0_0) shapeCasts_S1x64x64_S64x64

/-- Layer 2's row of a stack of five 64-vectors, as a vector. -/
def sl2_2 (a : FVec Ideal S5x64 .f32) : FVec Ideal S64 .f32 :=
  shapeCast _ (extractStridedSlice S1x64 ![2, 0] a slices_S5x64_S1x64_2_0) shapeCasts_S1x64_S64

/-- Layer 3's 64 × 64 slab of a stack of five weight matrices. -/
def sl3_3 (a : FVec Ideal S5x64x64 .f32) : FVec Ideal S64x64 .f32 :=
  shapeCast _ (extractStridedSlice S1x64x64 ![3, 0, 0] a slices_S5x64x64_S1x64x64_3_0_0) shapeCasts_S1x64x64_S64x64

/-- Layer 3's row of a stack of five 64-vectors, as a vector. -/
def sl2_3 (a : FVec Ideal S5x64 .f32) : FVec Ideal S64 .f32 :=
  shapeCast _ (extractStridedSlice S1x64 ![3, 0] a slices_S5x64_S1x64_3_0) shapeCasts_S1x64_S64

/-- Layer 4's 64 × 64 slab of a stack of five weight matrices. -/
def sl3_4 (a : FVec Ideal S5x64x64 .f32) : FVec Ideal S64x64 .f32 :=
  shapeCast _ (extractStridedSlice S1x64x64 ![4, 0, 0] a slices_S5x64x64_S1x64x64_4_0_0) shapeCasts_S1x64x64_S64x64

/-- Layer 4's row of a stack of five 64-vectors, as a vector. -/
def sl2_4 (a : FVec Ideal S5x64 .f32) : FVec Ideal S64 .f32 :=
  shapeCast _ (extractStridedSlice S1x64 ![4, 0] a slices_S5x64_S1x64_4_0) shapeCasts_S1x64_S64

/-- A 64-vector as a [1, 64] row. -/
def bc1 (v : FVec Ideal S64 .f32) : FVec Ideal S1x64 .f32 := broadcastInDim S1x64 ![1] bcast_S64_S1x64_1 v

/-- A [1, 64] row spread over the 100000 rows. -/
def bcN (v : FVec Ideal S1x64 .f32) : FVec Ideal S100000x64 .f32 := broadcastInDim S100000x64 ![0, 1] bcast_S1x64_S100000x64_0_1 v

/-- The column means as a 64-vector: the column sums divided by 100000. -/
def mean64 (x : FVec Ideal S100000x64 .f32) : FVec Ideal S64 .f32 :=
  Host.divf (colSum x) (broadcastInDim S64 ![] bcast_S_S64 (constant (F := Ideal) S_ .f32 0x47C35000#32))

/-- The first dense map of a layer, in whole-array operations. -/
def linR (h a : FVec Ideal S100000x64 .f32) (w : FVec Ideal S64x64 .f32) (b : FVec Ideal S64 .f32) : FVec Ideal S100000x64 .f32 :=
  addf (Host.dotGeneral dot_S100000x64_S64x64_S100000x64_1_0_0_1_n_n none (addf (mulf (broadcastInDim S100000x64 ![] bcast_S_S100000x64 (constant (F := Ideal) S_ .f32 0x3FA66666#32)) h) a) w) (bcN (bc1 b))

/-- The deviations from a vector of column means. -/
def devR (x : FVec Ideal S100000x64 .f32) (mu : FVec Ideal S64 .f32) : FVec Ideal S100000x64 .f32 := subf x (bcN (bc1 mu))

/-- The second half of a layer, in whole-array operations. -/
def bnR (x : FVec Ideal S100000x64 .f32) (mu var ga be : FVec Ideal S64 .f32) (w : FVec Ideal S64x64 .f32) (b : FVec Ideal S64 .f32) : FVec Ideal S100000x64 .f32 :=
  Host.tanh (addf (Host.dotGeneral dot_S100000x64_S64x64_S100000x64_1_0_0_1_n_n none (Host.tanh (addf (mulf (mulf (bcN (bc1 ga)) (subf x (bcN (bc1 mu)))) (bcN (bc1 (Host.rsqrt (addf var (broadcastInDim S64 ![] bcast_S_S64 (constant (F := Ideal) S_ .f32 0x3727C5AC#32))))))) (bcN (bc1 be)))) w) (bcN (bc1 b)))

/-- The read-out, with the logistic function written as 1 / (1 + exp (−x)). -/
def finR (p : FVec Ideal S128x64 .f32) (w : FVec Ideal S64x16 .f32) (b : FVec Ideal S16 .f32) : FVec Ideal S128x16 .f32 :=
  Host.divf (broadcastInDim S128x16 ![] bcast_S_S128x16 (constant (F := Ideal) S_ .f32 0x3F800000#32)) (addf (broadcastInDim S128x16 ![] bcast_S_S128x16 (constant (F := Ideal) S_ .f32 0x3F800000#32)) (Host.exp (Host.negf (addf (Host.dotGeneral dot_S128x64_S64x16_S128x16_1_0_0_1_n_n none p w) (broadcastInDim S128x16 ![0, 1] bcast_S1x16_S128x16_0_1 (broadcastInDim S1x16 ![1] bcast_S16_S1x16_1 b))))))

end Cert.ReferenceIdeal.Hand

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.RBridge.lean ====
/-
  The reference's whole-array dense maps, read entry by entry.

  A product of matrices on the host is, at (p, f), the sum over d of the left factor's (p, d) times the right factor's
  (d, f); a bias vector spread over rows contributes its entry f; the means, variances, gamma and beta enter as
  64-vectors read at the column. So each whole-array expression is the row function of its operands, with every
  64-vector taken as a [1, 64] row. The logistic function written as 1 / (1 + exp (−x)) is the logistic function, the
  word 0x3F800000 being the number one. Dividing a row of column sums by 100000 is dividing the vector of column sums
  and laying the quotient out as a row.
-/
import proofs.«111606_j9388798509633_1_alg».proof.Proof.RDefs
import proofs.«111606_j9388798509633_1_alg».proof.Proof.Spec
import proofs.«111606_j9388798509633_1_alg».proof.Proof.LibInnerProducts
import proofs.«111606_j9388798509633_1_alg».proof.Proof.LibInDimRow
import proofs.«111606_j9388798509633_1_alg».proof.Proof.LibWords
import Idealize.ShloMosaic.Lib.Pipeline.Value
import Idealize.ShloMosaic.Lib.ValueIdx
import Idealize.ShloMosaic.Lib.ValueLayout

set_option maxRecDepth 16384

noncomputable section

namespace Cert.ReferenceIdeal.Hand

open Cert.ReferenceIdeal Cert.GinSpec
open Cert.ReferenceIdeal.Facts₀ Cert.ReferenceIdeal.Facts
open Idealize.ShloMosaic Idealize.ShloMosaic.ValueIdx
open scoped BigOperators

/-- A row laid out from a 64-vector reads the vector's entry. -/
theorem bc1_apply (v : FVec Ideal S64 .f32) (d : Fin 64) : bc1 v (ix2 (0 : Fin 1) d) = v (ix1 d) :=
  Cert.LibInDimRow.inDim_b_1b_apply v _ 0 d

/-- A row spread over the 100000 rows reads the row's entry, whatever the row. -/
theorem bcN_apply (v : FVec Ideal S1x64 .f32) (p : Fin 100000) (d : Fin 64) : bcN v (ix2 p d) = v (ix2 (0 : Fin 1) d) :=
  Cert.LibInDimRow.inDim_1b_ab_apply v _ p d

/-- The first dense map on the host is its row function, the bias taken as a row. -/
theorem linR_eq (h a : FVec Ideal S100000x64 .f32) (w : FVec Ideal S64x64 .f32) (b : FVec Ideal S64 .f32) :
    linR h a w b = onIdx (linRow h a w (bc1 b)) := by
  funext i
  obtain ⟨p, f, rfl⟩ : ∃ (p : Fin 100000) (f : Fin 64), i = ix2 p f := ⟨i 0, i 1, eq_ix2 i⟩
  show linR h a w b (ix2 p f) = linRow h a w (bc1 b) p f
  unfold linR linRow
  show Host.dotGeneral _ none _ w (ix2 p f) + bcN (bc1 b) (ix2 p f) = _
  rw [InnerProducts.dotGeneral_apply dot_S100000x64_S64x64_S100000x64_1_0_0_1_n_n rfl, bcN_apply]
  rfl

/-- The second half of a layer on the host is its row function, every 64-vector taken as a row. -/
theorem bnR_eq (x : FVec Ideal S100000x64 .f32) (mu var ga be : FVec Ideal S64 .f32) (w : FVec Ideal S64x64 .f32) (b : FVec Ideal S64 .f32) :
    bnR x mu var ga be w b = onIdx (bnRow x (bc1 mu) (bc1 var) (bc1 ga) (bc1 be) w (bc1 b)) := by
  funext i
  obtain ⟨p, f, rfl⟩ : ∃ (p : Fin 100000) (f : Fin 64), i = ix2 p f := ⟨i 0, i 1, eq_ix2 i⟩
  show bnR x mu var ga be w b (ix2 p f) = bnRow x (bc1 mu) (bc1 var) (bc1 ga) (bc1 be) w (bc1 b) p f
  unfold bnR bnRow
  show Ideal.tanh (Host.dotGeneral _ none _ w (ix2 p f) + bcN (bc1 b) (ix2 p f)) = _
  rw [InnerProducts.dotGeneral_apply dot_S100000x64_S64x64_S100000x64_1_0_0_1_n_n rfl, bcN_apply]
  refine congrArg Ideal.tanh (congrArg₂ (· + ·) (Finset.sum_congr rfl fun d _ => ?_) rfl)
  show Ideal.tanh (bcN (bc1 ga) (ix2 p d) * (x (ix2 p d) - bcN (bc1 mu) (ix2 p d))
      * bcN (bc1 (Host.rsqrt (addf var (broadcastInDim S64 ![] bcast_S_S64 (constant (F := Ideal) S_ .f32 0x3727C5AC#32))))) (ix2 p d)
      + bcN (bc1 be) (ix2 p d)) * w (ix2 d f) = _
  rw [bcN_apply, bcN_apply, bcN_apply, bcN_apply, bc1_apply (Host.rsqrt _), bc1_apply var]
  rfl

/-- The word 0x3F800000 is the number one. -/
theorem one_word : Ideal.ofBits .f32 0x3F800000#32 = (1 : EReal) := by
  rw [Cert.Proof.Words.ofBits_f32_one]; rfl

/-- The read-out on the host is its row function: 1 / (1 + exp (−x)) is the logistic function of x. -/
theorem finR_eq (p : FVec Ideal S128x64 .f32) (w : FVec Ideal S64x16 .f32) (b : FVec Ideal S16 .f32) :
    finR p w b = onIdx (finRow p w (broadcastInDim S1x16 ![1] bcast_S16_S1x16_1 b)) := by
  funext i
  obtain ⟨g, o, rfl⟩ : ∃ (g : Fin 128) (o : Fin 16), i = ix2 g o := ⟨i 0, i 1, eq_ix2 i⟩
  show finR p w b (ix2 g o) = finRow p w (broadcastInDim S1x16 ![1] bcast_S16_S1x16_1 b) g o
  unfold finR finRow
  show Ideal.div (Ideal.ofBits .f32 0x3F800000#32) (Ideal.ofBits .f32 0x3F800000#32
      + Ideal.exp (-(Host.dotGeneral _ none p w (ix2 g o)
        + broadcastInDim S128x16 ![0, 1] bcast_S1x16_S128x16_0_1 (broadcastInDim S1x16 ![1] bcast_S16_S1x16_1 b) (ix2 g o)))) = _
  rw [InnerProducts.dotGeneral_apply dot_S128x64_S64x16_S128x16_1_0_0_1_n_n rfl, Cert.LibInDimRow.inDim_1b_ab_apply, one_word]
  rfl

/-- A row of column sums divided by 100000 is the vector of column sums divided by 100000, laid out as a row. -/
theorem divf_row (s : FVec Ideal S64 .f32) (hb : S_.BroadcastsInDim S1x64 (![] : Fin 0 → Fin S1x64.rank)) :
    Host.divf (bc1 s) (broadcastInDim S1x64 ![] hb (constant (F := Ideal) S_ .f32 0x47C35000#32))
      = bc1 (Host.divf s (broadcastInDim S64 ![] bcast_S_S64 (constant (F := Ideal) S_ .f32 0x47C35000#32))) := by
  funext i
  obtain ⟨u, d, rfl⟩ : ∃ (u : Fin 1) (d : Fin 64), i = ix2 u d := ⟨i 0, i 1, eq_ix2 i⟩
  obtain rfl : u = 0 := Subsingleton.elim _ _
  rw [bc1_apply]
  show Ideal.div (bc1 s (ix2 (0 : Fin 1) d)) _ = _
  rw [bc1_apply]
  rfl

end Cert.ReferenceIdeal.Hand

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibCastInDim.lean ====
/-
  Giving a vector a unit axis by a cast or by a broadcast is the same array.

  A vector [a] recast as a column [a, 1] and the host's broadcast_in_dim placing it on axis 0 of [a, 1] both read, at
  (i, 0), the vector's entry i; a vector [b] recast as a row [1, b] and the broadcast placing it on axis 1 of [1, b] both
  read, at (0, j), entry j.  So the two spellings of "add a unit axis" are one function, for any element type.
-/
import Idealize.ShloMosaic.Lib.Pipeline.Value
import Idealize.ShloMosaic.Lib.ValueIdx
import Idealize.ShloMosaic.Lib.ValueLayout
import proofs.«111606_j9388798509633_1_alg».proof.Proof.LibKeepdims
import proofs.«111606_j9388798509633_1_alg».proof.Proof.LibInDimLayout
import proofs.«111606_j9388798509633_1_alg».proof.Proof.LibInDimRow

namespace Cert.LibCastInDim

open Idealize.ShloMosaic Idealize.ShloMosaic.ValueIdx

variable {α : Type}

/-- [a] as a column [a, 1]: the cast is the broadcast along axis 0. -/
theorem column_cast_eq_inDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext i
  obtain ⟨p, u, rfl⟩ : ∃ (p : Fin a) (u : Fin 1), i = ix2 p u := ⟨i 0, i 1, eq_ix2 i⟩
  rw [Cert.LibKeepdims.shapeCast_a_a1_apply, Cert.LibInDimLayout.inDim_a_a1_apply]

/-- [b] as a row [1, b]: the cast is the broadcast along axis 1. -/
theorem row_cast_eq_inDim {b : ℕ} (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, j, rfl⟩ : ∃ (u : Fin 1) (j : Fin b), i = ix2 u j := ⟨i 0, i 1, eq_ix2 i⟩
  rw [shapeCast_a_1a_apply, Cert.LibInDimRow.inDim_b_1b_apply]

end Cert.LibCastInDim
-- ==== Proof.Bridge.lean ====
/-
  The kernel's program and the reference compute the same arrays.

  Both programs slice the same arguments, aggregate with the same gather and scatter-add, and take the same column
  sums. Where they differ is in layout only: the kernel's device calls take each bias, mean, variance, gamma and beta
  as a [1, 64] row, the reference keeps them as 64-vectors and spreads them; the kernel computes each dense map ten
  thousand rows at a time, the reference in one product. Entry by entry both are the same row functions of the same
  operands, so layer by layer the node features agree, and so does the read-out of the pooled features.
-/
import proofs.«111606_j9388798509633_1_alg».proof.Proof.KVals
import proofs.«111606_j9388798509633_1_alg».proof.Proof.RDefs
import proofs.«111606_j9388798509633_1_alg».proof.Proof.RBridge
import proofs.«111606_j9388798509633_1_alg».proof.Proof.LibCastInDim
import proofs.«111606_j9388798509633_1_alg».proof.Proof.Gen.ReferenceIdeal.Run

set_option maxRecDepth 16384

noncomputable section

namespace Cert.Proof.Bridge

open Idealize.ShloMosaic Idealize.ShloMosaic.TcCoe Idealize.SL.Sem Idealize.ShloMosaic.StableHlo Cert.GinSpec
open Cert.KernelIdeal.Hand (SRC DST h_0 h_1 h_2 h_3 h_4 h_5 lin_0 lin_1 lin_2 lin_3 lin_4 outK)

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The reference's argument arrays are the kernel's. -/
def Agree : Prop :=
  (V0 (Proc.devRef .tc Cert.ReferenceIdeal.main_arg0)) = (m ((c.tc : Thread Cert.KernelIdeal.nD Cert.KernelIdeal.τ).loc Cert.KernelIdeal.main_arg0))
  ∧ (V0 (Proc.devRef .tc Cert.ReferenceIdeal.main_arg1)) = (m ((c.tc : Thread Cert.KernelIdeal.nD Cert.KernelIdeal.τ).loc Cert.KernelIdeal.main_arg1))
  ∧ (V0 (Proc.devRef .tc Cert.ReferenceIdeal.main_arg2)) = (m ((c.tc : Thread Cert.KernelIdeal.nD Cert.KernelIdeal.τ).loc Cert.KernelIdeal.main_arg2))
  ∧ (V0 (Proc.devRef .tc Cert.ReferenceIdeal.main_arg3)) = (m ((c.tc : Thread Cert.KernelIdeal.nD Cert.KernelIdeal.τ).loc Cert.KernelIdeal.main_arg3))
  ∧ (V0 (Proc.devRef .tc Cert.ReferenceIdeal.main_arg4)) = (m ((c.tc : Thread Cert.KernelIdeal.nD Cert.KernelIdeal.τ).loc Cert.KernelIdeal.main_arg4))
  ∧ (V0 (Proc.devRef .tc Cert.ReferenceIdeal.main_arg5)) = (m ((c.tc : Thread Cert.KernelIdeal.nD Cert.KernelIdeal.τ).loc Cert.KernelIdeal.main_arg5))
  ∧ (V0 (Proc.devRef .tc Cert.ReferenceIdeal.main_arg6)) = (m ((c.tc : Thread Cert.KernelIdeal.nD Cert.KernelIdeal.τ).loc Cert.KernelIdeal.main_arg6))
  ∧ (V0 (Proc.devRef .tc Cert.ReferenceIdeal.main_arg7)) = (m ((c.tc : Thread Cert.KernelIdeal.nD Cert.KernelIdeal.τ).loc Cert.KernelIdeal.main_arg7))
  ∧ (V0 (Proc.devRef .tc Cert.ReferenceIdeal.main_arg8)) = (m ((c.tc : Thread Cert.KernelIdeal.nD Cert.KernelIdeal.τ).loc Cert.KernelIdeal.main_arg8))
  ∧ (V0 (Proc.devRef .tc Cert.ReferenceIdeal.main_arg9)) = (m ((c.tc : Thread Cert.KernelIdeal.nD Cert.KernelIdeal.τ).loc Cert.KernelIdeal.main_arg9))
  ∧ (V0 (Proc.devRef .tc Cert.ReferenceIdeal.main_arg10)) = (m ((c.tc : Thread Cert.KernelIdeal.nD Cert.KernelIdeal.τ).loc Cert.KernelIdeal.main_arg10))

/-- The two programs' gather and scatter-add of neighbour rows are one function. -/
theorem agg_eq (h : FVec Ideal Cert.KernelIdeal.S100000x64 .f32) (s d : IVec Cert.KernelIdeal.S1000000 32) : Cert.KernelIdeal.Hand.agg h s d = Cert.ReferenceIdeal.Hand.agg h s d := rfl

/-- The two programs' pooling of rows per graph is one function. -/
theorem pool_eq (h : FVec Ideal Cert.KernelIdeal.S100000x64 .f32) (b : IVec Cert.KernelIdeal.S100000 32) : Cert.KernelIdeal.Hand.pool h b = Cert.ReferenceIdeal.Hand.pool h b := rfl

/-- A 64-vector recast as a row is the vector laid out as a row. -/
theorem rowOf_eq (v : FVec Ideal Cert.KernelIdeal.S64 .f32) : Cert.KernelIdeal.Hand.rowOf v = Cert.ReferenceIdeal.Hand.bc1 v :=
  Cert.LibCastInDim.row_cast_eq_inDim v _ _

/-- A 16-vector recast as a row is the vector laid out as a row. -/
theorem rowOf16_eq (v : FVec Ideal Cert.KernelIdeal.S16 .f32) :
    Cert.KernelIdeal.Hand.rowOf16 v = broadcastInDim Cert.ReferenceIdeal.S1x16 ![1] Cert.ReferenceIdeal.Facts₀.bcast_S16_S1x16_1 v :=
  Cert.LibCastInDim.row_cast_eq_inDim v _ _

/-- The kernel's row of column means is the reference's vector of column means, laid out as a row. -/
theorem meanRow_eq (x : FVec Ideal Cert.KernelIdeal.S100000x64 .f32) : Cert.KernelIdeal.Hand.meanRow x = Cert.ReferenceIdeal.Hand.bc1 (Cert.ReferenceIdeal.Hand.mean64 x) :=
  Cert.ReferenceIdeal.Hand.divf_row (Cert.ReferenceIdeal.Hand.colSum x) Cert.KernelIdeal.Facts₀.bcast_S_S1x64

/-- The kernel's squared deviations from a row of means are the reference's from the vector. -/
theorem sqDev_eq (x : FVec Ideal Cert.KernelIdeal.S100000x64 .f32) (mu : FVec Ideal Cert.KernelIdeal.S64 .f32) :
    Cert.KernelIdeal.Hand.sqDev x (Cert.ReferenceIdeal.Hand.bc1 mu) = mulf (Cert.ReferenceIdeal.Hand.devR x mu) (Cert.ReferenceIdeal.Hand.devR x mu) := rfl

variable {m c V0}

theorem src_eq (hA : Agree m c V0) : SRC m c = Cert.ReferenceIdeal.Value.res_main_v1 V0 := by
  unfold Cert.KernelIdeal.Hand.SRC Cert.ReferenceIdeal.Value.res_main_v1
  rw [hA.2.1]
  rfl

theorem dst_eq (hA : Agree m c V0) : DST m c = Cert.ReferenceIdeal.Value.res_main_v3 V0 := by
  unfold Cert.KernelIdeal.Hand.DST Cert.ReferenceIdeal.Value.res_main_v3
  rw [hA.2.1]
  rfl

theorem h0_eq (hA : Agree m c V0) : h_0 m c = (V0 (Proc.devRef .tc Cert.ReferenceIdeal.main_arg0)) := hA.1.symm

/-- Layer 0's first dense map agrees. -/
theorem lin0_eq (hA : Agree m c V0) : lin_0 m c = Cert.ReferenceIdeal.Value.res_main_v24 V0 := by
  have e : Cert.ReferenceIdeal.Value.res_main_v24 V0 = Cert.ReferenceIdeal.Hand.linR (V0 (Proc.devRef .tc Cert.ReferenceIdeal.main_arg0)) (Cert.ReferenceIdeal.Hand.agg (V0 (Proc.devRef .tc Cert.ReferenceIdeal.main_arg0)) (Cert.ReferenceIdeal.Value.res_main_v1 V0) (Cert.ReferenceIdeal.Value.res_main_v3 V0)) (Cert.ReferenceIdeal.Hand.sl3_0 (V0 (Proc.devRef .tc Cert.ReferenceIdeal.main_arg3))) (Cert.ReferenceIdeal.Hand.sl2_0 (V0 (Proc.devRef .tc Cert.ReferenceIdeal.main_arg4))) := rfl
  rw [e, Cert.ReferenceIdeal.Hand.linR_eq, hA.2.2.2.1, hA.2.2.2.2.1]
  unfold Cert.KernelIdeal.Hand.lin_0
  rw [h0_eq hA, src_eq hA, dst_eq hA, rowOf_eq]
  rfl

/-- Layer 0's output features agree. -/
theorem h1_eq (hA : Agree m c V0) : h_1 m c = Cert.ReferenceIdeal.Value.res_main_v63 V0 := by
  have e : Cert.ReferenceIdeal.Value.res_main_v63 V0 = Cert.ReferenceIdeal.Hand.bnR (Cert.ReferenceIdeal.Value.res_main_v24 V0) (Cert.ReferenceIdeal.Value.res_main_v27 V0) (Cert.ReferenceIdeal.Hand.mean64 (mulf (Cert.ReferenceIdeal.Value.res_main_v30 V0) (Cert.ReferenceIdeal.Value.res_main_v30 V0))) (Cert.ReferenceIdeal.Hand.sl2_0 (V0 (Proc.devRef .tc Cert.ReferenceIdeal.main_arg5))) (Cert.ReferenceIdeal.Hand.sl2_0 (V0 (Proc.devRef .tc Cert.ReferenceIdeal.main_arg6))) (Cert.ReferenceIdeal.Hand.sl3_0 (V0 (Proc.devRef .tc Cert.ReferenceIdeal.main_arg7))) (Cert.ReferenceIdeal.Hand.sl2_0 (V0 (Proc.devRef .tc Cert.ReferenceIdeal.main_arg8))) := rfl
  rw [e, Cert.ReferenceIdeal.Hand.bnR_eq, hA.2.2.2.2.2.1, hA.2.2.2.2.2.2.1, hA.2.2.2.2.2.2.2.1, hA.2.2.2.2.2.2.2.2.1]
  unfold Cert.KernelIdeal.Hand.h_1
  rw [lin0_eq hA, meanRow_eq, meanRow_eq, rowOf_eq, rowOf_eq, rowOf_eq]
  rfl

/-- Layer 1's first dense map agrees. -/
theorem lin1_eq (hA : Agree m c V0) : lin_1 m c = Cert.ReferenceIdeal.Value.res_main_v84 V0 := by
  have e : Cert.ReferenceIdeal.Value.res_main_v84 V0 = Cert.ReferenceIdeal.Hand.linR (Cert.ReferenceIdeal.Value.res_main_v63 V0) (Cert.ReferenceIdeal.Hand.agg (Cert.ReferenceIdeal.Value.res_main_v63 V0) (Cert.ReferenceIdeal.Value.res_main_v1 V0) (Cert.ReferenceIdeal.Value.res_main_v3 V0)) (Cert.ReferenceIdeal.Hand.sl3_1 (V0 (Proc.devRef .tc Cert.ReferenceIdeal.main_arg3))) (Cert.ReferenceIdeal.Hand.sl2_1 (V0 (Proc.devRef .tc Cert.ReferenceIdeal.main_arg4))) := rfl
  rw [e, Cert.ReferenceIdeal.Hand.linR_eq, hA.2.2.2.1, hA.2.2.2.2.1]
  unfold Cert.KernelIdeal.Hand.lin_1
  rw [h1_eq hA, src_eq hA, dst_eq hA, rowOf_eq]
  rfl

/-- Layer 1's output features agree. -/
theorem h2_eq (hA : Agree m c V0) : h_2 m c = Cert.ReferenceIdeal.Value.res_main_v123 V0 := by
  have e : Cert.ReferenceIdeal.Value.res_main_v123 V0 = Cert.ReferenceIdeal.Hand.bnR (Cert.ReferenceIdeal.Value.res_main_v84 V0) (Cert.ReferenceIdeal.Value.res_main_v87 V0) (Cert.ReferenceIdeal.Hand.mean64 (mulf (Cert.ReferenceIdeal.Value.res_main_v90 V0) (Cert.ReferenceIdeal.Value.res_main_v90 V0))) (Cert.ReferenceIdeal.Hand.sl2_1 (V0 (Proc.devRef .tc Cert.ReferenceIdeal.main_arg5))) (Cert.ReferenceIdeal.Hand.sl2_1 (V0 (Proc.devRef .tc Cert.ReferenceIdeal.main_arg6))) (Cert.ReferenceIdeal.Hand.sl3_1 (V0 (Proc.devRef .tc Cert.ReferenceIdeal.main_arg7))) (Cert.ReferenceIdeal.Hand.sl2_1 (V0 (Proc.devRef .tc Cert.ReferenceIdeal.main_arg8))) := rfl
  rw [e, Cert.ReferenceIdeal.Hand.bnR_eq, hA.2.2.2.2.2.1, hA.2.2.2.2.2.2.1, hA.2.2.2.2.2.2.2.1, hA.2.2.2.2.2.2.2.2.1]
  unfold Cert.KernelIdeal.Hand.h_2
  rw [lin1_eq hA, meanRow_eq, meanRow_eq, rowOf_eq, rowOf_eq, rowOf_eq]
  rfl

/-- Layer 2's first dense map agrees. -/
theorem lin2_eq (hA : Agree m c V0) : lin_2 m c = Cert.ReferenceIdeal.Value.res_main_v144 V0 := by
  have e : Cert.ReferenceIdeal.Value.res_main_v144 V0 = Cert.ReferenceIdeal.Hand.linR (Cert.ReferenceIdeal.Value.res_main_v123 V0) (Cert.ReferenceIdeal.Hand.agg (Cert.ReferenceIdeal.Value.res_main_v123 V0) (Cert.ReferenceIdeal.Value.res_main_v1 V0) (Cert.ReferenceIdeal.Value.res_main_v3 V0)) (Cert.ReferenceIdeal.Hand.sl3_2 (V0 (Proc.devRef .tc Cert.ReferenceIdeal.main_arg3))) (Cert.ReferenceIdeal.Hand.sl2_2 (V0 (Proc.devRef .tc Cert.ReferenceIdeal.main_arg4))) := rfl
  rw [e, Cert.ReferenceIdeal.Hand.linR_eq, hA.2.2.2.1, hA.2.2.2.2.1]
  unfold Cert.KernelIdeal.Hand.lin_2
  rw [h2_eq hA, src_eq hA, dst_eq hA, rowOf_eq]
  rfl

/-- Layer 2's output features agree. -/
theorem h3_eq (hA : Agree m c V0) : h_3 m c = Cert.ReferenceIdeal.Value.res_main_v183 V0 := by
  have e : Cert.ReferenceIdeal.Value.res_main_v183 V0 = Cert.ReferenceIdeal.Hand.bnR (Cert.ReferenceIdeal.Value.res_main_v144 V0) (Cert.ReferenceIdeal.Value.res_main_v147 V0) (Cert.ReferenceIdeal.Hand.mean64 (mulf (Cert.ReferenceIdeal.Value.res_main_v150 V0) (Cert.ReferenceIdeal.Value.res_main_v150 V0))) (Cert.ReferenceIdeal.Hand.sl2_2 (V0 (Proc.devRef .tc Cert.ReferenceIdeal.main_arg5))) (Cert.ReferenceIdeal.Hand.sl2_2 (V0 (Proc.devRef .tc Cert.ReferenceIdeal.main_arg6))) (Cert.ReferenceIdeal.Hand.sl3_2 (V0 (Proc.devRef .tc Cert.ReferenceIdeal.main_arg7))) (Cert.ReferenceIdeal.Hand.sl2_2 (V0 (Proc.devRef .tc Cert.ReferenceIdeal.main_arg8))) := rfl
  rw [e, Cert.ReferenceIdeal.Hand.bnR_eq, hA.2.2.2.2.2.1, hA.2.2.2.2.2.2.1, hA.2.2.2.2.2.2.2.1, hA.2.2.2.2.2.2.2.2.1]
  unfold Cert.KernelIdeal.Hand.h_3
  rw [lin2_eq hA, meanRow_eq, meanRow_eq, rowOf_eq, rowOf_eq, rowOf_eq]
  rfl

/-- Layer 3's first dense map agrees. -/
theorem lin3_eq (hA : Agree m c V0) : lin_3 m c = Cert.ReferenceIdeal.Value.res_main_v204 V0 := by
  have e : Cert.ReferenceIdeal.Value.res_main_v204 V0 = Cert.ReferenceIdeal.Hand.linR (Cert.ReferenceIdeal.Value.res_main_v183 V0) (Cert.ReferenceIdeal.Hand.agg (Cert.ReferenceIdeal.Value.res_main_v183 V0) (Cert.ReferenceIdeal.Value.res_main_v1 V0) (Cert.ReferenceIdeal.Value.res_main_v3 V0)) (Cert.ReferenceIdeal.Hand.sl3_3 (V0 (Proc.devRef .tc Cert.ReferenceIdeal.main_arg3))) (Cert.ReferenceIdeal.Hand.sl2_3 (V0 (Proc.devRef .tc Cert.ReferenceIdeal.main_arg4))) := rfl
  rw [e, Cert.ReferenceIdeal.Hand.linR_eq, hA.2.2.2.1, hA.2.2.2.2.1]
  unfold Cert.KernelIdeal.Hand.lin_3
  rw [h3_eq hA, src_eq hA, dst_eq hA, rowOf_eq]
  rfl

/-- Layer 3's output features agree. -/
theorem h4_eq (hA : Agree m c V0) : h_4 m c = Cert.ReferenceIdeal.Value.res_main_v243 V0 := by
  have e : Cert.ReferenceIdeal.Value.res_main_v243 V0 = Cert.ReferenceIdeal.Hand.bnR (Cert.ReferenceIdeal.Value.res_main_v204 V0) (Cert.ReferenceIdeal.Value.res_main_v207 V0) (Cert.ReferenceIdeal.Hand.mean64 (mulf (Cert.ReferenceIdeal.Value.res_main_v210 V0) (Cert.ReferenceIdeal.Value.res_main_v210 V0))) (Cert.ReferenceIdeal.Hand.sl2_3 (V0 (Proc.devRef .tc Cert.ReferenceIdeal.main_arg5))) (Cert.ReferenceIdeal.Hand.sl2_3 (V0 (Proc.devRef .tc Cert.ReferenceIdeal.main_arg6))) (Cert.ReferenceIdeal.Hand.sl3_3 (V0 (Proc.devRef .tc Cert.ReferenceIdeal.main_arg7))) (Cert.ReferenceIdeal.Hand.sl2_3 (V0 (Proc.devRef .tc Cert.ReferenceIdeal.main_arg8))) := rfl
  rw [e, Cert.ReferenceIdeal.Hand.bnR_eq, hA.2.2.2.2.2.1, hA.2.2.2.2.2.2.1, hA.2.2.2.2.2.2.2.1, hA.2.2.2.2.2.2.2.2.1]
  unfold Cert.KernelIdeal.Hand.h_4
  rw [lin3_eq hA, meanRow_eq, meanRow_eq, rowOf_eq, rowOf_eq, rowOf_eq]
  rfl

/-- Layer 4's first dense map agrees. -/
theorem lin4_eq (hA : Agree m c V0) : lin_4 m c = Cert.ReferenceIdeal.Value.res_main_v264 V0 := by
  have e : Cert.ReferenceIdeal.Value.res_main_v264 V0 = Cert.ReferenceIdeal.Hand.linR (Cert.ReferenceIdeal.Value.res_main_v243 V0) (Cert.ReferenceIdeal.Hand.agg (Cert.ReferenceIdeal.Value.res_main_v243 V0) (Cert.ReferenceIdeal.Value.res_main_v1 V0) (Cert.ReferenceIdeal.Value.res_main_v3 V0)) (Cert.ReferenceIdeal.Hand.sl3_4 (V0 (Proc.devRef .tc Cert.ReferenceIdeal.main_arg3))) (Cert.ReferenceIdeal.Hand.sl2_4 (V0 (Proc.devRef .tc Cert.ReferenceIdeal.main_arg4))) := rfl
  rw [e, Cert.ReferenceIdeal.Hand.linR_eq, hA.2.2.2.1, hA.2.2.2.2.1]
  unfold Cert.KernelIdeal.Hand.lin_4
  rw [h4_eq hA, src_eq hA, dst_eq hA, rowOf_eq]
  rfl

/-- The last layer's output features, in the reference's whole-array form. -/
def h5R (V0 : Valuation Cert.ReferenceIdeal.τ Cert.ReferenceIdeal.sig (Elt Ideal)) : FVec Ideal Cert.ReferenceIdeal.S100000x64 .f32 := Cert.ReferenceIdeal.Hand.bnR (Cert.ReferenceIdeal.Value.res_main_v264 V0) (Cert.ReferenceIdeal.Value.res_main_v267 V0) (Cert.ReferenceIdeal.Hand.mean64 (mulf (Cert.ReferenceIdeal.Value.res_main_v270 V0) (Cert.ReferenceIdeal.Value.res_main_v270 V0))) (Cert.ReferenceIdeal.Hand.sl2_4 (V0 (Proc.devRef .tc Cert.ReferenceIdeal.main_arg5))) (Cert.ReferenceIdeal.Hand.sl2_4 (V0 (Proc.devRef .tc Cert.ReferenceIdeal.main_arg6))) (Cert.ReferenceIdeal.Hand.sl3_4 (V0 (Proc.devRef .tc Cert.ReferenceIdeal.main_arg7))) (Cert.ReferenceIdeal.Hand.sl2_4 (V0 (Proc.devRef .tc Cert.ReferenceIdeal.main_arg8)))

theorem h5_eq (hA : Agree m c V0) : h_5 m c = h5R V0 := by
  unfold h5R
  rw [Cert.ReferenceIdeal.Hand.bnR_eq, hA.2.2.2.2.2.1, hA.2.2.2.2.2.2.1, hA.2.2.2.2.2.2.2.1, hA.2.2.2.2.2.2.2.2.1]
  unfold Cert.KernelIdeal.Hand.h_5
  rw [lin4_eq hA, meanRow_eq, meanRow_eq, rowOf_eq, rowOf_eq, rowOf_eq]
  rfl

/-- The result agrees: the read-out of the pooled features. -/
theorem out_eq (hA : Agree m c V0) : outK m c = Cert.ReferenceIdeal.Hand.finR (Cert.ReferenceIdeal.Hand.pool (h5R V0) (V0 (Proc.devRef .tc Cert.ReferenceIdeal.main_arg2))) (V0 (Proc.devRef .tc Cert.ReferenceIdeal.main_arg9)) (V0 (Proc.devRef .tc Cert.ReferenceIdeal.main_arg10)) := by
  rw [Cert.ReferenceIdeal.Hand.finR_eq, hA.2.2.1, hA.2.2.2.2.2.2.2.2.2.1, hA.2.2.2.2.2.2.2.2.2.2]
  unfold Cert.KernelIdeal.Hand.outK
  rw [h5_eq hA, rowOf16_eq, pool_eq]

end Cert.Proof.Bridge

end
-- ==== Proof.lean ====
/-
  The certificate of a five-layer graph isomorphism network computed by eleven device calls against the same network in
  whole-array operations.

  Both idealized programs run to the end from any memory and leave their arguments as launched. The kernel's result
  array ends holding the read-out of the pooled features of the fifth layer, each layer being
  tanh (tanh (batch-normalised ((1.3 · h + aggregate of h) · W1 + b1)) · W2 + b2); the reference's result is the same
  function of the same arguments: its dense maps are the same sums over the contracted column, its means and variances
  the same column sums divided by 100000, and its 1 / (1 + exp (−x)) the logistic function. No law of arithmetic beyond
  reading the two spellings entry by entry is needed, so finiteness of the inputs is never used. The idealization
  rewrote no operation of the kernel.
-/
import proofs.«111606_j9388798509633_1_alg».proof.Defs
import proofs.«111606_j9388798509633_1_alg».proof.Proof.Gen.Kernel
import proofs.«111606_j9388798509633_1_alg».proof.Proof.Gen.Kernel.Skeleton
import proofs.«111606_j9388798509633_1_alg».proof.Proof.Gen.Kernel.Launch
import proofs.«111606_j9388798509633_1_alg».proof.Proof.Gen.Kernel.Points
import proofs.«111606_j9388798509633_1_alg».proof.Proof.Gen.Kernel.Frame
import proofs.«111606_j9388798509633_1_alg».proof.Proof.Gen.KernelIdeal
import proofs.«111606_j9388798509633_1_alg».proof.Proof.Gen.KernelIdeal.Skeleton
import proofs.«111606_j9388798509633_1_alg».proof.Proof.Gen.KernelIdeal.Launch
import proofs.«111606_j9388798509633_1_alg».proof.Proof.Gen.KernelIdeal.Points
import proofs.«111606_j9388798509633_1_alg».proof.Proof.Gen.KernelIdeal.Frame
import proofs.«111606_j9388798509633_1_alg».proof.Proof.Gen.ReferenceIdeal
import proofs.«111606_j9388798509633_1_alg».proof.Proof.Gen.ReferenceIdeal.Run
import proofs.«111606_j9388798509633_1_alg».proof.Proof.Gen.Pre_finite_inputs
import proofs.«111606_j9388798509633_1_alg».proof.Proof.KRun
import proofs.«111606_j9388798509633_1_alg».proof.Proof.KFinal
import proofs.«111606_j9388798509633_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result array: the read-out
    of the pooled fifth-layer features, as the kernel's run leaves it and as the reference's run states it. -/
theorem algebraic : Cert.algebraic_KernelIdeal_ReferenceIdeal := by
  intro m ρ m' ρ' _ hagree
  refine ⟨fun c => Cert.KernelIdeal.Hand.outK m c, ?_, ?_⟩
  · exact (θ_run Cert.KernelIdeal.defs _ _).mono
      (fun r h c => ⟨(h c).1.trans (Cert.KernelIdeal.Hand.W22_out m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    exact (Cert.Proof.Bridge.out_eq (m := m) (c := c) (V0 := StableHlo.launchContents m' c) (hagree c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
